-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v119)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v119) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v178) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S64x64 : Shape := ⟨2, ![64, 64]⟩
abbrev S64x1 : Shape := ⟨2, ![64, 1]⟩
abbrev S7x7 : Shape := ⟨2, ![7, 7]⟩
abbrev S100000 : Shape := ⟨1, ![100000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S7x7 : S_.BroadcastsInDim S7x7 (![] : Fin 0 → Fin S7x7.rank)
  reducesTo_S7x7_S_d0_1 : S7x7.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S64x1 .f32) (main_arg12 : FVec F S64x1 .f32) (main_arg13 : FVec F S7x7 .f32) (main_v48 : IVec S_ 1) (main_v49 : FVec F S64x1 .f32) (main_v50 : FVec F S64x1 .f32) : IVec S_ 1 :=
  let main_v51 : IVec S64x1 1 := cmpf .olt main_v49 main_v50
  let main_c_19 : IVec S_ 1 := constantI S_ 1 1#1
  let main_v52 : IVec S_ 1 := (fun x v => Host.reduce IntOp.andi x v reducesTo_S64x1_S_d0_1 h_S_) main_v51 main_c_19
  let main_v53 : IVec S_ 1 := andi main_v48 main_v52
  let main_v54 : FVec F S64x1 .f32 := Host.absf main_arg11
  let main_cst_20 : FVec F S_ .f32 := constant S_ .f32 0x7F800000#32
  let main_v55 : FVec F S64x1 .f32 := broadcastInDim S64x1 ![] bcast_S_S64x1 main_cst_20
  let main_v56 : IVec S64x1 1 := cmpf .olt main_v54 main_v55
  let main_c_21 : IVec S_ 1 := constantI S_ 1 1#1
  let main_v57 : IVec S_ 1 := (fun x v => Host.reduce IntOp.andi x v reducesTo_S64x1_S_d0_1 h_S_) main_v56 main_c_21
  let main_v58 : IVec S_ 1 := andi main_v53 main_v57
  let main_v59 : FVec F S64x1 .f32 := Host.absf main_arg12
  let main_cst_22 : FVec F S_ .f32 := constant S_ .f32 0x7F800000#32
  let main_v60 : FVec F S64x1 .f32 := broadcastInDim S64x1 ![] bcast_S_S64x1 main_cst_22
  let main_v61 : IVec S64x1 1 := cmpf .olt main_v59 main_v60
  let main_c_23 : IVec S_ 1 := constantI S_ 1 1#1
  let main_v62 : IVec S_ 1 := (fun x v => Host.reduce IntOp.andi x v reducesTo_S64x1_S_d0_1 h_S_) main_v61 main_c_23
  let main_v63 : IVec S_ 1 := andi main_v58 main_v62
  let main_v64 : FVec F S7x7 .f32 := Host.absf main_arg13
  let main_cst_24 : FVec F S_ .f32 := constant S_ .f32 0x7F800000#32
  let main_v65 : FVec F S7x7 .f32 := broadcastInDim S7x7 ![] bcast_S_S7x7 main_cst_24
  let main_v66 : IVec S7x7 1 := cmpf .olt main_v64 main_v65
  let main_c_25 : IVec S_ 1 := constantI S_ 1 1#1
  let main_v67 : IVec S_ 1 := (fun x v => Host.reduce IntOp.andi x v reducesTo_S7x7_S_d0_1 h_S_) main_v66 main_c_25
  fn_part4 (F := F) main_v63 main_v67

def fn_part2 {F : FTy → Type} [FloatOps F] (main_arg7 : FVec F S64x1 .f32) (main_arg8 : FVec F S64x1 .f32) (main_arg9 : FVec F S64x1 .f32) (main_arg10 : FVec F S64x1 .f32) (main_arg11 : FVec F S64x1 .f32) (main_arg12 : FVec F S64x1 .f32) (main_arg13 : FVec F S7x7 .f32) (main_v33 : IVec S_ 1) : IVec S_ 1 :=
  let main_v34 : FVec F S64x1 .f32 := Host.absf main_arg7
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  let main_v39 : FVec F S64x1 .f32 := Host.absf main_arg8
  let main_cst_14 : FVec F S_ .f32 := constant S_ .f32 0x7F800000#32
  let main_v40 : FVec F S64x1 .f32 := broadcastInDim S64x1 ![] bcast_S_S64x1 main_cst_14
  let main_v41 : IVec S64x1 1 := cmpf .olt main_v39 main_v40
  let main_c_15 : IVec S_ 1 := constantI S_ 1 1#1
  let main_v42 : IVec S_ 1 := (fun x v => Host.reduce IntOp.andi x v reducesTo_S64x1_S_d0_1 h_S_) main_v41 main_c_15
  let main_v43 : IVec S_ 1 := andi main_v38 main_v42
  let main_v44 : FVec F S64x1 .f32 := Host.absf main_arg9
  let main_cst_16 : FVec F S_ .f32 := constant S_ .f32 0x7F800000#32
  let main_v45 : FVec F S64x1 .f32 := broadcastInDim S64x1 ![] bcast_S_S64x1 main_cst_16
  let main_v46 : IVec S64x1 1 := cmpf .olt main_v44 main_v45
  let main_c_17 : IVec S_ 1 := constantI S_ 1 1#1
  let main_v47 : IVec S_ 1 := (fun x v => Host.reduce IntOp.andi x v reducesTo_S64x1_S_d0_1 h_S_) main_v46 main_c_17
  let main_v48 : IVec S_ 1 := andi main_v43 main_v47
  let main_v49 : FVec F S64x1 .f32 := Host.absf main_arg10
  let main_cst_18 : FVec F S_ .f32 := constant S_ .f32 0x7F800000#32
  let main_v50 : FVec F S64x1 .f32 := broadcastInDim S64x1 ![] bcast_S_S64x1 main_cst_18
  fn_part3 (F := F) main_arg11 main_arg12 main_arg13 main_v48 main_v49 main_v50

def fn_part1 {F : FTy → Type} [FloatOps F] (main_arg4 : FVec F S64x64 .f32) (main_arg5 : FVec F S64x64 .f32) (main_arg6 : FVec F S64x1 .f32) (main_arg7 : FVec F S64x1 .f32) (main_arg8 : FVec F S64x1 .f32) (main_arg9 : FVec F S64x1 .f32) (main_arg10 : FVec F S64x1 .f32) (main_arg11 : FVec F S64x1 .f32) (main_arg12 : FVec F S64x1 .f32) (main_arg13 : FVec F S7x7 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64x1 .f32 := Host.absf main_arg6
  let main_cst_10 : FVec F S_ .f32 := constant S_ .f32 0x7F800000#32
  let main_v30 : FVec F S64x1 .f32 := broadcastInDim S64x1 ![] bcast_S_S64x1 main_cst_10
  let main_v31 : IVec S64x1 1 := cmpf .olt main_v29 main_v30
  let main_c_11 : IVec S_ 1 := constantI S_ 1 1#1
  let main_v32 : IVec S_ 1 := (fun x v => Host.reduce IntOp.andi x v reducesTo_S64x1_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S100000x64 .f32) (main_arg1 : FVec F S1600000 .f32) (main_arg2 : FVec F S1600000 .f32) (main_arg3 : FVec F S64x64 .f32) (main_arg4 : FVec F S64x64 .f32) (main_arg5 : FVec F S64x64 .f32) (main_arg6 : FVec F S64x1 .f32) (main_arg7 : FVec F S64x1 .f32) (main_arg8 : FVec F S64x1 .f32) (main_arg9 : FVec F S64x1 .f32) (main_arg10 : FVec F S64x1 .f32) (main_arg11 : FVec F S64x1 .f32) (main_arg12 : FVec F S64x1 .f32) (main_arg13 : FVec F S7x7 .f32) (main_arg14 : IVec S1600000 32) (main_arg15 : IVec S1600000 32) (main_arg16 : IVec S100000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000 .f32 := Host.absf main_arg1
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S1600000 .f32 := Host.absf main_arg2
  let main_cst_2 : FVec F S_ .f32 := constant S_ .f32 0x7F800000#32
  let main_v10 : FVec F S1600000 .f32 := broadcastInDim S1600000 ![] bcast_S_S1600000 main_cst_2
  let main_v11 : IVec S1600000 1 := cmpf .olt main_v9 main_v10
  let main_c_3 : IVec S_ 1 := constantI S_ 1 1#1
  let main_v12 : IVec S_ 1 := (fun x v => Host.reduce IntOp.andi x v reducesTo_S1600000_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_arg7 main_arg8 main_arg9 main_arg10 main_arg11 main_arg12 main_arg13 main_v13 main_v16
-- ==== Kernel.lean ====
abbrev S100000x64 : Shape := ⟨2, ![100000, 64]⟩
abbrev S1600000 : Shape := ⟨1, ![1600000]⟩
abbrev S64x64 : Shape := ⟨2, ![64, 64]⟩
abbrev S64x1 : Shape := ⟨2, ![64, 1]⟩
abbrev S7x7 : Shape := ⟨2, ![7, 7]⟩
abbrev S100000 : Shape := ⟨1, ![100000]⟩
abbrev S2000x64 : Shape := ⟨2, ![2000, 64]⟩
abbrev S_ : Shape := ⟨0, ![]⟩
abbrev S1600000x1 : Shape := ⟨2, ![1600000, 1]⟩
abbrev S1600000x64 : Shape := ⟨2, ![1600000, 64]⟩
abbrev S64 : Shape := ⟨1, ![64]⟩
abbrev S1x64 : Shape := ⟨2, ![1, 64]⟩
abbrev S2000 : Shape := ⟨1, ![2000]⟩
abbrev S2000x1 : Shape := ⟨2, ![2000, 1]⟩
abbrev S2000x7 : Shape := ⟨2, ![2000, 7]⟩

abbrev nBuf : Space → Nat
  | .hbm => 177
  | .vmem => 35
  | .smem => 0
  | _ => 0

abbrev hbmTy0_0 (i : Nat) : BufTy := match i % 128 with
  | 0 => ⟨S100000x64, .f32⟩
  | 1 => ⟨S1600000, .f32⟩
  | 2 => ⟨S1600000, .f32⟩
  | 3 => ⟨S64x64, .f32⟩
  | 4 => ⟨S64x64, .f32⟩
  | 5 => ⟨S64x64, .f32⟩
  | 6 => ⟨S64x1, .f32⟩
  | 7 => ⟨S64x1, .f32⟩
  | 8 => ⟨S64x1, .f32⟩
  | 9 => ⟨S64x1, .f32⟩
  | 10 => ⟨S64x1, .f32⟩
  | 11 => ⟨S64x1, .f32⟩
  | 12 => ⟨S64x1, .f32⟩
  | 13 => ⟨S7x7, .f32⟩
  | 14 => ⟨S1600000, .i32⟩
  | 15 => ⟨S1600000, .i32⟩
  | 16 => ⟨S100000, .i32⟩
  | 17 => ⟨S100000x64, .f32⟩
  | 18 => ⟨S100000x64, .f32⟩
  | 19 => ⟨S100000x64, .f32⟩
  | 20 => ⟨S_, .i32⟩
  | 21 => ⟨S1600000, .i32⟩
  | 22 => ⟨S1600000, .i1⟩
  | 23 => ⟨S_, .i32⟩
  | 24 => ⟨S1600000, .i32⟩
  | 25 => ⟨S1600000, .i32⟩
  | 26 => ⟨S1600000, .i32⟩
  | 27 => ⟨S1600000x1, .i32⟩
  | 28 => ⟨S1600000x64, .f32⟩
  | 29 => ⟨S1600000x1, .f32⟩
  | 30 => ⟨S1600000x64, .f32⟩
  | 31 => ⟨S1600000x64, .f32⟩
  | 32 => ⟨S_, .f32⟩
  | 33 => ⟨S100000x64, .f32⟩
  | 34 => ⟨S1600000x1, .i32⟩
  | 35 => ⟨S100000x64, .f32⟩
  | 36 => ⟨S_, .f32⟩
  | 37 => ⟨S100000x64, .f32⟩
  | 38 => ⟨S100000x64, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000x64, .f32⟩
  | 48 => ⟨S1600000x1, .f32⟩
  | 49 => ⟨S1600000x64, .f32⟩
  | 50 => ⟨S1600000x64, .f32⟩
  | 51 => ⟨S_, .f32⟩
  | 52 => ⟨S100000x64, .f32⟩
  | 53 => ⟨S1600000x1, .i32⟩
  | 54 => ⟨S100000x64, .f32⟩
  | 55 => ⟨S_, .f32⟩
  | 56 => ⟨S100000x64, .f32⟩
  | 57 => ⟨S100000x64, .f32⟩
  | 58 => ⟨S_, .i32⟩
  | 59 => ⟨S1600000, .i32⟩
  | 60 => ⟨S1600000, .i1⟩
  | 61 => ⟨S_, .i32⟩
  | 62 => ⟨S1600000, .i32⟩
  | 63 => ⟨S1600000, .i32⟩
  | 64 => ⟨S1600000, .i32⟩
  | 65 => ⟨S1600000x1, .i32⟩
  | 66 => ⟨S1600000, .i32⟩
  | 67 => ⟨S_, .i32⟩
  | 68 => ⟨S1600000, .i32⟩
  | 69 => ⟨S1600000, .i1⟩
  | 70 => ⟨S_, .i32⟩
  | 71 => ⟨S1600000, .i32⟩
  | 72 => ⟨S1600000, .i32⟩
  | 73 => ⟨S1600000, .i32⟩
  | 74 => ⟨S1600000x1, .i32⟩
  | 75 => ⟨S1600000, .i32⟩
  | 76 => ⟨S_, .i32⟩
  | 77 => ⟨S1600000, .i32⟩
  | 78 => ⟨S1600000, .i1⟩
  | 79 => ⟨S_, .i32⟩
  | 80 => ⟨S1600000, .i32⟩
  | 81 => ⟨S1600000, .i1⟩
  | 82 => ⟨S1600000, .i1⟩
  | 83 => ⟨S1600000, .i1⟩
  | 84 => ⟨S_, .i32⟩
  | 85 => ⟨S_, .i32⟩
  | 86 => ⟨S1600000, .i32⟩
  | 87 => ⟨S1600000, .i32⟩
  | 88 => ⟨S1600000, .i32⟩
  | 89 => ⟨S_, .i32⟩
  | 90 => ⟨S1600000, .i32⟩
  | 91 => ⟨S1600000, .i32⟩
  | 92 => ⟨S_, .i32⟩
  | 93 => ⟨S1600000, .i32⟩
  | 94 => ⟨S1600000, .i1⟩
  | 95 => ⟨S_, .i32⟩
  | 96 => ⟨S1600000, .i32⟩
  | 97 => ⟨S1600000, .i32⟩
  | 98 => ⟨S1600000, .i32⟩
  | 99 => ⟨S1600000x1, .i32⟩
  | 100 => ⟨S1600000x64, .f32⟩
  | 101 => ⟨S_, .i32⟩
  | 102 => ⟨S1600000, .i32⟩
  | 103 => ⟨S1600000, .i1⟩
  | 104 => ⟨S_, .i32⟩
  | 105 => ⟨S1600000, .i32⟩
  | 106 => ⟨S1600000, .i32⟩
  | 107 => ⟨S1600000, .i32⟩
  | 108 => ⟨S1600000x1, .i32⟩
  | 109 => ⟨S1600000x64, .f32⟩
  | 110 => ⟨S_, .i32⟩
  | 111 => ⟨S1600000, .i32⟩
  | 112 => ⟨S1600000, .i1⟩
  | 113 => ⟨S1600000, .f32⟩
  | 114 => ⟨S1600000x1, .f32⟩
  | 115 => ⟨S1600000x64, .f32⟩
  | 116 => ⟨S1600000x64, .f32⟩
  | 117 => ⟨S_, .f32⟩
  | 118 => ⟨S100000x64, .f32⟩
  | 119 => ⟨S1600000x1, .i32⟩
  | 120 => ⟨S100000x64, .f32⟩
  | 121 => ⟨S_, .i32⟩
  | 122 => ⟨S1600000, .i32⟩
  | 123 => ⟨S1600000, .i1⟩
  | 124 => ⟨S1600000, .f32⟩
  | 125 => ⟨S1600000x1, .f32⟩
  | 126 => ⟨S1600000x64, .f32⟩
  | 127 => ⟨S1600000x64, .f32⟩
  | _ => ⟨S100000x64, .f32⟩

abbrev hbmTy0_1 (i : Nat) : BufTy := match i % 128 with
  | 0 => ⟨S_, .f32⟩
  | 1 => ⟨S100000x64, .f32⟩
  | 2 => ⟨S1600000x1, .i32⟩
  | 3 => ⟨S100000x64, .f32⟩
  | 4 => ⟨S_, .i32⟩
  | 5 => ⟨S1600000, .i32⟩
  | 6 => ⟨S1600000, .i1⟩
  | 7 => ⟨S1600000, .f32⟩
  | 8 => ⟨S1600000x1, .f32⟩
  | 9 => ⟨S1600000x64, .f32⟩
  | 10 => ⟨S1600000x64, .f32⟩
  | 11 => ⟨S_, .f32⟩
  | 12 => ⟨S100000x64, .f32⟩
  | 13 => ⟨S1600000x1, .i32⟩
  | 14 => ⟨S100000x64, .f32⟩
  | 15 => ⟨S_, .i32⟩
  | 16 => ⟨S1600000, .i32⟩
  | 17 => ⟨S1600000, .i1⟩
  | 18 => ⟨S1600000, .f32⟩
  | 19 => ⟨S1600000x1, .f32⟩
  | 20 => ⟨S1600000x64, .f32⟩
  | 21 => ⟨S1600000x64, .f32⟩
  | 22 => ⟨S_, .f32⟩
  | 23 => ⟨S100000x64, .f32⟩
  | 24 => ⟨S1600000x1, .i32⟩
  | 25 => ⟨S100000x64, .f32⟩
  | 26 => ⟨S_, .i32⟩
  | 27 => ⟨S1600000, .i32⟩
  | 28 => ⟨S1600000, .i1⟩
  | 29 => ⟨S1600000, .f32⟩
  | 30 => ⟨S1600000x1, .f32⟩
  | 31 => ⟨S1600000x64, .f32⟩
  | 32 => ⟨S1600000x64, .f32⟩
  | 33 => ⟨S_, .f32⟩
  | 34 => ⟨S100000x64, .f32⟩
  | 35 => ⟨S1600000x1, .i32⟩
  | 36 => ⟨S100000x64, .f32⟩
  | 37 => ⟨S_, .i32⟩
  | 38 => ⟨S1600000, .i32⟩
  | 39 => ⟨S1600000, .i1⟩
  | 40 => ⟨S1600000, .f32⟩
  | 41 => ⟨S1600000x1, .f32⟩
  | 42 => ⟨S1600000x64, .f32⟩
  | 43 => ⟨S1600000x64, .f32⟩
  | 44 => ⟨S_, .f32⟩
  | 45 => ⟨S100000x64, .f32⟩
  | 46 => ⟨S1600000x1, .i32⟩
  | 47 => ⟨S100000x64, .f32⟩
  | 48 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S2000x64, .f32⟩
  | .local _ .vmem, ⟨1, _⟩ => ⟨S2000x64, .f32⟩
  | .local _ .vmem, ⟨2, _⟩ => ⟨S64x64, .f32⟩
  | .local _ .vmem, ⟨3, _⟩ => ⟨S64x64, .f32⟩
  | .local _ .vmem, ⟨4, _⟩ => ⟨S64x64, .f32⟩
  | .local _ .vmem, ⟨5, _⟩ => ⟨S2000x64, .f32⟩
  | .local _ .vmem, ⟨6, _⟩ => ⟨S2000x64, .f32⟩
  | .local _ .vmem, ⟨7, _⟩ => ⟨S2000x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S2000x64, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S2000x64, .f32⟩
  | .local _ .vmem, ⟨23, _⟩ => ⟨S2000x64, .f32⟩
  | .local _ .vmem, ⟨24, _⟩ => ⟨S2000x64, .f32⟩
  | .local _ .vmem, ⟨25, _⟩ => ⟨S64x1, .f32⟩
  | .local _ .vmem, ⟨26, _⟩ => ⟨S64x1, .f32⟩
  | .local _ .vmem, ⟨27, _⟩ => ⟨S64x1, .f32⟩
  | .local _ .vmem, ⟨28, _⟩ => ⟨S64x1, .f32⟩
  | .local _ .vmem, ⟨29, _⟩ => ⟨S64x1, .f32⟩
  | .local _ .vmem, ⟨30, _⟩ => ⟨S64x1, .f32⟩
  | .local _ .vmem, ⟨31, _⟩ => ⟨S64x1, .f32⟩
  | .local _ .vmem, ⟨32, _⟩ => ⟨S7x7, .f32⟩
  | .local _ .vmem, ⟨33, _⟩ => ⟨S2000x64, .f32⟩
  | .local _ .vmem, ⟨34, _⟩ => ⟨S2000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0_0 : Ref sig .tc := ⟨.hbm, 17, rfl⟩
abbrev main_v0_1 : Ref sig .tc := ⟨.hbm, 18, rfl⟩
abbrev main_v0_2 : Ref sig .tc := ⟨.hbm, 19, rfl⟩
abbrev main_c : Ref sig .tc := ⟨.hbm, 20, rfl⟩
abbrev main_v1 : Ref sig .tc := ⟨.hbm, 21, rfl⟩
abbrev main_v2 : Ref sig .tc := ⟨.hbm, 22, rfl⟩
abbrev main_c_0 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_call0_cst : Ref sig .tc := ⟨.hbm, 36, rfl⟩
abbrev main_call0_v0 : Ref sig .tc := ⟨.hbm, 37, rfl⟩
abbrev main_v14 : Ref sig .tc := ⟨.hbm, 38, rfl⟩
abbrev main_c_1 : Ref sig .tc := ⟨.hbm, 39, rfl⟩
abbrev main_v15 : Ref sig .tc := ⟨.hbm, 40, rfl⟩
abbrev main_v16 : Ref sig .tc := ⟨.hbm, 41, rfl⟩
abbrev main_c_2 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_cst_3 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_call1_cst : Ref sig .tc := ⟨.hbm, 55, rfl⟩
abbrev main_call1_v0 : Ref sig .tc := ⟨.hbm, 56, rfl⟩
abbrev main_v28 : Ref sig .tc := ⟨.hbm, 57, rfl⟩
abbrev main_c_4 : Ref sig .tc := ⟨.hbm, 58, rfl⟩
abbrev main_v29 : Ref sig .tc := ⟨.hbm, 59, rfl⟩
abbrev main_v30 : Ref sig .tc := ⟨.hbm, 60, rfl⟩
abbrev main_c_5 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_c_6 : Ref sig .tc := ⟨.hbm, 67, rfl⟩
abbrev main_v36 : Ref sig .tc := ⟨.hbm, 68, rfl⟩
abbrev main_v37 : Ref sig .tc := ⟨.hbm, 69, rfl⟩
abbrev main_c_7 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_c_8 : Ref sig .tc := ⟨.hbm, 76, rfl⟩
abbrev main_v43 : Ref sig .tc := ⟨.hbm, 77, rfl⟩
abbrev main_v44 : Ref sig .tc := ⟨.hbm, 78, rfl⟩
abbrev main_c_9 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_c_10 : Ref sig .tc := ⟨.hbm, 84, rfl⟩
abbrev main_c_11 : Ref sig .tc := ⟨.hbm, 85, rfl⟩
abbrev main_call2_v0 : Ref sig .tc := ⟨.hbm, 86, rfl⟩
abbrev main_call2_v1 : Ref sig .tc := ⟨.hbm, 87, rfl⟩
abbrev main_v49 : Ref sig .tc := ⟨.hbm, 88, rfl⟩
abbrev main_c_12 : Ref sig .tc := ⟨.hbm, 89, rfl⟩
abbrev main_call3_v0 : Ref sig .tc := ⟨.hbm, 90, rfl⟩
abbrev main_v50 : Ref sig .tc := ⟨.hbm, 91, rfl⟩
abbrev main_c_13 : Ref sig .tc := ⟨.hbm, 92, rfl⟩
abbrev main_v51 : Ref sig .tc := ⟨.hbm, 93, rfl⟩
abbrev main_v52 : Ref sig .tc := ⟨.hbm, 94, rfl⟩
abbrev main_c_14 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_c_15 : Ref sig .tc := ⟨.hbm, 101, rfl⟩
abbrev main_v58 : Ref sig .tc := ⟨.hbm, 102, rfl⟩
abbrev main_v59 : Ref sig .tc := ⟨.hbm, 103, rfl⟩
abbrev main_c_16 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_c_17 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_cst_18 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_c_19 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_cst_20 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_c_21 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_cst_22 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_c_23 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_cst_24 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_c_25 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_cst_26 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_c_27 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_cst_28 : Ref sig .tc := ⟨.hbm, 172, rfl⟩
abbrev main_v116 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg5_1 : Ref sig .tc := ⟨.vmem, 22, rfl⟩
abbrev cc1_stg6_0 : Ref sig .tc := ⟨.vmem, 23, rfl⟩
abbrev cc1_stg6_1 : Ref sig .tc := ⟨.vmem, 24, rfl⟩
abbrev cc1_stg7_0 : Ref sig .tc := ⟨.vmem, 25, rfl⟩
abbrev cc1_stg8_0 : Ref sig .tc := ⟨.vmem, 26, rfl⟩
abbrev cc1_stg9_0 : Ref sig .tc := ⟨.vmem, 27, rfl⟩
abbrev cc1_stg10_0 : Ref sig .tc := ⟨.vmem, 28, rfl⟩
abbrev cc1_stg11_0 : Ref sig .tc := ⟨.vmem, 29, rfl⟩
abbrev cc1_stg12_0 : Ref sig .tc := ⟨.vmem, 30, rfl⟩
abbrev cc1_stg13_0 : Ref sig .tc := ⟨.vmem, 31, rfl⟩
abbrev cc1_stg14_0 : Ref sig .tc := ⟨.vmem, 32, rfl⟩
abbrev cc1_stg15_0 : Ref sig .tc := ⟨.vmem, 33, rfl⟩
abbrev cc1_stg15_1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem4_1 : DmaSem sig := 20
abbrev cc1_sem5_0 : DmaSem sig := 21
abbrev cc1_sem5_1 : DmaSem sig := 22
abbrev cc1_sem6_0 : DmaSem sig := 23
abbrev cc1_sem6_1 : DmaSem sig := 24
abbrev cc1_sem7_0 : DmaSem sig := 25
abbrev cc1_sem8_0 : DmaSem sig := 26
abbrev cc1_sem9_0 : DmaSem sig := 27
abbrev cc1_sem10_0 : DmaSem sig := 28
abbrev cc1_sem11_0 : DmaSem sig := 29
abbrev cc1_sem12_0 : DmaSem sig := 30
abbrev cc1_sem13_0 : DmaSem sig := 31
abbrev cc1_sem14_0 : DmaSem sig := 32
abbrev cc1_sem15_0 : DmaSem sig := 33
abbrev cc1_sem15_1 : DmaSem sig := 34

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S64x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S64x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S64x1 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S64x1 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S64x1 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S64x1 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S7x7 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 2 → Memref sig .tc .vmem S2000x64 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

class Facts₀ : Prop where
  inb_S2000x64_S2000x64_0_0 : ∀ a, (![0, 0] : Fin 2 → Nat) a + S2000x64.size a ≤ S2000x64.size a
  h_S2000x64 : 0 < S2000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S2000x64_S2000x64 : S2000x64.ShapeCasts S2000x64
  inb_S64x1_S64x1_0_0 : ∀ a, (![0, 0] : Fin 2 → Nat) a + S64x1.size a ≤ S64x1.size a
  h_S64x1 : 0 < S64x1.numel
  shapeCasts_S64x1_S64 : S64x1.ShapeCasts S64
  shapeCasts_S64_S1x64 : S64.ShapeCasts S1x64
  broadcasts_S1x64_S2000x64 : S1x64.Broadcasts S2000x64
  reduces_S2000x64_S2000 : S2000x64.Reduces [1] S2000
  shapeCasts_S2000_S2000x1 : S2000.ShapeCasts S2000x1
  concatenates_S2000x1_S2000x1_S2000x1_S2000x1_S2000x1_S2000x1_S2000x1_S2000x7_d1 : Shape.Concatenates [S2000x1, S2000x1, S2000x1, S2000x1, S2000x1, S2000x1, S2000x1] S2000x7 1
  inb_S7x7_S7x7_0_0 : ∀ a, (![0, 0] : Fin 2 → Nat) a + S7x7.size a ≤ S7x7.size a
  h_S7x7 : 0 < S7x7.numel
  reduces_S2000x7_S2000 : S2000x7.Reduces [1] S2000
  broadcasts_S2000x1_S2000x7 : S2000x1.Broadcasts S2000x7
  slices_S2000x7_o0_0_S2000x1 : S2000x7.Slices ![0, 0] S2000x1
  broadcasts_S2000x1_S2000x64 : S2000x1.Broadcasts S2000x64
  slices_S2000x7_o0_1_S2000x1 : S2000x7.Slices ![0, 1] S2000x1
  slices_S2000x7_o0_2_S2000x1 : S2000x7.Slices ![0, 2] S2000x1
  slices_S2000x7_o0_3_S2000x1 : S2000x7.Slices ![0, 3] S2000x1
  slices_S2000x7_o0_4_S2000x1 : S2000x7.Slices ![0, 4] S2000x1
  slices_S2000x7_o0_5_S2000x1 : S2000x7.Slices ![0, 5] S2000x1
  slices_S2000x7_o0_6_S2000x1 : S2000x7.Slices ![0, 6] S2000x1
  dot_S2000x64_S64x64_S2000x64_1_0_0_1_n_n_wf : DotDims.WF S2000x64 S64x64 S2000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  gather_S100000_S1600000x1_S1600000_n_0_n_n_0_1_1_wf : GatherDims.WF S100000 S1600000x1 S1600000 [] [0] [] [0] [] 1 ![1]
  dot_S2000x7_S7x7_S2000x7_1_0_0_1_n_n_wf : DotDims.WF S2000x7 S7x7 S2000x7 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x64.size a ≤ S100000x64.size a
  hwx0_4 : ∀ i : grid0.Coords, EltTy.bits .f32 = 32 ∨ (Rect.block (s := S100000x64) S2000x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x64.size a ≤ S100000x64.size a
  hwx0_5 : ∀ i : grid0.Coords, EltTy.bits .f32 = 32 ∨ (Rect.block (s := S100000x64) S2000x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x64.size a ≤ S100000x64.size a
  hwx0_6 : ∀ i : grid0.Coords, EltTy.bits .f32 = 32 ∨ (Rect.block (s := S100000x64) S2000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S100000x64.size a
  hwx1_1 : ∀ i : grid1.Coords, EltTy.bits .f32 = 32 ∨ (Rect.block (s := S100000x64) S2000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S100000x64.size a
  hwx1_2 : ∀ i : grid1.Coords, EltTy.bits .f32 = 32 ∨ (Rect.block (s := S100000x64) S2000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x64.size a ≤ S100000x64.size a
  hwx1_3 : ∀ i : grid1.Coords, EltTy.bits .f32 = 32 ∨ (Rect.block (s := S100000x64) S2000x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x64.size a ≤ S100000x64.size a
  hwx1_4 : ∀ i : grid1.Coords, EltTy.bits .f32 = 32 ∨ (Rect.block (s := S100000x64) S2000x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x64.size a ≤ S100000x64.size a
  hwx1_5 : ∀ i : grid1.Coords, EltTy.bits .f32 = 32 ∨ (Rect.block (s := S100000x64) S2000x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x64.size a ≤ S100000x64.size a
  hwx1_6 : ∀ i : grid1.Coords, EltTy.bits .f32 = 32 ∨ (Rect.block (s := S100000x64) S2000x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x1.size a ≤ S64x1.size a
  hwx1_7 : ∀ i : grid1.Coords, EltTy.bits .f32 = 32 ∨ (Rect.block (s := S64x1) S64x1.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64x1.size a ≤ S64x1.size a
  hwx1_8 : ∀ i : grid1.Coords, EltTy.bits .f32 = 32 ∨ (Rect.block (s := S64x1) S64x1.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S64x1.size a ≤ S64x1.size a
  hwx1_9 : ∀ i : grid1.Coords, EltTy.bits .f32 = 32 ∨ (Rect.block (s := S64x1) S64x1.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S64x1.size a ≤ S64x1.size a
  hwx1_10 : ∀ i : grid1.Coords, EltTy.bits .f32 = 32 ∨ (Rect.block (s := S64x1) S64x1.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S64x1.size a ≤ S64x1.size a
  hwx1_11 : ∀ i : grid1.Coords, EltTy.bits .f32 = 32 ∨ (Rect.block (s := S64x1) S64x1.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S64x1.size a ≤ S64x1.size a
  hwx1_12 : ∀ i : grid1.Coords, EltTy.bits .f32 = 32 ∨ (Rect.block (s := S64x1) S64x1.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S64x1.size a ≤ S64x1.size a
  hwx1_13 : ∀ i : grid1.Coords, EltTy.bits .f32 = 32 ∨ (Rect.block (s := S64x1) S64x1.size (cc1_transform_13 i) (hinb1_13 i)).WholeWords (EltTy.packing .f32)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S7x7.size a ≤ S7x7.size a
  hwx1_14 : ∀ i : grid1.Coords, EltTy.bits .f32 = 32 ∨ (Rect.block (s := S7x7) S7x7.size (cc1_transform_14 i) (hinb1_14 i)).WholeWords (EltTy.packing .f32)
  hstage1_15 : ∀ j, (stage1_15 j).IsWhole
  nbuf1_15 : grid1.bufCount reads1_15 false = 2
  hreads1_15 : ∀ i i' : grid1.Coords, (∀ a, reads1_15 a = true → i a = i' a) → cc1_transform_15 i = cc1_transform_15 i'
  hinb1_15 : ∀ (i : grid1.Coords) a, (cc1_transform_15 i a + 1) * S2000x64.size a ≤ S100000x64.size a
  hwx1_15 : ∀ i : grid1.Coords, EltTy.bits .f32 = 32 ∨ (Rect.block (s := S100000x64) S2000x64.size (cc1_transform_15 i) (hinb1_15 i)).WholeWords (EltTy.packing .f32)

variable [Facts₀]

def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S2000x7_S7x7_S2000x7_1_0_0_1_n_n : DotDims S2000x7 S7x7 S2000x7 where
  lhsContracting := [1]
  rhsContracting := [0]
  lhsNonContracting := [0]
  rhsNonContracting := [1]
  lhsBatch := []
  rhsBatch := []
  wf := dot_S2000x7_S7x7_S2000x7_1_0_0_1_n_n_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S2000x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S2000x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_2) S2000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v82) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v109) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v73) S2000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v100) S2000x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v91) S2000x64.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v118) S2000x64.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v0_2) S2000x64.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_arg6) S64x1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg7) S64x1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg8) S64x1.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg9) S64x1.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_arg10) S64x1.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_arg11) S64x1.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_arg12) S64x1.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_arg13) S7x7.size cc1_transform_14 reads1_14 false true 1 stage1_14 sem1_14
    hrank1 hreads1_14 hinb1_14 nbuf1_14 (Memref.isWhole_whole _) hwx1_14 hstage1_14

abbrev win1_15 : Pipeline.Window sig grid1 :=
  Pipeline.Window.ofSpec (Memref.whole main_v119) S2000x64.size cc1_transform_15 reads1_15 true false 2 stage1_15 sem1_15
    hrank1 hreads1_15 hinb1_15 nbuf1_15 (Memref.isWhole_whole _) hwx1_15 hstage1_15

abbrev win1 : Fin 16 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | ⟨_ + 16, h⟩ => absurd h (Nat.not_lt.2 (Nat.le_add_left _ _))
abbrev spec1 : Fin 16 → Pipeline.WinSpec sig grid1.rank := fun w => (win1 w).toWinSpec

class Facts : Prop extends Facts₀ where

variable [Facts]
-- ==== ReferenceIdeal.lean ====
abbrev S100000x64 : Shape := ⟨2, ![100000, 64]⟩
abbrev S1600000 : Shape := ⟨1, ![1600000]⟩
abbrev S64x64 : Shape := ⟨2, ![64, 64]⟩
abbrev S64x1 : Shape := ⟨2, ![64, 1]⟩
abbrev S7x7 : Shape := ⟨2, ![7, 7]⟩
abbrev S100000 : Shape := ⟨1, ![100000]⟩
abbrev S1600000x1 : Shape := ⟨2, ![1600000, 1]⟩
abbrev S_ : Shape := ⟨0, ![]⟩
abbrev S1600000x64 : Shape := ⟨2, ![1600000, 64]⟩
abbrev S100000x1 : Shape := ⟨2, ![100000, 1]⟩
abbrev S100000x7 : Shape := ⟨2, ![100000, 7]⟩

abbrev nBuf : Space → Nat
  | .hbm => 243
  | .vmem => 0
  | .smem => 0
  | _ => 0

abbrev hbmTy0_0 (i : Nat) : BufTy := match i % 128 with
  | 0 => ⟨S100000x64, .f32⟩
  | 1 => ⟨S1600000, .f32⟩
  | 2 => ⟨S1600000, .f32⟩
  | 3 => ⟨S64x64, .f32⟩
  | 4 => ⟨S64x64, .f32⟩
  | 5 => ⟨S64x64, .f32⟩
  | 6 => ⟨S64x1, .f32⟩
  | 7 => ⟨S64x1, .f32⟩
  | 8 => ⟨S64x1, .f32⟩
  | 9 => ⟨S64x1, .f32⟩
  | 10 => ⟨S64x1, .f32⟩
  | 11 => ⟨S64x1, .f32⟩
  | 12 => ⟨S64x1, .f32⟩
  | 13 => ⟨S7x7, .f32⟩
  | 14 => ⟨S1600000, .i32⟩
  | 15 => ⟨S1600000, .i32⟩
  | 16 => ⟨S100000, .i32⟩
  | 17 => ⟨S100000x64, .f32⟩
  | 18 => ⟨S1600000x1, .f32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S1600000x64, .f32⟩
  | 28 => ⟨S1600000x64, .f32⟩
  | 29 => ⟨S1600000x64, .f32⟩
  | 30 => ⟨S_, .f32⟩
  | 31 => ⟨S100000x64, .f32⟩
  | 32 => ⟨S1600000x1, .i32⟩
  | 33 => ⟨S100000x64, .f32⟩
  | 34 => ⟨S_, .f32⟩
  | 35 => ⟨S100000x64, .f32⟩
  | 36 => ⟨S100000x64, .f32⟩
  | 37 => ⟨S100000x64, .f32⟩
  | 38 => ⟨S1600000x1, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000x64, .f32⟩
  | 48 => ⟨S1600000x64, .f32⟩
  | 49 => ⟨S1600000x64, .f32⟩
  | 50 => ⟨S_, .f32⟩
  | 51 => ⟨S100000x64, .f32⟩
  | 52 => ⟨S1600000x1, .i32⟩
  | 53 => ⟨S100000x64, .f32⟩
  | 54 => ⟨S_, .f32⟩
  | 55 => ⟨S100000x64, .f32⟩
  | 56 => ⟨S100000x64, .f32⟩
  | 57 => ⟨S100000x64, .f32⟩
  | 58 => ⟨S_, .f32⟩
  | 59 => ⟨S100000x64, .f32⟩
  | 60 => ⟨S100000x64, .f32⟩
  | 61 => ⟨S_, .i32⟩
  | 62 => ⟨S1600000, .i32⟩
  | 63 => ⟨S1600000, .i1⟩
  | 64 => ⟨S_, .i32⟩
  | 65 => ⟨S1600000, .i32⟩
  | 66 => ⟨S1600000, .i32⟩
  | 67 => ⟨S1600000, .i32⟩
  | 68 => ⟨S1600000x1, .i32⟩
  | 69 => ⟨S1600000, .i32⟩
  | 70 => ⟨S_, .i32⟩
  | 71 => ⟨S1600000, .i32⟩
  | 72 => ⟨S1600000, .i1⟩
  | 73 => ⟨S_, .i32⟩
  | 74 => ⟨S1600000, .i32⟩
  | 75 => ⟨S1600000, .i32⟩
  | 76 => ⟨S1600000, .i32⟩
  | 77 => ⟨S1600000x1, .i32⟩
  | 78 => ⟨S1600000, .i32⟩
  | 79 => ⟨S_, .i32⟩
  | 80 => ⟨S1600000, .i32⟩
  | 81 => ⟨S1600000, .i1⟩
  | 82 => ⟨S_, .i32⟩
  | 83 => ⟨S1600000, .i32⟩
  | 84 => ⟨S1600000, .i1⟩
  | 85 => ⟨S1600000, .i1⟩
  | 86 => ⟨S1600000, .i1⟩
  | 87 => ⟨S_, .i32⟩
  | 88 => ⟨S_, .i32⟩
  | 89 => ⟨S1600000, .i32⟩
  | 90 => ⟨S1600000, .i32⟩
  | 91 => ⟨S1600000, .i32⟩
  | 92 => ⟨S_, .i32⟩
  | 93 => ⟨S1600000, .i32⟩
  | 94 => ⟨S1600000, .i32⟩
  | 95 => ⟨S_, .i32⟩
  | 96 => ⟨S1600000, .i32⟩
  | 97 => ⟨S1600000, .i1⟩
  | 98 => ⟨S_, .i32⟩
  | 99 => ⟨S1600000, .i32⟩
  | 100 => ⟨S1600000, .i32⟩
  | 101 => ⟨S1600000, .i32⟩
  | 102 => ⟨S1600000x1, .i32⟩
  | 103 => ⟨S1600000x64, .f32⟩
  | 104 => ⟨S_, .i32⟩
  | 105 => ⟨S1600000, .i32⟩
  | 106 => ⟨S1600000, .i1⟩
  | 107 => ⟨S_, .i32⟩
  | 108 => ⟨S1600000, .i32⟩
  | 109 => ⟨S1600000, .i32⟩
  | 110 => ⟨S1600000, .i32⟩
  | 111 => ⟨S1600000x1, .i32⟩
  | 112 => ⟨S1600000x64, .f32⟩
  | 113 => ⟨S_, .i32⟩
  | 114 => ⟨S1600000, .i32⟩
  | 115 => ⟨S1600000, .i1⟩
  | 116 => ⟨S1600000, .f32⟩
  | 117 => ⟨S1600000x1, .f32⟩
  | 118 => ⟨S1600000x64, .f32⟩
  | 119 => ⟨S1600000x64, .f32⟩
  | 120 => ⟨S_, .f32⟩
  | 121 => ⟨S100000x64, .f32⟩
  | 122 => ⟨S1600000x1, .i32⟩
  | 123 => ⟨S100000x64, .f32⟩
  | 124 => ⟨S_, .i32⟩
  | 125 => ⟨S1600000, .i32⟩
  | 126 => ⟨S1600000, .i1⟩
  | 127 => ⟨S1600000, .f32⟩
  | _ => ⟨S100000x64, .f32⟩

abbrev hbmTy0_1 (i : Nat) : BufTy := match i % 128 with
  | 0 => ⟨S1600000x1, .f32⟩
  | 1 => ⟨S1600000x64, .f32⟩
  | 2 => ⟨S1600000x64, .f32⟩
  | 3 => ⟨S_, .f32⟩
  | 4 => ⟨S100000x64, .f32⟩
  | 5 => ⟨S1600000x1, .i32⟩
  | 6 => ⟨S100000x64, .f32⟩
  | 7 => ⟨S_, .i32⟩
  | 8 => ⟨S1600000, .i32⟩
  | 9 => ⟨S1600000, .i1⟩
  | 10 => ⟨S1600000, .f32⟩
  | 11 => ⟨S1600000x1, .f32⟩
  | 12 => ⟨S1600000x64, .f32⟩
  | 13 => ⟨S1600000x64, .f32⟩
  | 14 => ⟨S_, .f32⟩
  | 15 => ⟨S100000x64, .f32⟩
  | 16 => ⟨S1600000x1, .i32⟩
  | 17 => ⟨S100000x64, .f32⟩
  | 18 => ⟨S_, .i32⟩
  | 19 => ⟨S1600000, .i32⟩
  | 20 => ⟨S1600000, .i1⟩
  | 21 => ⟨S1600000, .f32⟩
  | 22 => ⟨S1600000x1, .f32⟩
  | 23 => ⟨S1600000x64, .f32⟩
  | 24 => ⟨S1600000x64, .f32⟩
  | 25 => ⟨S_, .f32⟩
  | 26 => ⟨S100000x64, .f32⟩
  | 27 => ⟨S1600000x1, .i32⟩
  | 28 => ⟨S100000x64, .f32⟩
  | 29 => ⟨S_, .i32⟩
  | 30 => ⟨S1600000, .i32⟩
  | 31 => ⟨S1600000, .i1⟩
  | 32 => ⟨S1600000, .f32⟩
  | 33 => ⟨S1600000x1, .f32⟩
  | 34 => ⟨S1600000x64, .f32⟩
  | 35 => ⟨S1600000x64, .f32⟩
  | 36 => ⟨S_, .f32⟩
  | 37 => ⟨S100000x64, .f32⟩
  | 38 => ⟨S1600000x1, .i32⟩
  | 39 => ⟨S100000x64, .f32⟩
  | 40 => ⟨S_, .i32⟩
  | 41 => ⟨S1600000, .i32⟩
  | 42 => ⟨S1600000, .i1⟩
  | 43 => ⟨S1600000, .f32⟩
  | 44 => ⟨S1600000x1, .f32⟩
  | 45 => ⟨S1600000x64, .f32⟩
  | 46 => ⟨S1600000x64, .f32⟩
  | 47 => ⟨S_, .f32⟩
  | 48 => ⟨S100000x64, .f32⟩
  | 49 => ⟨S1600000x1, .i32⟩
  | 50 => ⟨S100000x64, .f32⟩
  | 51 => ⟨S100000x1, .f32⟩
  | 52 => ⟨S100000x1, .f32⟩
  | 53 => ⟨S100000x1, .f32⟩
  | 54 => ⟨S100000x1, .f32⟩
  | 55 => ⟨S100000x1, .f32⟩
  | 56 => ⟨S100000x1, .f32⟩
  | 57 => ⟨S100000x1, .f32⟩
  | 58 => ⟨S100000x7, .f32⟩
  | 59 => ⟨S100000x7, .f32⟩
  | 60 => ⟨S100000x7, .f32⟩
  | 61 => ⟨S_, .f32⟩
  | 62 => ⟨S100000x7, .f32⟩
  | 63 => ⟨S100000x7, .f32⟩
  | 64 => ⟨S_, .f32⟩
  | 65 => ⟨S100000x7, .f32⟩
  | 66 => ⟨S100000x7, .f32⟩
  | 67 => ⟨S100000x7, .f32⟩
  | 68 => ⟨S_, .f32⟩
  | 69 => ⟨S100000x7, .f32⟩
  | 70 => ⟨S100000x7, .f32⟩
  | 71 => ⟨S_, .f32⟩
  | 72 => ⟨S100000, .f32⟩
  | 73 => ⟨S_, .f32⟩
  | 74 => ⟨S100000, .f32⟩
  | 75 => ⟨S100000, .f32⟩
  | 76 => ⟨S100000x1, .f32⟩
  | 77 => ⟨S100000x7, .f32⟩
  | 78 => ⟨S100000x7, .f32⟩
  | 79 => ⟨S100000x7, .f32⟩
  | 80 => ⟨S_, .f32⟩
  | 81 => ⟨S100000, .f32⟩
  | 82 => ⟨S100000x1, .f32⟩
  | 83 => ⟨S100000x7, .f32⟩
  | 84 => ⟨S100000x7, .f32⟩
  | 85 => ⟨S100000x1, .f32⟩
  | 86 => ⟨S100000x64, .f32⟩
  | 87 => ⟨S100000x64, .f32⟩
  | 88 => ⟨S100000x1, .f32⟩
  | 89 => ⟨S100000x64, .f32⟩
  | 90 => ⟨S100000x64, .f32⟩
  | 91 => ⟨S100000x64, .f32⟩
  | 92 => ⟨S100000x1, .f32⟩
  | 93 => ⟨S100000x64, .f32⟩
  | 94 => ⟨S100000x64, .f32⟩
  | 95 => ⟨S100000x64, .f32⟩
  | 96 => ⟨S100000x1, .f32⟩
  | 97 => ⟨S100000x64, .f32⟩
  | 98 => ⟨S100000x64, .f32⟩
  | 99 => ⟨S100000x64, .f32⟩
  | 100 => ⟨S100000x1, .f32⟩
  | 101 => ⟨S100000x64, .f32⟩
  | 102 => ⟨S100000x64, .f32⟩
  | 103 => ⟨S100000x64, .f32⟩
  | 104 => ⟨S100000x1, .f32⟩
  | 105 => ⟨S100000x64, .f32⟩
  | 106 => ⟨S100000x64, .f32⟩
  | 107 => ⟨S100000x64, .f32⟩
  | 108 => ⟨S100000x1, .f32⟩
  | 109 => ⟨S100000x64, .f32⟩
  | 110 => ⟨S100000x64, .f32⟩
  | 111 => ⟨S100000x64, .f32⟩
  | 112 => ⟨S_, .f32⟩
  | 113 => ⟨S100000x64, .f32⟩
  | 114 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_c : Ref sig .tc := ⟨.hbm, 19, rfl⟩
abbrev main_v2 : Ref sig .tc := ⟨.hbm, 20, rfl⟩
abbrev main_v3 : Ref sig .tc := ⟨.hbm, 21, rfl⟩
abbrev main_c_0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_call0_cst : Ref sig .tc := ⟨.hbm, 34, rfl⟩
abbrev main_call0_v0 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_c_1 : Ref sig .tc := ⟨.hbm, 39, rfl⟩
abbrev main_v17 : Ref sig .tc := ⟨.hbm, 40, rfl⟩
abbrev main_v18 : Ref sig .tc := ⟨.hbm, 41, rfl⟩
abbrev main_c_2 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_cst_3 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_call1_cst : Ref sig .tc := ⟨.hbm, 54, rfl⟩
abbrev main_call1_v0 : Ref sig .tc := ⟨.hbm, 55, rfl⟩
abbrev main_v29 : Ref sig .tc := ⟨.hbm, 56, rfl⟩
abbrev main_v30 : Ref sig .tc := ⟨.hbm, 57, rfl⟩
abbrev main_call2_cst : Ref sig .tc := ⟨.hbm, 58, rfl⟩
abbrev main_call2_v0 : Ref sig .tc := ⟨.hbm, 59, rfl⟩
abbrev main_v31 : Ref sig .tc := ⟨.hbm, 60, rfl⟩
abbrev main_c_4 : Ref sig .tc := ⟨.hbm, 61, rfl⟩
abbrev main_v32 : Ref sig .tc := ⟨.hbm, 62, rfl⟩
abbrev main_v33 : Ref sig .tc := ⟨.hbm, 63, rfl⟩
abbrev main_c_5 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_c_6 : Ref sig .tc := ⟨.hbm, 70, rfl⟩
abbrev main_v39 : Ref sig .tc := ⟨.hbm, 71, rfl⟩
abbrev main_v40 : Ref sig .tc := ⟨.hbm, 72, rfl⟩
abbrev main_c_7 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_c_8 : Ref sig .tc := ⟨.hbm, 79, rfl⟩
abbrev main_v46 : Ref sig .tc := ⟨.hbm, 80, rfl⟩
abbrev main_v47 : Ref sig .tc := ⟨.hbm, 81, rfl⟩
abbrev main_c_9 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_c_10 : Ref sig .tc := ⟨.hbm, 87, rfl⟩
abbrev main_c_11 : Ref sig .tc := ⟨.hbm, 88, rfl⟩
abbrev main_call3_v0 : Ref sig .tc := ⟨.hbm, 89, rfl⟩
abbrev main_call3_v1 : Ref sig .tc := ⟨.hbm, 90, rfl⟩
abbrev main_v52 : Ref sig .tc := ⟨.hbm, 91, rfl⟩
abbrev main_c_12 : Ref sig .tc := ⟨.hbm, 92, rfl⟩
abbrev main_call4_v0 : Ref sig .tc := ⟨.hbm, 93, rfl⟩
abbrev main_v53 : Ref sig .tc := ⟨.hbm, 94, rfl⟩
abbrev main_c_13 : Ref sig .tc := ⟨.hbm, 95, rfl⟩
abbrev main_v54 : Ref sig .tc := ⟨.hbm, 96, rfl⟩
abbrev main_v55 : Ref sig .tc := ⟨.hbm, 97, rfl⟩
abbrev main_c_14 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_c_15 : Ref sig .tc := ⟨.hbm, 104, rfl⟩
abbrev main_v61 : Ref sig .tc := ⟨.hbm, 105, rfl⟩
abbrev main_v62 : Ref sig .tc := ⟨.hbm, 106, rfl⟩
abbrev main_c_16 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_c_17 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_cst_18 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_c_19 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_cst_20 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_c_21 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_cst_22 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_c_23 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_cst_24 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_c_25 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_cst_26 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_c_27 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_cst_28 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_cst_29 : Ref sig .tc := ⟨.hbm, 189, rfl⟩
abbrev main_v132 : Ref sig .tc := ⟨.hbm, 190, rfl⟩
abbrev main_v133 : Ref sig .tc := ⟨.hbm, 191, rfl⟩
abbrev main_cst_30 : Ref sig .tc := ⟨.hbm, 192, rfl⟩
abbrev main_v134 : Ref sig .tc := ⟨.hbm, 193, rfl⟩
abbrev main_v135 : Ref sig .tc := ⟨.hbm, 194, rfl⟩
abbrev main_v136 : Ref sig .tc := ⟨.hbm, 195, rfl⟩
abbrev main_cst_31 : Ref sig .tc := ⟨.hbm, 196, rfl⟩
abbrev main_v137 : Ref sig .tc := ⟨.hbm, 197, rfl⟩
abbrev main_v138 : Ref sig .tc := ⟨.hbm, 198, rfl⟩
abbrev main_cst_32 : Ref sig .tc := ⟨.hbm, 199, rfl⟩
abbrev main_v139 : Ref sig .tc := ⟨.hbm, 200, rfl⟩
abbrev main_cst_33 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_cst_34 : Ref sig .tc := ⟨.hbm, 208, rfl⟩
abbrev main_v146 : Ref sig .tc := ⟨.hbm, 209, rfl⟩
abbrev main_v147 : Ref sig .tc := ⟨.hbm, 210, rfl⟩
abbrev main_v148 : Ref sig .tc := ⟨.hbm, 211, rfl⟩
abbrev main_v149 : Ref sig .tc := ⟨.hbm, 212, rfl⟩
abbrev main_v150 : Ref sig .tc := ⟨.hbm, 213, rfl⟩
abbrev main_v151 : Ref sig .tc := ⟨.hbm, 214, rfl⟩
abbrev main_v152 : Ref sig .tc := ⟨.hbm, 215, rfl⟩
abbrev main_v153 : Ref sig .tc := ⟨.hbm, 216, rfl⟩
abbrev main_v154 : Ref sig .tc := ⟨.hbm, 217, rfl⟩
abbrev main_v155 : Ref sig .tc := ⟨.hbm, 218, rfl⟩
abbrev main_v156 : Ref sig .tc := ⟨.hbm, 219, rfl⟩
abbrev main_v157 : Ref sig .tc := ⟨.hbm, 220, rfl⟩
abbrev main_v158 : Ref sig .tc := ⟨.hbm, 221, rfl⟩
abbrev main_v159 : Ref sig .tc := ⟨.hbm, 222, rfl⟩
abbrev main_v160 : Ref sig .tc := ⟨.hbm, 223, rfl⟩
abbrev main_v161 : Ref sig .tc := ⟨.hbm, 224, rfl⟩
abbrev main_v162 : Ref sig .tc := ⟨.hbm, 225, rfl⟩
abbrev main_v163 : Ref sig .tc := ⟨.hbm, 226, rfl⟩
abbrev main_v164 : Ref sig .tc := ⟨.hbm, 227, rfl⟩
abbrev main_v165 : Ref sig .tc := ⟨.hbm, 228, rfl⟩
abbrev main_v166 : Ref sig .tc := ⟨.hbm, 229, rfl⟩
abbrev main_v167 : Ref sig .tc := ⟨.hbm, 230, rfl⟩
abbrev main_v168 : Ref sig .tc := ⟨.hbm, 231, rfl⟩
abbrev main_v169 : Ref sig .tc := ⟨.hbm, 232, rfl⟩
abbrev main_v170 : Ref sig .tc := ⟨.hbm, 233, rfl⟩
abbrev main_v171 : Ref sig .tc := ⟨.hbm, 234, rfl⟩
abbrev main_v172 : Ref sig .tc := ⟨.hbm, 235, rfl⟩
abbrev main_v173 : Ref sig .tc := ⟨.hbm, 236, rfl⟩
abbrev main_v174 : Ref sig .tc := ⟨.hbm, 237, rfl⟩
abbrev main_v175 : Ref sig .tc := ⟨.hbm, 238, rfl⟩
abbrev main_v176 : Ref sig .tc := ⟨.hbm, 239, rfl⟩
abbrev main_cst_35 : Ref sig .tc := ⟨.hbm, 240, rfl⟩
abbrev main_v177 : Ref sig .tc := ⟨.hbm, 241, rfl⟩
abbrev main_v178 : Ref sig .tc := ⟨.hbm, 242, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  concatenates_S100000x1_S100000x1_S100000x1_S100000x1_S100000x1_S100000x1_S100000x1_S100000x7_d1 : Shape.Concatenates [S100000x1, S100000x1, S100000x1, S100000x1, S100000x1, S100000x1, S100000x1] S100000x7 1
  bcast_S_S100000x7 : S_.BroadcastsInDim S100000x7 (![] : Fin 0 → Fin S100000x7.rank)
  reducesTo_S100000x7_S100000_d1 : S100000x7.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x7_0_1 : S100000x1.BroadcastsInDim S100000x7 (![0, 1] : Fin 2 → Fin S100000x7.rank)
  slices_S100000x7_S100000x1_0_0 : S100000x7.Slices ![0, 0] S100000x1
  bcast_S100000x1_S100000x64_0_1 : S100000x1.BroadcastsInDim S100000x64 (![0, 1] : Fin 2 → Fin S100000x64.rank)
  slices_S100000x7_S100000x1_0_1 : S100000x7.Slices ![0, 1] S100000x1
  slices_S100000x7_S100000x1_0_2 : S100000x7.Slices ![0, 2] S100000x1
  slices_S100000x7_S100000x1_0_3 : S100000x7.Slices ![0, 3] S100000x1
  slices_S100000x7_S100000x1_0_4 : S100000x7.Slices ![0, 4] S100000x1
  slices_S100000x7_S100000x1_0_5 : S100000x7.Slices ![0, 5] S100000x1
  slices_S100000x7_S100000x1_0_6 : S100000x7.Slices ![0, 6] S100000x1
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  gather_S100000_S1600000x1_S1600000_n_0_n_n_0_1_1_wf : GatherDims.WF S100000 S1600000x1 S1600000 [] [0] [] [0] [] 1 ![1]
  dot_S100000x64_S64x1_S100000x1_1_0_0_1_n_n_wf : DotDims.WF S100000x64 S64x1 S100000x1 [1] [0] [0] [1] [] []
  dot_S100000x7_S7x7_S100000x7_1_0_0_1_n_n_wf : DotDims.WF S100000x7 S7x7 S100000x7 [1] [0] [0] [1] [] []

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf
def dot_S100000x7_S7x7_S100000x7_1_0_0_1_n_n : DotDims S100000x7 S7x7 S100000x7 where
  lhsContracting := [1]
  rhsContracting := [0]
  lhsNonContracting := [0]
  rhsNonContracting := [1]
  lhsBatch := []
  rhsBatch := []
  wf := dot_S100000x7_S7x7_S100000x7_1_0_0_1_n_n_wf

class Facts : Prop extends Facts₀ where

variable [Facts]
-- ==== Proof.RefCasts.lean ====
/- A table of cases: for each typed reference of the reference program's outlined calls (the three rectifiers, the two selects), the
   contents of the value's type and the contents of the buffer are one type, and the transport between them is the identity. One pair
   of lemmas per reference, each by computation of the buffer's type (stated as a composite of two reflexivities so that a rewrite
   with it is a rewrite step and not a re-check of the whole goal by unfolding). -/
import proofs.«148375_j2465311228029_2_alg».proof.Proof.Gen.ReferenceIdeal
import Idealize.ShloMosaic.Lib.StableHlo.Run
import Idealize.ShloMosaic.PureOps.Ideal

noncomputable section

namespace Cert.ReferenceIdeal.RefCasts

open Idealize.ShloMosaic Idealize.ShloMosaic.TcCoe Idealize.ShloMosaic.StableHlo Idealize.SL.Sem Cert.ReferenceIdeal Cert.ReferenceIdeal.Gen

theorem toBuf_main_call0_cst (v : (⟨S_, .f32⟩ : BufTy).Contents (Elt Ideal)) :
    (TRef.of (sig := sig) (T := ⟨S_, .f32⟩) main_call0_cst).toBuf v = v := Eq.trans rfl rfl
theorem ofBuf_main_call0_cst (v : (⟨S_, .f32⟩ : BufTy).Contents (Elt Ideal)) :
    (TRef.of (sig := sig) (T := ⟨S_, .f32⟩) main_call0_cst).ofBuf v = v := Eq.trans rfl rfl
theorem toBuf_main_call0_v0 (v : (⟨S100000x64, .f32⟩ : BufTy).Contents (Elt Ideal)) :
    (TRef.of (sig := sig) (T := ⟨S100000x64, .f32⟩) main_call0_v0).toBuf v = v := Eq.trans rfl rfl
theorem ofBuf_main_call0_v0 (v : (⟨S100000x64, .f32⟩ : BufTy).Contents (Elt Ideal)) :
    (TRef.of (sig := sig) (T := ⟨S100000x64, .f32⟩) main_call0_v0).ofBuf v = v := Eq.trans rfl rfl
theorem toBuf_main_v13 (v : (⟨S100000x64, .f32⟩ : BufTy).Contents (Elt Ideal)) :
    (TRef.of (sig := sig) (T := ⟨S100000x64, .f32⟩) main_v13).toBuf v = v := Eq.trans rfl rfl
theorem ofBuf_main_v13 (v : (⟨S100000x64, .f32⟩ : BufTy).Contents (Elt Ideal)) :
    (TRef.of (sig := sig) (T := ⟨S100000x64, .f32⟩) main_v13).ofBuf v = v := Eq.trans rfl rfl
theorem toBuf_main_v14 (v : (⟨S100000x64, .f32⟩ : BufTy).Contents (Elt Ideal)) :
    (TRef.of (sig := sig) (T := ⟨S100000x64, .f32⟩) main_v14).toBuf v = v := Eq.trans rfl rfl
theorem ofBuf_main_v14 (v : (⟨S100000x64, .f32⟩ : BufTy).Contents (Elt Ideal)) :
    (TRef.of (sig := sig) (T := ⟨S100000x64, .f32⟩) main_v14).ofBuf v = v := Eq.trans rfl rfl
theorem toBuf_main_call1_cst (v : (⟨S_, .f32⟩ : BufTy).Contents (Elt Ideal)) :
    (TRef.of (sig := sig) (T := ⟨S_, .f32⟩) main_call1_cst).toBuf v = v := Eq.trans rfl rfl
theorem ofBuf_main_call1_cst (v : (⟨S_, .f32⟩ : BufTy).Contents (Elt Ideal)) :
    (TRef.of (sig := sig) (T := ⟨S_, .f32⟩) main_call1_cst).ofBuf v = v := Eq.trans rfl rfl
theorem toBuf_main_call1_v0 (v : (⟨S100000x64, .f32⟩ : BufTy).Contents (Elt Ideal)) :
    (TRef.of (sig := sig) (T := ⟨S100000x64, .f32⟩) main_call1_v0).toBuf v = v := Eq.trans rfl rfl
theorem ofBuf_main_call1_v0 (v : (⟨S100000x64, .f32⟩ : BufTy).Contents (Elt Ideal)) :
    (TRef.of (sig := sig) (T := ⟨S100000x64, .f32⟩) main_call1_v0).ofBuf v = v := Eq.trans rfl rfl
theorem toBuf_main_v28 (v : (⟨S100000x64, .f32⟩ : BufTy).Contents (Elt Ideal)) :
    (TRef.of (sig := sig) (T := ⟨S100000x64, .f32⟩) main_v28).toBuf v = v := Eq.trans rfl rfl
theorem ofBuf_main_v28 (v : (⟨S100000x64, .f32⟩ : BufTy).Contents (Elt Ideal)) :
    (TRef.of (sig := sig) (T := ⟨S100000x64, .f32⟩) main_v28).ofBuf v = v := Eq.trans rfl rfl
theorem toBuf_main_v29 (v : (⟨S100000x64, .f32⟩ : BufTy).Contents (Elt Ideal)) :
    (TRef.of (sig := sig) (T := ⟨S100000x64, .f32⟩) main_v29).toBuf v = v := Eq.trans rfl rfl
theorem ofBuf_main_v29 (v : (⟨S100000x64, .f32⟩ : BufTy).Contents (Elt Ideal)) :
    (TRef.of (sig := sig) (T := ⟨S100000x64, .f32⟩) main_v29).ofBuf v = v := Eq.trans rfl rfl
theorem toBuf_main_call2_cst (v : (⟨S_, .f32⟩ : BufTy).Contents (Elt Ideal)) :
    (TRef.of (sig := sig) (T := ⟨S_, .f32⟩) main_call2_cst).toBuf v = v := Eq.trans rfl rfl
theorem ofBuf_main_call2_cst (v : (⟨S_, .f32⟩ : BufTy).Contents (Elt Ideal)) :
    (TRef.of (sig := sig) (T := ⟨S_, .f32⟩) main_call2_cst).ofBuf v = v := Eq.trans rfl rfl
theorem toBuf_main_call2_v0 (v : (⟨S100000x64, .f32⟩ : BufTy).Contents (Elt Ideal)) :
    (TRef.of (sig := sig) (T := ⟨S100000x64, .f32⟩) main_call2_v0).toBuf v = v := Eq.trans rfl rfl
theorem ofBuf_main_call2_v0 (v : (⟨S100000x64, .f32⟩ : BufTy).Contents (Elt Ideal)) :
    (TRef.of (sig := sig) (T := ⟨S100000x64, .f32⟩) main_call2_v0).ofBuf v = v := Eq.trans rfl rfl
theorem toBuf_main_v30 (v : (⟨S100000x64, .f32⟩ : BufTy).Contents (Elt Ideal)) :
    (TRef.of (sig := sig) (T := ⟨S100000x64, .f32⟩) main_v30).toBuf v = v := Eq.trans rfl rfl
theorem ofBuf_main_v30 (v : (⟨S100000x64, .f32⟩ : BufTy).Contents (Elt Ideal)) :
    (TRef.of (sig := sig) (T := ⟨S100000x64, .f32⟩) main_v30).ofBuf v = v := Eq.trans rfl rfl
theorem toBuf_main_v31 (v : (⟨S100000x64, .f32⟩ : BufTy).Contents (Elt Ideal)) :
    (TRef.of (sig := sig) (T := ⟨S100000x64, .f32⟩) main_v31).toBuf v = v := Eq.trans rfl rfl
theorem ofBuf_main_v31 (v : (⟨S100000x64, .f32⟩ : BufTy).Contents (Elt Ideal)) :
    (TRef.of (sig := sig) (T := ⟨S100000x64, .f32⟩) main_v31).ofBuf v = v := Eq.trans rfl rfl
theorem toBuf_main_c_10 (v : (⟨S_, .i32⟩ : BufTy).Contents (Elt Ideal)) :
    (TRef.of (sig := sig) (T := ⟨S_, .i32⟩) main_c_10).toBuf v = v := Eq.trans rfl rfl
theorem ofBuf_main_c_10 (v : (⟨S_, .i32⟩ : BufTy).Contents (Elt Ideal)) :
    (TRef.of (sig := sig) (T := ⟨S_, .i32⟩) main_c_10).ofBuf v = v := Eq.trans rfl rfl
theorem toBuf_main_call3_v0 (v : (⟨S1600000, .i32⟩ : BufTy).Contents (Elt Ideal)) :
    (TRef.of (sig := sig) (T := ⟨S1600000, .i32⟩) main_call3_v0).toBuf v = v := Eq.trans rfl rfl
theorem ofBuf_main_call3_v0 (v : (⟨S1600000, .i32⟩ : BufTy).Contents (Elt Ideal)) :
    (TRef.of (sig := sig) (T := ⟨S1600000, .i32⟩) main_call3_v0).ofBuf v = v := Eq.trans rfl rfl
theorem toBuf_main_c_11 (v : (⟨S_, .i32⟩ : BufTy).Contents (Elt Ideal)) :
    (TRef.of (sig := sig) (T := ⟨S_, .i32⟩) main_c_11).toBuf v = v := Eq.trans rfl rfl
theorem ofBuf_main_c_11 (v : (⟨S_, .i32⟩ : BufTy).Contents (Elt Ideal)) :
    (TRef.of (sig := sig) (T := ⟨S_, .i32⟩) main_c_11).ofBuf v = v := Eq.trans rfl rfl
theorem toBuf_main_call3_v1 (v : (⟨S1600000, .i32⟩ : BufTy).Contents (Elt Ideal)) :
    (TRef.of (sig := sig) (T := ⟨S1600000, .i32⟩) main_call3_v1).toBuf v = v := Eq.trans rfl rfl
theorem ofBuf_main_call3_v1 (v : (⟨S1600000, .i32⟩ : BufTy).Contents (Elt Ideal)) :
    (TRef.of (sig := sig) (T := ⟨S1600000, .i32⟩) main_call3_v1).ofBuf v = v := Eq.trans rfl rfl
theorem toBuf_main_v51 (v : (⟨S1600000, .i1⟩ : BufTy).Contents (Elt Ideal)) :
    (TRef.of (sig := sig) (T := ⟨S1600000, .i1⟩) main_v51).toBuf v = v := Eq.trans rfl rfl
theorem ofBuf_main_v51 (v : (⟨S1600000, .i1⟩ : BufTy).Contents (Elt Ideal)) :
    (TRef.of (sig := sig) (T := ⟨S1600000, .i1⟩) main_v51).ofBuf v = v := Eq.trans rfl rfl
theorem toBuf_main_v52 (v : (⟨S1600000, .i32⟩ : BufTy).Contents (Elt Ideal)) :
    (TRef.of (sig := sig) (T := ⟨S1600000, .i32⟩) main_v52).toBuf v = v := Eq.trans rfl rfl
theorem ofBuf_main_v52 (v : (⟨S1600000, .i32⟩ : BufTy).Contents (Elt Ideal)) :
    (TRef.of (sig := sig) (T := ⟨S1600000, .i32⟩) main_v52).ofBuf v = v := Eq.trans rfl rfl
theorem toBuf_main_c_12 (v : (⟨S_, .i32⟩ : BufTy).Contents (Elt Ideal)) :
    (TRef.of (sig := sig) (T := ⟨S_, .i32⟩) main_c_12).toBuf v = v := Eq.trans rfl rfl
theorem ofBuf_main_c_12 (v : (⟨S_, .i32⟩ : BufTy).Contents (Elt Ideal)) :
    (TRef.of (sig := sig) (T := ⟨S_, .i32⟩) main_c_12).ofBuf v = v := Eq.trans rfl rfl
theorem toBuf_main_call4_v0 (v : (⟨S1600000, .i32⟩ : BufTy).Contents (Elt Ideal)) :
    (TRef.of (sig := sig) (T := ⟨S1600000, .i32⟩) main_call4_v0).toBuf v = v := Eq.trans rfl rfl
theorem ofBuf_main_call4_v0 (v : (⟨S1600000, .i32⟩ : BufTy).Contents (Elt Ideal)) :
    (TRef.of (sig := sig) (T := ⟨S1600000, .i32⟩) main_call4_v0).ofBuf v = v := Eq.trans rfl rfl
theorem toBuf_main_v50 (v : (⟨S1600000, .i1⟩ : BufTy).Contents (Elt Ideal)) :
    (TRef.of (sig := sig) (T := ⟨S1600000, .i1⟩) main_v50).toBuf v = v := Eq.trans rfl rfl
theorem ofBuf_main_v50 (v : (⟨S1600000, .i1⟩ : BufTy).Contents (Elt Ideal)) :
    (TRef.of (sig := sig) (T := ⟨S1600000, .i1⟩) main_v50).ofBuf v = v := Eq.trans rfl rfl
theorem toBuf_main_v53 (v : (⟨S1600000, .i32⟩ : BufTy).Contents (Elt Ideal)) :
    (TRef.of (sig := sig) (T := ⟨S1600000, .i32⟩) main_v53).toBuf v = v := Eq.trans rfl rfl
theorem ofBuf_main_v53 (v : (⟨S1600000, .i32⟩ : BufTy).Contents (Elt Ideal)) :
    (TRef.of (sig := sig) (T := ⟨S1600000, .i32⟩) main_v53).ofBuf v = v := Eq.trans rfl rfl

end Cert.ReferenceIdeal.RefCasts

end
-- ==== Proof.RefHead.lean ====
/-
  The idealized reference program, its first 162 host operations (the three projections, the gathers, masks and scatter-adds):
  after them the seven branch buffers hold the branch stages of the launch arguments — the operations read back one at a time,
  the outlined calls' transports between a value's type and its buffer's being identities, and what is left being the stage by
  unfolding its definition — and the eight attention arguments are untouched.
-/
import proofs.«148375_j2465311228029_2_alg».proof.Proof.RefSplit
import proofs.«148375_j2465311228029_2_alg».proof.Proof.RefRead
import proofs.«148375_j2465311228029_2_alg».proof.Proof.RefCasts

noncomputable section

namespace Cert.ReferenceIdeal.ValueP

open Cert.ReferenceIdeal Cert.ReferenceIdeal.Gen Idealize.ShloMosaic Idealize.ShloMosaic.TcCoe Idealize.SL.Sem Idealize.ShloMosaic.StableHlo

variable (m : (ℓ : Loc nD τ sig) → Buf (Elt Ideal) ℓ) (c : Dev nD)

/-! ## After the first 162 operations -/

set_option maxRecDepth 8192 in
set_option maxHeartbeats 2000000 in
/-- The branch buffer `main_v85` holds its stage. -/
theorem head_main_v85 : after (opsA (F := Ideal)) (launchContents m c) (Proc.devRef .tc main_v85)
    = ReadP.val_main_v85 (F := Ideal) (m ((c.tc : Thread nD τ).loc main_arg0)) (m ((c.tc : Thread nD τ).loc main_arg1)) (m ((c.tc : Thread nD τ).loc main_arg3)) (m ((c.tc : Thread nD τ).loc main_arg14)) (m ((c.tc : Thread nD τ).loc main_arg15)) (m ((c.tc : Thread nD τ).loc main_arg16)) := by
  after_results_simp
  simp only [RefCasts.toBuf_main_call0_cst, RefCasts.ofBuf_main_call0_cst, RefCasts.toBuf_main_call0_v0, RefCasts.ofBuf_main_call0_v0, RefCasts.toBuf_main_v13, RefCasts.ofBuf_main_v13, RefCasts.toBuf_main_v14, RefCasts.ofBuf_main_v14, RefCasts.toBuf_main_call1_cst, RefCasts.ofBuf_main_call1_cst, RefCasts.toBuf_main_call1_v0, RefCasts.ofBuf_main_call1_v0, RefCasts.toBuf_main_v28, RefCasts.ofBuf_main_v28, RefCasts.toBuf_main_v29, RefCasts.ofBuf_main_v29, RefCasts.toBuf_main_call2_cst, RefCasts.ofBuf_main_call2_cst, RefCasts.toBuf_main_call2_v0, RefCasts.ofBuf_main_call2_v0, RefCasts.toBuf_main_v30, RefCasts.ofBuf_main_v30, RefCasts.toBuf_main_v31, RefCasts.ofBuf_main_v31, RefCasts.toBuf_main_c_10, RefCasts.ofBuf_main_c_10, RefCasts.toBuf_main_call3_v0, RefCasts.ofBuf_main_call3_v0, RefCasts.toBuf_main_c_11, RefCasts.ofBuf_main_c_11, RefCasts.toBuf_main_call3_v1, RefCasts.ofBuf_main_call3_v1, RefCasts.toBuf_main_v51, RefCasts.ofBuf_main_v51, RefCasts.toBuf_main_v52, RefCasts.ofBuf_main_v52, RefCasts.toBuf_main_c_12, RefCasts.ofBuf_main_c_12, RefCasts.toBuf_main_call4_v0, RefCasts.ofBuf_main_call4_v0, RefCasts.toBuf_main_v50, RefCasts.ofBuf_main_v50, RefCasts.toBuf_main_v53, RefCasts.ofBuf_main_v53]
  rfl

set_option maxRecDepth 8192 in
set_option maxHeartbeats 2000000 in
/-- The branch buffer `main_v112` holds its stage. -/
theorem head_main_v112 : after (opsA (F := Ideal)) (launchContents m c) (Proc.devRef .tc main_v112)
    = ReadP.val_main_v112 (F := Ideal) (m ((c.tc : Thread nD τ).loc main_arg0)) (m ((c.tc : Thread nD τ).loc main_arg2)) (m ((c.tc : Thread nD τ).loc main_arg4)) (m ((c.tc : Thread nD τ).loc main_arg14)) (m ((c.tc : Thread nD τ).loc main_arg15)) (m ((c.tc : Thread nD τ).loc main_arg16)) := by
  after_results_simp
  simp only [RefCasts.toBuf_main_call0_cst, RefCasts.ofBuf_main_call0_cst, RefCasts.toBuf_main_call0_v0, RefCasts.ofBuf_main_call0_v0, RefCasts.toBuf_main_v13, RefCasts.ofBuf_main_v13, RefCasts.toBuf_main_v14, RefCasts.ofBuf_main_v14, RefCasts.toBuf_main_call1_cst, RefCasts.ofBuf_main_call1_cst, RefCasts.toBuf_main_call1_v0, RefCasts.ofBuf_main_call1_v0, RefCasts.toBuf_main_v28, RefCasts.ofBuf_main_v28, RefCasts.toBuf_main_v29, RefCasts.ofBuf_main_v29, RefCasts.toBuf_main_call2_cst, RefCasts.ofBuf_main_call2_cst, RefCasts.toBuf_main_call2_v0, RefCasts.ofBuf_main_call2_v0, RefCasts.toBuf_main_v30, RefCasts.ofBuf_main_v30, RefCasts.toBuf_main_v31, RefCasts.ofBuf_main_v31, RefCasts.toBuf_main_c_10, RefCasts.ofBuf_main_c_10, RefCasts.toBuf_main_call3_v0, RefCasts.ofBuf_main_call3_v0, RefCasts.toBuf_main_c_11, RefCasts.ofBuf_main_c_11, RefCasts.toBuf_main_call3_v1, RefCasts.ofBuf_main_call3_v1, RefCasts.toBuf_main_v51, RefCasts.ofBuf_main_v51, RefCasts.toBuf_main_v52, RefCasts.ofBuf_main_v52, RefCasts.toBuf_main_c_12, RefCasts.ofBuf_main_c_12, RefCasts.toBuf_main_call4_v0, RefCasts.ofBuf_main_call4_v0, RefCasts.toBuf_main_v50, RefCasts.ofBuf_main_v50, RefCasts.toBuf_main_v53, RefCasts.ofBuf_main_v53]
  rfl

set_option maxRecDepth 8192 in
set_option maxHeartbeats 2000000 in
/-- The branch buffer `main_v76` holds its stage. -/
theorem head_main_v76 : after (opsA (F := Ideal)) (launchContents m c) (Proc.devRef .tc main_v76)
    = ReadP.val_main_v76 (F := Ideal) (m ((c.tc : Thread nD τ).loc main_arg0)) (m ((c.tc : Thread nD τ).loc main_arg1)) (m ((c.tc : Thread nD τ).loc main_arg3)) (m ((c.tc : Thread nD τ).loc main_arg14)) (m ((c.tc : Thread nD τ).loc main_arg15)) (m ((c.tc : Thread nD τ).loc main_arg16)) := by
  after_results_simp
  simp only [RefCasts.toBuf_main_call0_cst, RefCasts.ofBuf_main_call0_cst, RefCasts.toBuf_main_call0_v0, RefCasts.ofBuf_main_call0_v0, RefCasts.toBuf_main_v13, RefCasts.ofBuf_main_v13, RefCasts.toBuf_main_v14, RefCasts.ofBuf_main_v14, RefCasts.toBuf_main_call1_cst, RefCasts.ofBuf_main_call1_cst, RefCasts.toBuf_main_call1_v0, RefCasts.ofBuf_main_call1_v0, RefCasts.toBuf_main_v28, RefCasts.ofBuf_main_v28, RefCasts.toBuf_main_v29, RefCasts.ofBuf_main_v29, RefCasts.toBuf_main_call2_cst, RefCasts.ofBuf_main_call2_cst, RefCasts.toBuf_main_call2_v0, RefCasts.ofBuf_main_call2_v0, RefCasts.toBuf_main_v30, RefCasts.ofBuf_main_v30, RefCasts.toBuf_main_v31, RefCasts.ofBuf_main_v31, RefCasts.toBuf_main_c_10, RefCasts.ofBuf_main_c_10, RefCasts.toBuf_main_call3_v0, RefCasts.ofBuf_main_call3_v0, RefCasts.toBuf_main_c_11, RefCasts.ofBuf_main_c_11, RefCasts.toBuf_main_call3_v1, RefCasts.ofBuf_main_call3_v1, RefCasts.toBuf_main_v51, RefCasts.ofBuf_main_v51, RefCasts.toBuf_main_v52, RefCasts.ofBuf_main_v52, RefCasts.toBuf_main_c_12, RefCasts.ofBuf_main_c_12, RefCasts.toBuf_main_call4_v0, RefCasts.ofBuf_main_call4_v0, RefCasts.toBuf_main_v50, RefCasts.ofBuf_main_v50, RefCasts.toBuf_main_v53, RefCasts.ofBuf_main_v53]
  rfl

set_option maxRecDepth 8192 in
set_option maxHeartbeats 2000000 in
/-- The branch buffer `main_v103` holds its stage. -/
theorem head_main_v103 : after (opsA (F := Ideal)) (launchContents m c) (Proc.devRef .tc main_v103)
    = ReadP.val_main_v103 (F := Ideal) (m ((c.tc : Thread nD τ).loc main_arg0)) (m ((c.tc : Thread nD τ).loc main_arg2)) (m ((c.tc : Thread nD τ).loc main_arg4)) (m ((c.tc : Thread nD τ).loc main_arg14)) (m ((c.tc : Thread nD τ).loc main_arg15)) (m ((c.tc : Thread nD τ).loc main_arg16)) := by
  after_results_simp
  simp only [RefCasts.toBuf_main_call0_cst, RefCasts.ofBuf_main_call0_cst, RefCasts.toBuf_main_call0_v0, RefCasts.ofBuf_main_call0_v0, RefCasts.toBuf_main_v13, RefCasts.ofBuf_main_v13, RefCasts.toBuf_main_v14, RefCasts.ofBuf_main_v14, RefCasts.toBuf_main_call1_cst, RefCasts.ofBuf_main_call1_cst, RefCasts.toBuf_main_call1_v0, RefCasts.ofBuf_main_call1_v0, RefCasts.toBuf_main_v28, RefCasts.ofBuf_main_v28, RefCasts.toBuf_main_v29, RefCasts.ofBuf_main_v29, RefCasts.toBuf_main_call2_cst, RefCasts.ofBuf_main_call2_cst, RefCasts.toBuf_main_call2_v0, RefCasts.ofBuf_main_call2_v0, RefCasts.toBuf_main_v30, RefCasts.ofBuf_main_v30, RefCasts.toBuf_main_v31, RefCasts.ofBuf_main_v31, RefCasts.toBuf_main_c_10, RefCasts.ofBuf_main_c_10, RefCasts.toBuf_main_call3_v0, RefCasts.ofBuf_main_call3_v0, RefCasts.toBuf_main_c_11, RefCasts.ofBuf_main_c_11, RefCasts.toBuf_main_call3_v1, RefCasts.ofBuf_main_call3_v1, RefCasts.toBuf_main_v51, RefCasts.ofBuf_main_v51, RefCasts.toBuf_main_v52, RefCasts.ofBuf_main_v52, RefCasts.toBuf_main_c_12, RefCasts.ofBuf_main_c_12, RefCasts.toBuf_main_call4_v0, RefCasts.ofBuf_main_call4_v0, RefCasts.toBuf_main_v50, RefCasts.ofBuf_main_v50, RefCasts.toBuf_main_v53, RefCasts.ofBuf_main_v53]
  rfl

set_option maxRecDepth 8192 in
set_option maxHeartbeats 2000000 in
/-- The branch buffer `main_v94` holds its stage. -/
theorem head_main_v94 : after (opsA (F := Ideal)) (launchContents m c) (Proc.devRef .tc main_v94)
    = ReadP.val_main_v94 (F := Ideal) (m ((c.tc : Thread nD τ).loc main_arg0)) (m ((c.tc : Thread nD τ).loc main_arg1)) (m ((c.tc : Thread nD τ).loc main_arg3)) (m ((c.tc : Thread nD τ).loc main_arg14)) (m ((c.tc : Thread nD τ).loc main_arg15)) (m ((c.tc : Thread nD τ).loc main_arg16)) := by
  after_results_simp
  simp only [RefCasts.toBuf_main_call0_cst, RefCasts.ofBuf_main_call0_cst, RefCasts.toBuf_main_call0_v0, RefCasts.ofBuf_main_call0_v0, RefCasts.toBuf_main_v13, RefCasts.ofBuf_main_v13, RefCasts.toBuf_main_v14, RefCasts.ofBuf_main_v14, RefCasts.toBuf_main_call1_cst, RefCasts.ofBuf_main_call1_cst, RefCasts.toBuf_main_call1_v0, RefCasts.ofBuf_main_call1_v0, RefCasts.toBuf_main_v28, RefCasts.ofBuf_main_v28, RefCasts.toBuf_main_v29, RefCasts.ofBuf_main_v29, RefCasts.toBuf_main_call2_cst, RefCasts.ofBuf_main_call2_cst, RefCasts.toBuf_main_call2_v0, RefCasts.ofBuf_main_call2_v0, RefCasts.toBuf_main_v30, RefCasts.ofBuf_main_v30, RefCasts.toBuf_main_v31, RefCasts.ofBuf_main_v31, RefCasts.toBuf_main_c_10, RefCasts.ofBuf_main_c_10, RefCasts.toBuf_main_call3_v0, RefCasts.ofBuf_main_call3_v0, RefCasts.toBuf_main_c_11, RefCasts.ofBuf_main_c_11, RefCasts.toBuf_main_call3_v1, RefCasts.ofBuf_main_call3_v1, RefCasts.toBuf_main_v51, RefCasts.ofBuf_main_v51, RefCasts.toBuf_main_v52, RefCasts.ofBuf_main_v52, RefCasts.toBuf_main_c_12, RefCasts.ofBuf_main_c_12, RefCasts.toBuf_main_call4_v0, RefCasts.ofBuf_main_call4_v0, RefCasts.toBuf_main_v50, RefCasts.ofBuf_main_v50, RefCasts.toBuf_main_v53, RefCasts.ofBuf_main_v53]
  rfl

set_option maxRecDepth 8192 in
set_option maxHeartbeats 2000000 in
/-- The branch buffer `main_v121` holds its stage. -/
theorem head_main_v121 : after (opsA (F := Ideal)) (launchContents m c) (Proc.devRef .tc main_v121)
    = ReadP.val_main_v121 (F := Ideal) (m ((c.tc : Thread nD τ).loc main_arg0)) (m ((c.tc : Thread nD τ).loc main_arg2)) (m ((c.tc : Thread nD τ).loc main_arg4)) (m ((c.tc : Thread nD τ).loc main_arg14)) (m ((c.tc : Thread nD τ).loc main_arg15)) (m ((c.tc : Thread nD τ).loc main_arg16)) := by
  after_results_simp
  simp only [RefCasts.toBuf_main_call0_cst, RefCasts.ofBuf_main_call0_cst, RefCasts.toBuf_main_call0_v0, RefCasts.ofBuf_main_call0_v0, RefCasts.toBuf_main_v13, RefCasts.ofBuf_main_v13, RefCasts.toBuf_main_v14, RefCasts.ofBuf_main_v14, RefCasts.toBuf_main_call1_cst, RefCasts.ofBuf_main_call1_cst, RefCasts.toBuf_main_call1_v0, RefCasts.ofBuf_main_call1_v0, RefCasts.toBuf_main_v28, RefCasts.ofBuf_main_v28, RefCasts.toBuf_main_v29, RefCasts.ofBuf_main_v29, RefCasts.toBuf_main_call2_cst, RefCasts.ofBuf_main_call2_cst, RefCasts.toBuf_main_call2_v0, RefCasts.ofBuf_main_call2_v0, RefCasts.toBuf_main_v30, RefCasts.ofBuf_main_v30, RefCasts.toBuf_main_v31, RefCasts.ofBuf_main_v31, RefCasts.toBuf_main_c_10, RefCasts.ofBuf_main_c_10, RefCasts.toBuf_main_call3_v0, RefCasts.ofBuf_main_call3_v0, RefCasts.toBuf_main_c_11, RefCasts.ofBuf_main_c_11, RefCasts.toBuf_main_call3_v1, RefCasts.ofBuf_main_call3_v1, RefCasts.toBuf_main_v51, RefCasts.ofBuf_main_v51, RefCasts.toBuf_main_v52, RefCasts.ofBuf_main_v52, RefCasts.toBuf_main_c_12, RefCasts.ofBuf_main_c_12, RefCasts.toBuf_main_call4_v0, RefCasts.ofBuf_main_call4_v0, RefCasts.toBuf_main_v50, RefCasts.ofBuf_main_v50, RefCasts.toBuf_main_v53, RefCasts.ofBuf_main_v53]
  rfl

set_option maxRecDepth 8192 in
set_option maxHeartbeats 2000000 in
/-- The branch buffer `main_v31` holds its stage. -/
theorem head_main_v31 : after (opsA (F := Ideal)) (launchContents m c) (Proc.devRef .tc main_v31)
    = ReadP.val_main_v31 (F := Ideal) (m ((c.tc : Thread nD τ).loc main_arg0)) (m ((c.tc : Thread nD τ).loc main_arg5)) := by
  after_results_simp
  simp only [RefCasts.toBuf_main_call0_cst, RefCasts.ofBuf_main_call0_cst, RefCasts.toBuf_main_call0_v0, RefCasts.ofBuf_main_call0_v0, RefCasts.toBuf_main_v13, RefCasts.ofBuf_main_v13, RefCasts.toBuf_main_v14, RefCasts.ofBuf_main_v14, RefCasts.toBuf_main_call1_cst, RefCasts.ofBuf_main_call1_cst, RefCasts.toBuf_main_call1_v0, RefCasts.ofBuf_main_call1_v0, RefCasts.toBuf_main_v28, RefCasts.ofBuf_main_v28, RefCasts.toBuf_main_v29, RefCasts.ofBuf_main_v29, RefCasts.toBuf_main_call2_cst, RefCasts.ofBuf_main_call2_cst, RefCasts.toBuf_main_call2_v0, RefCasts.ofBuf_main_call2_v0, RefCasts.toBuf_main_v30, RefCasts.ofBuf_main_v30, RefCasts.toBuf_main_v31, RefCasts.ofBuf_main_v31, RefCasts.toBuf_main_c_10, RefCasts.ofBuf_main_c_10, RefCasts.toBuf_main_call3_v0, RefCasts.ofBuf_main_call3_v0, RefCasts.toBuf_main_c_11, RefCasts.ofBuf_main_c_11, RefCasts.toBuf_main_call3_v1, RefCasts.ofBuf_main_call3_v1, RefCasts.toBuf_main_v51, RefCasts.ofBuf_main_v51, RefCasts.toBuf_main_v52, RefCasts.ofBuf_main_v52, RefCasts.toBuf_main_c_12, RefCasts.ofBuf_main_c_12, RefCasts.toBuf_main_call4_v0, RefCasts.ofBuf_main_call4_v0, RefCasts.toBuf_main_v50, RefCasts.ofBuf_main_v50, RefCasts.toBuf_main_v53, RefCasts.ofBuf_main_v53]
  rfl

set_option maxRecDepth 8192 in
set_option maxHeartbeats 2000000 in
theorem head_main_arg6 : after (opsA (F := Ideal)) (launchContents m c) (Proc.devRef .tc main_arg6) = (m ((c.tc : Thread nD τ).loc main_arg6)) := by
  after_results_simp <;> rfl

set_option maxRecDepth 8192 in
set_option maxHeartbeats 2000000 in
theorem head_main_arg7 : after (opsA (F := Ideal)) (launchContents m c) (Proc.devRef .tc main_arg7) = (m ((c.tc : Thread nD τ).loc main_arg7)) := by
  after_results_simp <;> rfl

set_option maxRecDepth 8192 in
set_option maxHeartbeats 2000000 in
theorem head_main_arg8 : after (opsA (F := Ideal)) (launchContents m c) (Proc.devRef .tc main_arg8) = (m ((c.tc : Thread nD τ).loc main_arg8)) := by
  after_results_simp <;> rfl

set_option maxRecDepth 8192 in
set_option maxHeartbeats 2000000 in
theorem head_main_arg9 : after (opsA (F := Ideal)) (launchContents m c) (Proc.devRef .tc main_arg9) = (m ((c.tc : Thread nD τ).loc main_arg9)) := by
  after_results_simp <;> rfl

set_option maxRecDepth 8192 in
set_option maxHeartbeats 2000000 in
theorem head_main_arg10 : after (opsA (F := Ideal)) (launchContents m c) (Proc.devRef .tc main_arg10) = (m ((c.tc : Thread nD τ).loc main_arg10)) := by
  after_results_simp <;> rfl

set_option maxRecDepth 8192 in
set_option maxHeartbeats 2000000 in
theorem head_main_arg11 : after (opsA (F := Ideal)) (launchContents m c) (Proc.devRef .tc main_arg11) = (m ((c.tc : Thread nD τ).loc main_arg11)) := by
  after_results_simp <;> rfl

set_option maxRecDepth 8192 in
set_option maxHeartbeats 2000000 in
theorem head_main_arg12 : after (opsA (F := Ideal)) (launchContents m c) (Proc.devRef .tc main_arg12) = (m ((c.tc : Thread nD τ).loc main_arg12)) := by
  after_results_simp <;> rfl

set_option maxRecDepth 8192 in
set_option maxHeartbeats 2000000 in
theorem head_main_arg13 : after (opsA (F := Ideal)) (launchContents m c) (Proc.devRef .tc main_arg13) = (m ((c.tc : Thread nD τ).loc main_arg13)) := by
  after_results_simp <;> rfl

end Cert.ReferenceIdeal.ValueP

end
-- ==== Proof.RefTail.lean ====
/-
  The idealized reference program, its last 64 host operations (the attention mix), read back in three steps over ANY buffer
  contents `V`:
    the seven row products: each leaves its stage, from the branch buffer's stage and the attention vector;
    the join of the seven columns: its result is its function of the seven operands' contents, each at its own buffer;
    the last 56 operations (logistic, the 7×7 product, the softmax, the weighted sum): read back one at a time they are the
      attention mix's stages over the joined columns' stage and the branch stages, by unfolding the definitions.
  A buffer none of a step's operations writes keeps its contents through the step.
-/
import proofs.«148375_j2465311228029_2_alg».proof.Proof.RefSplit
import proofs.«148375_j2465311228029_2_alg».proof.Proof.RefRead

noncomputable section

namespace Cert.ReferenceIdeal.ValueP

open Cert.ReferenceIdeal Cert.ReferenceIdeal.Gen Idealize.ShloMosaic Idealize.ShloMosaic.TcCoe Idealize.SL.Sem Idealize.ShloMosaic.StableHlo

variable (m : (ℓ : Loc nD τ sig) → Buf (Elt Ideal) ℓ) (c : Dev nD)

/-! ## The seven row products -/

set_option maxRecDepth 8192 in
theorem rowprod_v122 (V : Valuation τ sig (Elt Ideal))
    (hb : V (Proc.devRef .tc main_v85) = ReadP.val_main_v85 (F := Ideal) (m ((c.tc : Thread nD τ).loc main_arg0)) (m ((c.tc : Thread nD τ).loc main_arg1)) (m ((c.tc : Thread nD τ).loc main_arg3)) (m ((c.tc : Thread nD τ).loc main_arg14)) (m ((c.tc : Thread nD τ).loc main_arg15)) (m ((c.tc : Thread nD τ).loc main_arg16)))
    (ha : V (Proc.devRef .tc main_arg6) = (m ((c.tc : Thread nD τ).loc main_arg6))) :
    after (opsB1 (F := Ideal)) V (Proc.devRef .tc main_v122) = ReadP.val_main_v122 (F := Ideal) (m ((c.tc : Thread nD τ).loc main_arg0)) (m ((c.tc : Thread nD τ).loc main_arg1)) (m ((c.tc : Thread nD τ).loc main_arg3)) (m ((c.tc : Thread nD τ).loc main_arg6)) (m ((c.tc : Thread nD τ).loc main_arg14)) (m ((c.tc : Thread nD τ).loc main_arg15)) (m ((c.tc : Thread nD τ).loc main_arg16)) := by
  after_results_simp
  rw [hb, ha]
  rfl

set_option maxRecDepth 8192 in
theorem rowprod_v123 (V : Valuation τ sig (Elt Ideal))
    (hb : V (Proc.devRef .tc main_v112) = ReadP.val_main_v112 (F := Ideal) (m ((c.tc : Thread nD τ).loc main_arg0)) (m ((c.tc : Thread nD τ).loc main_arg2)) (m ((c.tc : Thread nD τ).loc main_arg4)) (m ((c.tc : Thread nD τ).loc main_arg14)) (m ((c.tc : Thread nD τ).loc main_arg15)) (m ((c.tc : Thread nD τ).loc main_arg16)))
    (ha : V (Proc.devRef .tc main_arg7) = (m ((c.tc : Thread nD τ).loc main_arg7))) :
    after (opsB1 (F := Ideal)) V (Proc.devRef .tc main_v123) = ReadP.val_main_v123 (F := Ideal) (m ((c.tc : Thread nD τ).loc main_arg0)) (m ((c.tc : Thread nD τ).loc main_arg2)) (m ((c.tc : Thread nD τ).loc main_arg4)) (m ((c.tc : Thread nD τ).loc main_arg7)) (m ((c.tc : Thread nD τ).loc main_arg14)) (m ((c.tc : Thread nD τ).loc main_arg15)) (m ((c.tc : Thread nD τ).loc main_arg16)) := by
  after_results_simp
  rw [hb, ha]
  rfl

set_option maxRecDepth 8192 in
theorem rowprod_v124 (V : Valuation τ sig (Elt Ideal))
    (hb : V (Proc.devRef .tc main_v76) = ReadP.val_main_v76 (F := Ideal) (m ((c.tc : Thread nD τ).loc main_arg0)) (m ((c.tc : Thread nD τ).loc main_arg1)) (m ((c.tc : Thread nD τ).loc main_arg3)) (m ((c.tc : Thread nD τ).loc main_arg14)) (m ((c.tc : Thread nD τ).loc main_arg15)) (m ((c.tc : Thread nD τ).loc main_arg16)))
    (ha : V (Proc.devRef .tc main_arg8) = (m ((c.tc : Thread nD τ).loc main_arg8))) :
    after (opsB1 (F := Ideal)) V (Proc.devRef .tc main_v124) = ReadP.val_main_v124 (F := Ideal) (m ((c.tc : Thread nD τ).loc main_arg0)) (m ((c.tc : Thread nD τ).loc main_arg1)) (m ((c.tc : Thread nD τ).loc main_arg3)) (m ((c.tc : Thread nD τ).loc main_arg8)) (m ((c.tc : Thread nD τ).loc main_arg14)) (m ((c.tc : Thread nD τ).loc main_arg15)) (m ((c.tc : Thread nD τ).loc main_arg16)) := by
  after_results_simp
  rw [hb, ha]
  rfl

set_option maxRecDepth 8192 in
theorem rowprod_v125 (V : Valuation τ sig (Elt Ideal))
    (hb : V (Proc.devRef .tc main_v103) = ReadP.val_main_v103 (F := Ideal) (m ((c.tc : Thread nD τ).loc main_arg0)) (m ((c.tc : Thread nD τ).loc main_arg2)) (m ((c.tc : Thread nD τ).loc main_arg4)) (m ((c.tc : Thread nD τ).loc main_arg14)) (m ((c.tc : Thread nD τ).loc main_arg15)) (m ((c.tc : Thread nD τ).loc main_arg16)))
    (ha : V (Proc.devRef .tc main_arg9) = (m ((c.tc : Thread nD τ).loc main_arg9))) :
    after (opsB1 (F := Ideal)) V (Proc.devRef .tc main_v125) = ReadP.val_main_v125 (F := Ideal) (m ((c.tc : Thread nD τ).loc main_arg0)) (m ((c.tc : Thread nD τ).loc main_arg2)) (m ((c.tc : Thread nD τ).loc main_arg4)) (m ((c.tc : Thread nD τ).loc main_arg9)) (m ((c.tc : Thread nD τ).loc main_arg14)) (m ((c.tc : Thread nD τ).loc main_arg15)) (m ((c.tc : Thread nD τ).loc main_arg16)) := by
  after_results_simp
  rw [hb, ha]
  rfl

set_option maxRecDepth 8192 in
theorem rowprod_v126 (V : Valuation τ sig (Elt Ideal))
    (hb : V (Proc.devRef .tc main_v94) = ReadP.val_main_v94 (F := Ideal) (m ((c.tc : Thread nD τ).loc main_arg0)) (m ((c.tc : Thread nD τ).loc main_arg1)) (m ((c.tc : Thread nD τ).loc main_arg3)) (m ((c.tc : Thread nD τ).loc main_arg14)) (m ((c.tc : Thread nD τ).loc main_arg15)) (m ((c.tc : Thread nD τ).loc main_arg16)))
    (ha : V (Proc.devRef .tc main_arg10) = (m ((c.tc : Thread nD τ).loc main_arg10))) :
    after (opsB1 (F := Ideal)) V (Proc.devRef .tc main_v126) = ReadP.val_main_v126 (F := Ideal) (m ((c.tc : Thread nD τ).loc main_arg0)) (m ((c.tc : Thread nD τ).loc main_arg1)) (m ((c.tc : Thread nD τ).loc main_arg3)) (m ((c.tc : Thread nD τ).loc main_arg10)) (m ((c.tc : Thread nD τ).loc main_arg14)) (m ((c.tc : Thread nD τ).loc main_arg15)) (m ((c.tc : Thread nD τ).loc main_arg16)) := by
  after_results_simp
  rw [hb, ha]
  rfl

set_option maxRecDepth 8192 in
theorem rowprod_v127 (V : Valuation τ sig (Elt Ideal))
    (hb : V (Proc.devRef .tc main_v121) = ReadP.val_main_v121 (F := Ideal) (m ((c.tc : Thread nD τ).loc main_arg0)) (m ((c.tc : Thread nD τ).loc main_arg2)) (m ((c.tc : Thread nD τ).loc main_arg4)) (m ((c.tc : Thread nD τ).loc main_arg14)) (m ((c.tc : Thread nD τ).loc main_arg15)) (m ((c.tc : Thread nD τ).loc main_arg16)))
    (ha : V (Proc.devRef .tc main_arg11) = (m ((c.tc : Thread nD τ).loc main_arg11))) :
    after (opsB1 (F := Ideal)) V (Proc.devRef .tc main_v127) = ReadP.val_main_v127 (F := Ideal) (m ((c.tc : Thread nD τ).loc main_arg0)) (m ((c.tc : Thread nD τ).loc main_arg2)) (m ((c.tc : Thread nD τ).loc main_arg4)) (m ((c.tc : Thread nD τ).loc main_arg11)) (m ((c.tc : Thread nD τ).loc main_arg14)) (m ((c.tc : Thread nD τ).loc main_arg15)) (m ((c.tc : Thread nD τ).loc main_arg16)) := by
  after_results_simp
  rw [hb, ha]
  rfl

set_option maxRecDepth 8192 in
theorem rowprod_v128 (V : Valuation τ sig (Elt Ideal))
    (hb : V (Proc.devRef .tc main_v31) = ReadP.val_main_v31 (F := Ideal) (m ((c.tc : Thread nD τ).loc main_arg0)) (m ((c.tc : Thread nD τ).loc main_arg5)))
    (ha : V (Proc.devRef .tc main_arg12) = (m ((c.tc : Thread nD τ).loc main_arg12))) :
    after (opsB1 (F := Ideal)) V (Proc.devRef .tc main_v128) = ReadP.val_main_v128 (F := Ideal) (m ((c.tc : Thread nD τ).loc main_arg0)) (m ((c.tc : Thread nD τ).loc main_arg5)) (m ((c.tc : Thread nD τ).loc main_arg12)) := by
  after_results_simp
  rw [hb, ha]
  rfl

set_option maxRecDepth 8192 in
theorem rowprod_keeps_main_v85 (V : Valuation τ sig (Elt Ideal)) :
    after (opsB1 (F := Ideal)) V (Proc.devRef .tc main_v85) = V (Proc.devRef .tc main_v85) := by
  after_results_simp

set_option maxRecDepth 8192 in
theorem rowprod_keeps_main_v112 (V : Valuation τ sig (Elt Ideal)) :
    after (opsB1 (F := Ideal)) V (Proc.devRef .tc main_v112) = V (Proc.devRef .tc main_v112) := by
  after_results_simp

set_option maxRecDepth 8192 in
theorem rowprod_keeps_main_v76 (V : Valuation τ sig (Elt Ideal)) :
    after (opsB1 (F := Ideal)) V (Proc.devRef .tc main_v76) = V (Proc.devRef .tc main_v76) := by
  after_results_simp

set_option maxRecDepth 8192 in
theorem rowprod_keeps_main_v103 (V : Valuation τ sig (Elt Ideal)) :
    after (opsB1 (F := Ideal)) V (Proc.devRef .tc main_v103) = V (Proc.devRef .tc main_v103) := by
  after_results_simp

set_option maxRecDepth 8192 in
theorem rowprod_keeps_main_v94 (V : Valuation τ sig (Elt Ideal)) :
    after (opsB1 (F := Ideal)) V (Proc.devRef .tc main_v94) = V (Proc.devRef .tc main_v94) := by
  after_results_simp

set_option maxRecDepth 8192 in
theorem rowprod_keeps_main_v121 (V : Valuation τ sig (Elt Ideal)) :
    after (opsB1 (F := Ideal)) V (Proc.devRef .tc main_v121) = V (Proc.devRef .tc main_v121) := by
  after_results_simp

set_option maxRecDepth 8192 in
theorem rowprod_keeps_main_v31 (V : Valuation τ sig (Elt Ideal)) :
    after (opsB1 (F := Ideal)) V (Proc.devRef .tc main_v31) = V (Proc.devRef .tc main_v31) := by
  after_results_simp

set_option maxRecDepth 8192 in
theorem rowprod_keeps_main_arg13 (V : Valuation τ sig (Elt Ideal)) :
    after (opsB1 (F := Ideal)) V (Proc.devRef .tc main_arg13) = V (Proc.devRef .tc main_arg13) := by
  after_results_simp

/-! ## The join of the seven columns -/

set_option maxRecDepth 8192 in
theorem join_v129 (V : Valuation τ sig (Elt Ideal))
    (h122 : V (Proc.devRef .tc main_v122) = ReadP.val_main_v122 (F := Ideal) (m ((c.tc : Thread nD τ).loc main_arg0)) (m ((c.tc : Thread nD τ).loc main_arg1)) (m ((c.tc : Thread nD τ).loc main_arg3)) (m ((c.tc : Thread nD τ).loc main_arg6)) (m ((c.tc : Thread nD τ).loc main_arg14)) (m ((c.tc : Thread nD τ).loc main_arg15)) (m ((c.tc : Thread nD τ).loc main_arg16)))
    (h123 : V (Proc.devRef .tc main_v123) = ReadP.val_main_v123 (F := Ideal) (m ((c.tc : Thread nD τ).loc main_arg0)) (m ((c.tc : Thread nD τ).loc main_arg2)) (m ((c.tc : Thread nD τ).loc main_arg4)) (m ((c.tc : Thread nD τ).loc main_arg7)) (m ((c.tc : Thread nD τ).loc main_arg14)) (m ((c.tc : Thread nD τ).loc main_arg15)) (m ((c.tc : Thread nD τ).loc main_arg16)))
    (h124 : V (Proc.devRef .tc main_v124) = ReadP.val_main_v124 (F := Ideal) (m ((c.tc : Thread nD τ).loc main_arg0)) (m ((c.tc : Thread nD τ).loc main_arg1)) (m ((c.tc : Thread nD τ).loc main_arg3)) (m ((c.tc : Thread nD τ).loc main_arg8)) (m ((c.tc : Thread nD τ).loc main_arg14)) (m ((c.tc : Thread nD τ).loc main_arg15)) (m ((c.tc : Thread nD τ).loc main_arg16)))
    (h125 : V (Proc.devRef .tc main_v125) = ReadP.val_main_v125 (F := Ideal) (m ((c.tc : Thread nD τ).loc main_arg0)) (m ((c.tc : Thread nD τ).loc main_arg2)) (m ((c.tc : Thread nD τ).loc main_arg4)) (m ((c.tc : Thread nD τ).loc main_arg9)) (m ((c.tc : Thread nD τ).loc main_arg14)) (m ((c.tc : Thread nD τ).loc main_arg15)) (m ((c.tc : Thread nD τ).loc main_arg16)))
    (h126 : V (Proc.devRef .tc main_v126) = ReadP.val_main_v126 (F := Ideal) (m ((c.tc : Thread nD τ).loc main_arg0)) (m ((c.tc : Thread nD τ).loc main_arg1)) (m ((c.tc : Thread nD τ).loc main_arg3)) (m ((c.tc : Thread nD τ).loc main_arg10)) (m ((c.tc : Thread nD τ).loc main_arg14)) (m ((c.tc : Thread nD τ).loc main_arg15)) (m ((c.tc : Thread nD τ).loc main_arg16)))
    (h127 : V (Proc.devRef .tc main_v127) = ReadP.val_main_v127 (F := Ideal) (m ((c.tc : Thread nD τ).loc main_arg0)) (m ((c.tc : Thread nD τ).loc main_arg2)) (m ((c.tc : Thread nD τ).loc main_arg4)) (m ((c.tc : Thread nD τ).loc main_arg11)) (m ((c.tc : Thread nD τ).loc main_arg14)) (m ((c.tc : Thread nD τ).loc main_arg15)) (m ((c.tc : Thread nD τ).loc main_arg16)))
    (h128 : V (Proc.devRef .tc main_v128) = ReadP.val_main_v128 (F := Ideal) (m ((c.tc : Thread nD τ).loc main_arg0)) (m ((c.tc : Thread nD τ).loc main_arg5)) (m ((c.tc : Thread nD τ).loc main_arg12))) :
    after (opsB2 (F := Ideal)) V (Proc.devRef .tc main_v129) = ReadP.val_main_v129 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg14)) (m ((c.tc : Thread nD τ).loc main_arg15)) (m ((c.tc : Thread nD τ).loc main_arg16)) := by
  simp only [after_cons, after_nil]
  rw [nary_result]
  show concatenate S100000x7 1 [⟨S100000x1, V (Proc.devRef .tc main_v122)⟩, ⟨S100000x1, V (Proc.devRef .tc main_v123)⟩, ⟨S100000x1, V (Proc.devRef .tc main_v124)⟩, ⟨S100000x1, V (Proc.devRef .tc main_v125)⟩, ⟨S100000x1, V (Proc.devRef .tc main_v126)⟩, ⟨S100000x1, V (Proc.devRef .tc main_v127)⟩, ⟨S100000x1, V (Proc.devRef .tc main_v128)⟩]
    concatenates_S100000x1_S100000x1_S100000x1_S100000x1_S100000x1_S100000x1_S100000x1_S100000x7_d1 = _
  rw [h122, h123, h124, h125, h126, h127, h128]
  rfl

set_option maxRecDepth 8192 in
theorem join_keeps_main_v85 (V : Valuation τ sig (Elt Ideal)) :
    after (opsB2 (F := Ideal)) V (Proc.devRef .tc main_v85) = V (Proc.devRef .tc main_v85) := by
  after_results_simp

set_option maxRecDepth 8192 in
theorem join_keeps_main_v112 (V : Valuation τ sig (Elt Ideal)) :
    after (opsB2 (F := Ideal)) V (Proc.devRef .tc main_v112) = V (Proc.devRef .tc main_v112) := by
  after_results_simp

set_option maxRecDepth 8192 in
theorem join_keeps_main_v76 (V : Valuation τ sig (Elt Ideal)) :
    after (opsB2 (F := Ideal)) V (Proc.devRef .tc main_v76) = V (Proc.devRef .tc main_v76) := by
  after_results_simp

set_option maxRecDepth 8192 in
theorem join_keeps_main_v103 (V : Valuation τ sig (Elt Ideal)) :
    after (opsB2 (F := Ideal)) V (Proc.devRef .tc main_v103) = V (Proc.devRef .tc main_v103) := by
  after_results_simp

set_option maxRecDepth 8192 in
theorem join_keeps_main_v94 (V : Valuation τ sig (Elt Ideal)) :
    after (opsB2 (F := Ideal)) V (Proc.devRef .tc main_v94) = V (Proc.devRef .tc main_v94) := by
  after_results_simp

set_option maxRecDepth 8192 in
theorem join_keeps_main_v121 (V : Valuation τ sig (Elt Ideal)) :
    after (opsB2 (F := Ideal)) V (Proc.devRef .tc main_v121) = V (Proc.devRef .tc main_v121) := by
  after_results_simp

set_option maxRecDepth 8192 in
theorem join_keeps_main_v31 (V : Valuation τ sig (Elt Ideal)) :
    after (opsB2 (F := Ideal)) V (Proc.devRef .tc main_v31) = V (Proc.devRef .tc main_v31) := by
  after_results_simp

set_option maxRecDepth 8192 in
theorem join_keeps_main_arg13 (V : Valuation τ sig (Elt Ideal)) :
    after (opsB2 (F := Ideal)) V (Proc.devRef .tc main_arg13) = V (Proc.devRef .tc main_arg13) := by
  after_results_simp

/-! ## The last 56 operations -/

set_option maxRecDepth 8192 in
set_option maxHeartbeats 4000000 in
theorem mix_result (V : Valuation τ sig (Elt Ideal))
    (h129 : V (Proc.devRef .tc main_v129) = ReadP.val_main_v129 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg14)) (m ((c.tc : Thread nD τ).loc main_arg15)) (m ((c.tc : Thread nD τ).loc main_arg16)))
    (h_main_v85 : V (Proc.devRef .tc main_v85) = ReadP.val_main_v85 (F := Ideal) (m ((c.tc : Thread nD τ).loc main_arg0)) (m ((c.tc : Thread nD τ).loc main_arg1)) (m ((c.tc : Thread nD τ).loc main_arg3)) (m ((c.tc : Thread nD τ).loc main_arg14)) (m ((c.tc : Thread nD τ).loc main_arg15)) (m ((c.tc : Thread nD τ).loc main_arg16)))
    (h_main_v112 : V (Proc.devRef .tc main_v112) = ReadP.val_main_v112 (F := Ideal) (m ((c.tc : Thread nD τ).loc main_arg0)) (m ((c.tc : Thread nD τ).loc main_arg2)) (m ((c.tc : Thread nD τ).loc main_arg4)) (m ((c.tc : Thread nD τ).loc main_arg14)) (m ((c.tc : Thread nD τ).loc main_arg15)) (m ((c.tc : Thread nD τ).loc main_arg16)))
    (h_main_v76 : V (Proc.devRef .tc main_v76) = ReadP.val_main_v76 (F := Ideal) (m ((c.tc : Thread nD τ).loc main_arg0)) (m ((c.tc : Thread nD τ).loc main_arg1)) (m ((c.tc : Thread nD τ).loc main_arg3)) (m ((c.tc : Thread nD τ).loc main_arg14)) (m ((c.tc : Thread nD τ).loc main_arg15)) (m ((c.tc : Thread nD τ).loc main_arg16)))
    (h_main_v103 : V (Proc.devRef .tc main_v103) = ReadP.val_main_v103 (F := Ideal) (m ((c.tc : Thread nD τ).loc main_arg0)) (m ((c.tc : Thread nD τ).loc main_arg2)) (m ((c.tc : Thread nD τ).loc main_arg4)) (m ((c.tc : Thread nD τ).loc main_arg14)) (m ((c.tc : Thread nD τ).loc main_arg15)) (m ((c.tc : Thread nD τ).loc main_arg16)))
    (h_main_v94 : V (Proc.devRef .tc main_v94) = ReadP.val_main_v94 (F := Ideal) (m ((c.tc : Thread nD τ).loc main_arg0)) (m ((c.tc : Thread nD τ).loc main_arg1)) (m ((c.tc : Thread nD τ).loc main_arg3)) (m ((c.tc : Thread nD τ).loc main_arg14)) (m ((c.tc : Thread nD τ).loc main_arg15)) (m ((c.tc : Thread nD τ).loc main_arg16)))
    (h_main_v121 : V (Proc.devRef .tc main_v121) = ReadP.val_main_v121 (F := Ideal) (m ((c.tc : Thread nD τ).loc main_arg0)) (m ((c.tc : Thread nD τ).loc main_arg2)) (m ((c.tc : Thread nD τ).loc main_arg4)) (m ((c.tc : Thread nD τ).loc main_arg14)) (m ((c.tc : Thread nD τ).loc main_arg15)) (m ((c.tc : Thread nD τ).loc main_arg16)))
    (h_main_v31 : V (Proc.devRef .tc main_v31) = ReadP.val_main_v31 (F := Ideal) (m ((c.tc : Thread nD τ).loc main_arg0)) (m ((c.tc : Thread nD τ).loc main_arg5)))
    (h_arg13 : V (Proc.devRef .tc main_arg13) = (m ((c.tc : Thread nD τ).loc main_arg13))) :
    after (opsB3 (F := Ideal)) V (Proc.devRef .tc main_v178)
      = ReadP.val_main_v178 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) := by
  after_results_simp
  rw [h129, h_main_v85, h_main_v112, h_main_v76, h_main_v103, h_main_v94, h_main_v121, h_main_v31, h_arg13]
  rfl

end Cert.ReferenceIdeal.ValueP

end
-- ==== Proof.RefResult.lean ====
/-
  The idealized reference program's 226 host operations as the first 162 followed by the last 64: what the result buffer holds
  after the whole line is the last stage `val_main_v178` of the launch arguments.
-/
import proofs.«148375_j2465311228029_2_alg».proof.Proof.RefHead
import proofs.«148375_j2465311228029_2_alg».proof.Proof.RefTail

noncomputable section

namespace Cert.ReferenceIdeal.ValueP

open Cert.ReferenceIdeal Cert.ReferenceIdeal.Gen Idealize.ShloMosaic Idealize.ShloMosaic.TcCoe Idealize.SL.Sem Idealize.ShloMosaic.StableHlo

variable (m : (ℓ : Loc nD τ sig) → Buf (Elt Ideal) ℓ) (c : Dev nD)

/-- The fold of the 226 operations over the launch contents, at the result buffer, is the last stage. -/
theorem result_eq : after (ops (F := Ideal)) (launchContents m c) (Proc.devRef .tc main_v178)
    = ReadP.val_main_v178 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) := by
  rw [ops_split, after_append, after_append, after_append]
  exact mix_result m c (after (opsB2 (F := Ideal)) (after (opsB1 (F := Ideal)) (after (opsA (F := Ideal)) (launchContents m c))))
    (join_v129 m c (after (opsB1 (F := Ideal)) (after (opsA (F := Ideal)) (launchContents m c)))
      (rowprod_v122 m c (after (opsA (F := Ideal)) (launchContents m c)) (head_main_v85 m c) (head_main_arg6 m c))
      (rowprod_v123 m c (after (opsA (F := Ideal)) (launchContents m c)) (head_main_v112 m c) (head_main_arg7 m c))
      (rowprod_v124 m c (after (opsA (F := Ideal)) (launchContents m c)) (head_main_v76 m c) (head_main_arg8 m c))
      (rowprod_v125 m c (after (opsA (F := Ideal)) (launchContents m c)) (head_main_v103 m c) (head_main_arg9 m c))
      (rowprod_v126 m c (after (opsA (F := Ideal)) (launchContents m c)) (head_main_v94 m c) (head_main_arg10 m c))
      (rowprod_v127 m c (after (opsA (F := Ideal)) (launchContents m c)) (head_main_v121 m c) (head_main_arg11 m c))
      (rowprod_v128 m c (after (opsA (F := Ideal)) (launchContents m c)) (head_main_v31 m c) (head_main_arg12 m c)))
    ((join_keeps_main_v85 (after (opsB1 (F := Ideal)) (after (opsA (F := Ideal)) (launchContents m c)))).trans ((rowprod_keeps_main_v85 (after (opsA (F := Ideal)) (launchContents m c))).trans (head_main_v85 m c)))
    ((join_keeps_main_v112 (after (opsB1 (F := Ideal)) (after (opsA (F := Ideal)) (launchContents m c)))).trans ((rowprod_keeps_main_v112 (after (opsA (F := Ideal)) (launchContents m c))).trans (head_main_v112 m c)))
    ((join_keeps_main_v76 (after (opsB1 (F := Ideal)) (after (opsA (F := Ideal)) (launchContents m c)))).trans ((rowprod_keeps_main_v76 (after (opsA (F := Ideal)) (launchContents m c))).trans (head_main_v76 m c)))
    ((join_keeps_main_v103 (after (opsB1 (F := Ideal)) (after (opsA (F := Ideal)) (launchContents m c)))).trans ((rowprod_keeps_main_v103 (after (opsA (F := Ideal)) (launchContents m c))).trans (head_main_v103 m c)))
    ((join_keeps_main_v94 (after (opsB1 (F := Ideal)) (after (opsA (F := Ideal)) (launchContents m c)))).trans ((rowprod_keeps_main_v94 (after (opsA (F := Ideal)) (launchContents m c))).trans (head_main_v94 m c)))
    ((join_keeps_main_v121 (after (opsB1 (F := Ideal)) (after (opsA (F := Ideal)) (launchContents m c)))).trans ((rowprod_keeps_main_v121 (after (opsA (F := Ideal)) (launchContents m c))).trans (head_main_v121 m c)))
    ((join_keeps_main_v31 (after (opsB1 (F := Ideal)) (after (opsA (F := Ideal)) (launchContents m c)))).trans ((rowprod_keeps_main_v31 (after (opsA (F := Ideal)) (launchContents m c))).trans (head_main_v31 m c)))
    ((join_keeps_main_arg13 (after (opsB1 (F := Ideal)) (after (opsA (F := Ideal)) (launchContents m c)))).trans ((rowprod_keeps_main_arg13 (after (opsA (F := Ideal)) (launchContents m c))).trans (head_main_arg13 m c)))

end Cert.ReferenceIdeal.ValueP

end
-- ==== Proof.RefRunFolded.lean ====
/-
  The idealized reference program's run: every weakly fair execution of @main terminates, the result buffer holds the last
  stage of the operations read one at a time (`val_main_v178` of the launch arguments), and the seventeen arguments are as
  launched (no operation writes an argument's buffer).
-/
import proofs.«148375_j2465311228029_2_alg».proof.Proof.RefResult

noncomputable section

namespace Cert.ReferenceIdeal.ValueP

open Cert.ReferenceIdeal Cert.ReferenceIdeal.Gen Idealize.ShloMosaic Idealize.ShloMosaic.TcCoe Idealize.SL.Sem Idealize.ShloMosaic.StableHlo

set_option maxRecDepth 8192 in
set_option maxHeartbeats 40000000 in
/-- On every device, from any memory with zero counters: every weakly fair execution of @main terminates with the result at
    the last stage of the arguments and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v178) = ReadP.val_main_v178 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c => ⟨(h c main_v178).trans (result_eq m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl),
      (h c main_arg11).trans (by after_results_simp <;> rfl),
      (h c main_arg12).trans (by after_results_simp <;> rfl),
      (h c main_arg13).trans (by after_results_simp <;> rfl),
      (h c main_arg14).trans (by after_results_simp <;> rfl),
      (h c main_arg15).trans (by after_results_simp <;> rfl),
      (h c main_arg16).trans (by after_results_simp <;> rfl)⟩)
    (run_seq scopedRefs_eq scopedSems_eq defs main (fun _ => ops) main_eq (fun _ => ops_sub) m ρ)

end Cert.ReferenceIdeal.ValueP

end
-- ==== Proof.KernelRun.lean ====
/-
  The idealized kernel program's run with its RESULT named: every weakly fair execution of @main ends with the result
  array holding what the second region's write-backs leave (the contents `W11` at the result's buffer), and with the
  seventeen argument arrays as launched. @main is the chain of its two regions and the host operations between them;
  the final thread state holds every unscoped buffer at the last boundary's contents, and the result buffer is one of them.
-/
import proofs.«148375_j2465311228029_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main over its segments, read at the result buffer and at the arguments. -/
theorem run_value : θ_run defs (onTc (τ := τ) (main (F := F))) ⟨m, fun _ => 0, ρ⟩ (fun r => ∀ c : Dev nD,
      r.2.mem ((c.tc : Thread nD τ).loc main_v119) = W11 m ρ c (Proc.devRef .tc main_v119)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v119 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c),
       (h c _ (mem_uc main_arg12 (by decide))).trans (W11_main_arg12 m ρ c),
       (h c _ (mem_uc main_arg13 (by decide))).trans (W11_main_arg13 m ρ c),
       (h c _ (mem_uc main_arg14 (by decide))).trans (W11_main_arg14 m ρ c),
       (h c _ (mem_uc main_arg15 (by decide))).trans (W11_main_arg15 m ρ c),
       (h c _ (mem_uc main_arg16 (by decide))).trans (W11_main_arg16 m ρ c)⟩)

end Cert.KernelIdeal.RunValue

end
-- ==== Proof.MixSpec.lean ====
/-
  The mathematics of the attention mix, one row at a time, on the extended reals.

  A row of the result depends on the same row of the seven branch arrays `N q` (each a row of 64 numbers),
  on the seven attention vectors `a q` (64 numbers each) and on the 7×7 matrix `A`:
    gate q  = logistic (∑ d, N q d · a q d)                       the seven gates of the row
    logit k = (∑ q, gate q · A q k) / 7                           the row's seven logits
    top     = max(-∞, max over k of logit k)                      the shift of the softmax
    ex k    = exp (logit k - top),   att k = ex k / ∑ k', ex k'   the softmax weights
    mixRow j = 7 · (att 0 · N 0 j + att 1 · N 1 j + … + att 6 · N 6 j)   (summed left to right).
  The float literals 7.0 and -∞ are kept as their binary words: both programs spell the same words.
-/
import Idealize.ShloMosaic.PureOps.Ideal
import Idealize.ShloMosaic.Lib.ValueIdx

noncomputable section

namespace Cert.MixSpec

open Idealize.ShloMosaic

/-- The word of 7.0 and the word of -∞, read at the ideal instance. -/
abbrev seven : EReal := Ideal.ofBits .f32 0x40E00000#32
abbrev negInf : EReal := Ideal.ofBits .f32 0xFF800000#32

/-- The inner product of a row of 64 numbers with a vector of 64 numbers. -/
def dot64 (n a : Fin 64 → EReal) : EReal := ∑ d : Fin 64, n d * a d

/-- The gate of branch `q`: the logistic of the row's inner product with the branch's attention vector. -/
def gate (N a : Fin 7 → Fin 64 → EReal) (q : Fin 7) : EReal := Ideal.logistic (dot64 (N q) (a q))

/-- The row's logit `k`: the gates against column `k` of the 7×7 matrix, over seven. -/
def logit (N a : Fin 7 → Fin 64 → EReal) (A : Fin 7 → Fin 7 → EReal) (k : Fin 7) : EReal :=
  Ideal.div (∑ q : Fin 7, gate N a q * A q k) seven

/-- The softmax's shift: the largest logit (the maximum taken from -∞, and once more against -∞). -/
def top (N a : Fin 7 → Fin 64 → EReal) (A : Fin 7 → Fin 7 → EReal) : EReal :=
  max negInf ((Finset.univ : Finset (Fin 7)).fold max negInf (logit N a A))

/-- The shifted exponentials. -/
def ex (N a : Fin 7 → Fin 64 → EReal) (A : Fin 7 → Fin 7 → EReal) (k : Fin 7) : EReal :=
  Ideal.exp (logit N a A k - top N a A)

/-- The softmax weights of the row. -/
def att (N a : Fin 7 → Fin 64 → EReal) (A : Fin 7 → Fin 7 → EReal) (k : Fin 7) : EReal :=
  Ideal.div (ex N a A k) (∑ k' : Fin 7, ex N a A k')

/-- Entry `j` of the mixed row: seven times the weighted sum of the seven branches, added left to right. -/
def mixRow (N a : Fin 7 → Fin 64 → EReal) (A : Fin 7 → Fin 7 → EReal) (j : Fin 64) : EReal :=
  seven * ((((((att N a A 0 * N 0 j + att N a A 1 * N 1 j) + att N a A 2 * N 2 j) + att N a A 3 * N 3 j)
    + att N a A 4 * N 4 j) + att N a A 5 * N 5 j) + att N a A 6 * N 6 j)

/-- Entry `j` of a projected row: the row of `x` against column `j` of the weights. -/
def projRow (x : Fin 64 → EReal) (w : Fin 64 → Fin 64 → EReal) (j : Fin 64) : EReal := ∑ d : Fin 64, x d * w d j

/-! ## The same, array by array

  The node arrays are [100000, 64]; the weights [64, 64]; an attention vector [64, 1]; the 7×7 matrix [7, 7]. -/

abbrev Big : Shape := ⟨2, ![100000, 64]⟩
abbrev Sq : Shape := ⟨2, ![64, 64]⟩
abbrev Col : Shape := ⟨2, ![64, 1]⟩
abbrev M7 : Shape := ⟨2, ![7, 7]⟩

open ValueIdx in
/-- The projection `x · w` of every node's row. -/
def projArr (x : Big.Idx → EReal) (w : Sq.Idx → EReal) : Big.Idx → EReal := fun i =>
  projRow (fun d => x (ix2 (n0 := 100000) (i 0) d)) (fun d j => w (ix2 d j)) (i 1)

/-- The rectifier, entry by entry (the zero is the word of 0.0). -/
def reluArr (y : Big.Idx → EReal) : Big.Idx → EReal := fun i => max (y i) (Ideal.ofBits .f32 0x00000000#32)

open ValueIdx in
/-- The attention mix of every node's row from the seven branch arrays, the seven attention vectors and the 7×7 matrix. -/
def mixArr (n0 n1 n2 n3 n4 n5 n6 : Big.Idx → EReal) (a0 a1 a2 a3 a4 a5 a6 : Col.Idx → EReal) (A : M7.Idx → EReal) :
    Big.Idx → EReal := fun i =>
  mixRow (fun q d => (![n0, n1, n2, n3, n4, n5, n6] q) (ix2 (n0 := 100000) (i 0) d))
    (fun q d => (![a0, a1, a2, a3, a4, a5, a6] q) (ix2 d (0 : Fin 1)))
    (fun q k => A (ix2 q k)) (i 1)

end Cert.MixSpec

end
-- ==== Proof.LibColumn.lean ====
/-
  Column-shaped layout operations read at an index: a column [a, 1] flattened to [a] and back, a column
  broadcast along its rows to [a, b], and a lane reduction of an [a, b] array read at a row as a sum or a
  maximum over the row. Each says which single element (or which row) of the operand an element of the result reads.
-/
import Idealize.ShloMosaic.Lib.ValueIdx
import Idealize.ShloMosaic.Lib.ValueLayout
import Idealize.ShloMosaic.Lib.Pipeline.Value
import Idealize.ShloMosaic.PureOps.Ideal.Laws

noncomputable section

namespace Idealize.ShloMosaic.ColumnIdx

open Idealize.ShloMosaic ValueIdx

variable {α : Type}

/-- A column `[a, 1]` cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A lane sum of an `[a, b]` array (a `multi_reduction <add>` over axis 1 from the zero word), read at row `p`
    at the ideal instance: the sum of the row. -/
theorem rowSum_apply {a b : ℕ} (src : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (p : Fin a) :
    multiReduction .add [1] ⟨1, ![a]⟩ src 0x00000000#32 h hφ hacc (ix1 p) = ∑ k : Fin b, src (ix2 p k) :=
  (Ideal.multiReduction_add_single src _ h hφ hacc (ix1 p)).trans
    (Finset.sum_congr rfl fun k _ => congrArg src (funext fun ax => Fin.ext (by
      match ax with
      | ⟨0, _⟩ => rfl
      | ⟨1, _⟩ => rfl)))

/-- A lane maximum of an `[a, b]` array (a `multi_reduction <maximumf>` over axis 1 from the word of -∞), read at row
    `p` at the ideal instance: the fold of `max` over the row, from -∞. -/
theorem rowMax_apply {a b : ℕ} (src : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (p : Fin a) :
    multiReduction .maximumf [1] ⟨1, ![a]⟩ src 0xFF800000#32 h hφ hacc (ix1 p)
      = (Finset.univ : Finset (Fin b)).fold max (Ideal.ofBits .f32 0xFF800000#32) (fun k => src (ix2 p k)) :=
  (Ideal.multiReduction_maximumf_single src _ h hφ hacc (ix1 p)).trans
    (congrArg ((Finset.univ : Finset (Fin b)).fold max (Ideal.ofBits .f32 0xFF800000#32)) (funext fun k =>
      congrArg src (funext fun ax => Fin.ext (by
        match ax with
        | ⟨0, _⟩ => rfl
        | ⟨1, _⟩ => rfl))))

/-- Seven columns `[a, 1]` joined side by side into `[a, 7]`: entry `(p, k)` is column `k`'s entry of row `p`. -/
theorem concat7_apply {a : ℕ} (x0 x1 x2 x3 x4 x5 x6 : (⟨2, ![a, 1]⟩ : Shape).Idx → α)
    (h : Shape.Concatenates (([⟨⟨2, ![a, 1]⟩, x0⟩, ⟨⟨2, ![a, 1]⟩, x1⟩, ⟨⟨2, ![a, 1]⟩, x2⟩, ⟨⟨2, ![a, 1]⟩, x3⟩, ⟨⟨2, ![a, 1]⟩, x4⟩,
      ⟨⟨2, ![a, 1]⟩, x5⟩, ⟨⟨2, ![a, 1]⟩, x6⟩] : List ((s : Shape) × (s.Idx → α))).map (·.1)) ⟨2, ![a, 7]⟩ 1)
    (p : Fin a) (k : Fin 7) :
    concatenate ⟨2, ![a, 7]⟩ 1 [⟨⟨2, ![a, 1]⟩, x0⟩, ⟨⟨2, ![a, 1]⟩, x1⟩, ⟨⟨2, ![a, 1]⟩, x2⟩, ⟨⟨2, ![a, 1]⟩, x3⟩, ⟨⟨2, ![a, 1]⟩, x4⟩,
      ⟨⟨2, ![a, 1]⟩, x5⟩, ⟨⟨2, ![a, 1]⟩, x6⟩] h (ix2 p k) = (![x0, x1, x2, x3, x4, x5, x6] k) (ix2 p (0 : Fin 1)) := by
  have hi : ∀ (n : Fin 7) (b : Fin (⟨2, ![a, 1]⟩ : Shape).rank), b.cast (rfl : (2 : ℕ) = 2) ≠ (1 : Fin 2) →
      ((ix2 p (0 : Fin 1) : (⟨2, ![a, 1]⟩ : Shape).Idx) b).val = ((ix2 p n : (⟨2, ![a, 7]⟩ : Shape).Idx) (b.cast rfl)).val := by
    intro n b hb
    match b with
    | ⟨0, _⟩ => rfl
    | ⟨1, _⟩ => exact absurd rfl hb
  match k with
  | ⟨0, _⟩ => exact concatenate_apply_piece 1 _ h _ 0 (by simp) _ x0 rfl rfl 0 rfl (ix2 p (0 : Fin 1)) (hi 0) rfl
  | ⟨1, _⟩ => exact concatenate_apply_piece 1 _ h _ 1 (by simp) _ x1 rfl rfl 1 rfl (ix2 p (0 : Fin 1)) (hi 1) rfl
  | ⟨2, _⟩ => exact concatenate_apply_piece 1 _ h _ 2 (by simp) _ x2 rfl rfl 2 rfl (ix2 p (0 : Fin 1)) (hi 2) rfl
  | ⟨3, _⟩ => exact concatenate_apply_piece 1 _ h _ 3 (by simp) _ x3 rfl rfl 3 rfl (ix2 p (0 : Fin 1)) (hi 3) rfl
  | ⟨4, _⟩ => exact concatenate_apply_piece 1 _ h _ 4 (by simp) _ x4 rfl rfl 4 rfl (ix2 p (0 : Fin 1)) (hi 4) rfl
  | ⟨5, _⟩ => exact concatenate_apply_piece 1 _ h _ 5 (by simp) _ x5 rfl rfl 5 rfl (ix2 p (0 : Fin 1)) (hi 5) rfl
  | ⟨6, _⟩ => exact concatenate_apply_piece 1 _ h _ 6 (by simp) _ x6 rfl rfl 6 rfl (ix2 p (0 : Fin 1)) (hi 6) rfl

end Idealize.ShloMosaic.ColumnIdx

end
-- ==== Proof.MixKernel1.lean ====
/-
  The attention-mix kernel's arithmetic on one block of 2000 rows, read at a row: the seven row sums, the gates, the
  logits and the shifted exponentials. Every vector operation of the body is read at an index: a lane sum is the sum
  of the row, a column broadcast reads the row's entry, the join of seven columns reads the column named by the index.
-/
import proofs.«148375_j2465311228029_2_alg».proof.Proof.Gen.KernelIdeal.Skeleton
import proofs.«148375_j2465311228029_2_alg».proof.Proof.MixSpec
import proofs.«148375_j2465311228029_2_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.MixValue

open Idealize.ShloMosaic ValueIdx ColumnIdx Cert.KernelIdeal Cert.KernelIdeal.Gen Cert.MixSpec

/-- One branch's row sum: the lane sum of the block times the attention vector laid along the lanes, as a column;
    at row `p` it is the inner product of the block's row with the vector. -/
theorem rowdot (x : FVec Ideal S2000x64 .f32) (v : Vec Ideal S64x1 .f32) (p : Fin 2000) (u : Fin 1) :
    shapeCast S2000x1 (multiReduction .add [1] S2000 (mulf x (broadcastTo S2000x64 (shapeCast S1x64 (shapeCast S64 v shapeCasts_S64x1_S64)
      shapeCasts_S64_S1x64) broadcasts_S1x64_S2000x64)) 0x00000000#32 reduces_S2000x64_S2000 (.inl rfl) rfl) shapeCasts_S2000_S2000x1 (ix2 p u)
      = dot64 (fun d => x (ix2 p d)) (fun d => v (ix2 d (0 : Fin 1))) :=
  (shapeCast_a_a1_apply _ _ p u).trans ((rowSum_apply _ _ _ _ p).trans (Finset.sum_congr rfl fun d _ =>
    congrArg (x (ix2 p d) * ·) ((broadcastTo_1b_ab_apply _ _ p d).trans ((shapeCast_a_1a_apply _ _ 0 d).trans (shapeCast_a1_a_apply _ _ d)))))

theorem pay2_eq (x : Vec Ideal S2000x64 .f32) : k1_pay2 x = x := shapeCast_self _ _
theorem pay3_eq (x : Vec Ideal S2000x64 .f32) : k1_pay3 x = x := shapeCast_self _ _
theorem pay4_eq (x : Vec Ideal S2000x64 .f32) : k1_pay4 x = x := shapeCast_self _ _
theorem pay5_eq (x : Vec Ideal S2000x64 .f32) : k1_pay5 x = x := shapeCast_self _ _
theorem pay6_eq (x : Vec Ideal S2000x64 .f32) : k1_pay6 x = x := shapeCast_self _ _
theorem pay7_eq (x : Vec Ideal S2000x64 .f32) : k1_pay7 x = x := shapeCast_self _ _
theorem pay8_eq (x : Vec Ideal S2000x64 .f32) : k1_pay8 x = x := shapeCast_self _ _

theorem pay9_apply (x : Vec Ideal S2000x64 .f32) (v : Vec Ideal S64x1 .f32) (p : Fin 2000) (u : Fin 1) :
    k1_pay9 x v (ix2 p u) = dot64 (fun d => x (ix2 p d)) (fun d => v (ix2 d (0 : Fin 1))) := by
  unfold k1_pay9; rw [pay2_eq]; exact rowdot x v p u
theorem pay10_apply (x : Vec Ideal S2000x64 .f32) (v : Vec Ideal S64x1 .f32) (p : Fin 2000) (u : Fin 1) :
    k1_pay10 x v (ix2 p u) = dot64 (fun d => x (ix2 p d)) (fun d => v (ix2 d (0 : Fin 1))) := by
  unfold k1_pay10; rw [pay3_eq]; exact rowdot x v p u
theorem pay11_apply (x : Vec Ideal S2000x64 .f32) (v : Vec Ideal S64x1 .f32) (p : Fin 2000) (u : Fin 1) :
    k1_pay11 x v (ix2 p u) = dot64 (fun d => x (ix2 p d)) (fun d => v (ix2 d (0 : Fin 1))) := by
  unfold k1_pay11; rw [pay4_eq]; exact rowdot x v p u

end Cert.KernelIdeal.MixValue

end
-- ==== Proof.MixKernel2.lean ====
/-
  The attention-mix kernel's arithmetic on one block of 2000 rows, read at a row, continued: the logistic of the seven
  joined row sums, the 7×7 product over seven, the shift by the row's largest logit and the exponentials.
  Stated over abstract layered quantities of one row — the seven row sums `s` and the 7×7 matrix `A` —:
    logitS k = (∑ q, logistic (s q) · A q k) / 7,  topS = max(-∞, max over k of logitS k),
    exS k = exp (logitS k - topS),  attS k = exS k / ∑ k', exS k',
  which are the specification's `logit`, `top`, `ex`, `att` at the row sums `s q = dot64 (N q) (a q)`.
-/
import proofs.«148375_j2465311228029_2_alg».proof.Proof.MixKernel1

noncomputable section

namespace Cert.KernelIdeal.MixValue

open Idealize.ShloMosaic ValueIdx ColumnIdx Cert.KernelIdeal Cert.KernelIdeal.Gen Cert.MixSpec

/-! ## The row's layered quantities over its seven row sums -/

def logitS (s : Fin 7 → EReal) (A : Fin 7 → Fin 7 → EReal) (k : Fin 7) : EReal :=
  Ideal.div (∑ q : Fin 7, Ideal.logistic (s q) * A q k) seven
def topS (s : Fin 7 → EReal) (A : Fin 7 → Fin 7 → EReal) : EReal :=
  max negInf ((Finset.univ : Finset (Fin 7)).fold max negInf (logitS s A))
def exS (s : Fin 7 → EReal) (A : Fin 7 → Fin 7 → EReal) (k : Fin 7) : EReal := Ideal.exp (logitS s A k - topS s A)
def attS (s : Fin 7 → EReal) (A : Fin 7 → Fin 7 → EReal) (k : Fin 7) : EReal :=
  Ideal.div (exS s A k) (∑ k' : Fin 7, exS s A k')

theorem att_eq_attS (N a : Fin 7 → Fin 64 → EReal) (A : Fin 7 → Fin 7 → EReal) (k : Fin 7) :
    att N a A k = attS (fun q => dot64 (N q) (a q)) A k := rfl

/-! ## The 7×7 product's operand indices: at output (p, k) and contraction index q, (p, q) and (q, k) -/

theorem lhs7_row (i : S2000x7.Idx) (q : dot_S2000x7_S7x7_S2000x7_1_0_0_1_n_n.contr.Idx) : (dot_S2000x7_S7x7_S2000x7_1_0_0_1_n_n.lhsIdx i q 0).val = (i 0).val := by
  unfold DotDims.lhsIdx
  rw [dif_neg (show ¬(0 : Fin S2000x7.rank) ∈ dot_S2000x7_S7x7_S2000x7_1_0_0_1_n_n.lhsBatch by decide),
    dif_pos (show (0 : Fin S2000x7.rank) ∈ dot_S2000x7_S7x7_S2000x7_1_0_0_1_n_n.lhsNonContracting by decide)]
  rfl
theorem lhs7_col (i : S2000x7.Idx) (q : dot_S2000x7_S7x7_S2000x7_1_0_0_1_n_n.contr.Idx) : (dot_S2000x7_S7x7_S2000x7_1_0_0_1_n_n.lhsIdx i q 1).val = (q ⟨0, by decide⟩).val :=
  dot_S2000x7_S7x7_S2000x7_1_0_0_1_n_n.lhsIdx_val_of_single rfl i q
theorem rhs7_row (i : S2000x7.Idx) (q : dot_S2000x7_S7x7_S2000x7_1_0_0_1_n_n.contr.Idx) : (dot_S2000x7_S7x7_S2000x7_1_0_0_1_n_n.rhsIdx i q 0).val = (q ⟨0, by decide⟩).val :=
  dot_S2000x7_S7x7_S2000x7_1_0_0_1_n_n.rhsIdx_val_of_single rfl i q
theorem rhs7_col (i : S2000x7.Idx) (q : dot_S2000x7_S7x7_S2000x7_1_0_0_1_n_n.contr.Idx) : (dot_S2000x7_S7x7_S2000x7_1_0_0_1_n_n.rhsIdx i q 1).val = (i 1).val := by
  unfold DotDims.rhsIdx
  rw [dif_neg (show ¬(1 : Fin S7x7.rank) ∈ dot_S2000x7_S7x7_S2000x7_1_0_0_1_n_n.rhsBatch by decide),
    dif_pos (show (1 : Fin S7x7.rank) ∈ dot_S2000x7_S7x7_S2000x7_1_0_0_1_n_n.rhsNonContracting by decide)]
  rfl

/-- Entry (p, k) of the product of the block of gates by the 7×7 matrix, accumulated into zero: the sum over `q`. -/
theorem matmul7_apply (G : FVec Ideal S2000x7 .f32) (A : FVec Ideal S7x7 .f32) (p : Fin 2000) (k : Fin 7) :
    matmul dot_S2000x7_S7x7_S2000x7_1_0_0_1_n_n (some .fp32) G A (constant (F := Ideal) S2000x7 .f32 0x00000000#32) (ix2 p k)
      = ∑ q : Fin 7, G (ix2 p q) * A (ix2 q k) := by
  simp only [matmul]
  rw [Ideal.matmul_constant_zero_apply, ← Equiv.sum_comp (contrEquiv1 dot_S2000x7_S7x7_S2000x7_1_0_0_1_n_n 7 rfl rfl).symm]
  refine Finset.sum_congr rfl fun q _ => ?_
  have hq := contrEquiv1_symm_val dot_S2000x7_S7x7_S2000x7_1_0_0_1_n_n 7 rfl rfl q
  have el : dot_S2000x7_S7x7_S2000x7_1_0_0_1_n_n.lhsIdx (ix2 p k) ((contrEquiv1 dot_S2000x7_S7x7_S2000x7_1_0_0_1_n_n 7 rfl rfl).symm q) = ix2 p q :=
    funext fun ax => Fin.ext (by
      match ax with
      | ⟨0, _⟩ => exact lhs7_row _ _
      | ⟨1, _⟩ => exact (lhs7_col _ _).trans hq)
  have er : dot_S2000x7_S7x7_S2000x7_1_0_0_1_n_n.rhsIdx (ix2 p k) ((contrEquiv1 dot_S2000x7_S7x7_S2000x7_1_0_0_1_n_n 7 rfl rfl).symm q) = ix2 q k :=
    funext fun ax => Fin.ext (by
      match ax with
      | ⟨0, _⟩ => exact (rhs7_row _ _).trans hq
      | ⟨1, _⟩ => exact rhs7_col _ _)
  rw [el, er]

/-! ## The stages of the softmax on a block, at a row -/

/-- The logistic of seven joined columns at (p, k): the logistic of column `k`'s entry of row `p`. -/
theorem gates_apply (c0 c1 c2 c3 c4 c5 c6 : FVec Ideal S2000x1 .f32) (p : Fin 2000) (k : Fin 7) :
    logistic (concatenate S2000x7 1 [⟨S2000x1, c0⟩, ⟨S2000x1, c1⟩, ⟨S2000x1, c2⟩, ⟨S2000x1, c3⟩, ⟨S2000x1, c4⟩, ⟨S2000x1, c5⟩, ⟨S2000x1, c6⟩]
      concatenates_S2000x1_S2000x1_S2000x1_S2000x1_S2000x1_S2000x1_S2000x1_S2000x7_d1) (ix2 p k)
      = Ideal.logistic ((![c0, c1, c2, c3, c4, c5, c6] k) (ix2 p (0 : Fin 1))) :=
  congrArg Ideal.logistic (concat7_apply c0 c1 c2 c3 c4 c5 c6 _ p k)

/-- The logits of a block of gates: the product with the 7×7 matrix over the word of 7.0. -/
theorem logits_apply (G : FVec Ideal S2000x7 .f32) (A : FVec Ideal S7x7 .f32) (p : Fin 2000) (k : Fin 7) :
    divf (matmul dot_S2000x7_S7x7_S2000x7_1_0_0_1_n_n (some .fp32) G A (constant (F := Ideal) S2000x7 .f32 0x00000000#32))
      (broadcast S2000x7 (Scalar.ofBits (F := Ideal) .f32 0x40E00000#32)) (ix2 p k)
      = Ideal.div (∑ q : Fin 7, G (ix2 p q) * A (ix2 q k)) seven :=
  congrArg (Ideal.div · seven) (matmul7_apply G A p k)

/-- The shift of a block of logits: each row's largest entry (from -∞, and once more against -∞), as a column
    broadcast back along the row. -/
theorem shift_apply (L : FVec Ideal S2000x7 .f32) (p : Fin 2000) (k : Fin 7) :
    broadcastTo S2000x7 (shapeCast S2000x1 (maximumf (broadcast S2000 (Scalar.ofBits (F := Ideal) .f32 0xFF800000#32))
      (multiReduction .maximumf [1] S2000 L 0xFF800000#32 reduces_S2000x7_S2000 (.inl rfl) rfl)) shapeCasts_S2000_S2000x1)
      broadcasts_S2000x1_S2000x7 (ix2 p k)
      = max negInf ((Finset.univ : Finset (Fin 7)).fold max negInf (fun k' => L (ix2 p k'))) :=
  (broadcastTo_a1_ab_apply _ _ p k).trans ((shapeCast_a_a1_apply _ _ p 0).trans
    (congrArg (max negInf) (rowMax_apply L _ _ _ p)))

end Cert.KernelIdeal.MixValue

end
-- ==== Proof.MixKernel3.lean ====
/-
  The attention-mix kernel's arithmetic on one block of 2000 rows, read at a row, concluded: the body's stored value at
  entry (p, j) of the block is the specification's mixed row — seven times the softmax-weighted sum of the seven branch
  blocks' entries (p, j), the weights being functions of row p of the seven blocks, of the seven attention vectors and of the
  7×7 matrix.
-/
import proofs.«148375_j2465311228029_2_alg».proof.Proof.MixKernel2
import proofs.«148375_j2465311228029_2_alg».proof.Proof.Gen.KernelIdeal.Frame

noncomputable section

namespace Cert.KernelIdeal.MixValue

open Idealize.ShloMosaic ValueIdx ColumnIdx Cert.KernelIdeal Cert.KernelIdeal.Gen Cert.MixSpec

/-! ## The body's composite vector values, named -/

/-- One branch's row sums as a column. -/
def rowcol (x : FVec Ideal S2000x64 .f32) (v : Vec Ideal S64x1 .f32) : FVec Ideal S2000x1 .f32 :=
  shapeCast S2000x1 (multiReduction .add [1] S2000 (mulf x (broadcastTo S2000x64 (shapeCast S1x64 (shapeCast S64 v shapeCasts_S64x1_S64) shapeCasts_S64_S1x64) broadcasts_S1x64_S2000x64)) 0x00000000#32 reduces_S2000x64_S2000 (.inl rfl) rfl) shapeCasts_S2000_S2000x1

/-- The block of gates: the logistic of the seven joined columns. -/
def gatesB (c0 c1 c2 c3 c4 c5 c6 : FVec Ideal S2000x1 .f32) : FVec Ideal S2000x7 .f32 :=
  logistic (concatenate S2000x7 1 [⟨S2000x1, c0⟩, ⟨S2000x1, c1⟩, ⟨S2000x1, c2⟩, ⟨S2000x1, c3⟩, ⟨S2000x1, c4⟩, ⟨S2000x1, c5⟩, ⟨S2000x1, c6⟩]
    concatenates_S2000x1_S2000x1_S2000x1_S2000x1_S2000x1_S2000x1_S2000x1_S2000x7_d1)

/-- The block of logits. -/
def logitsB (G : FVec Ideal S2000x7 .f32) (A : FVec Ideal S7x7 .f32) : FVec Ideal S2000x7 .f32 :=
  divf (matmul dot_S2000x7_S7x7_S2000x7_1_0_0_1_n_n (some .fp32) G A (constant (F := Ideal) S2000x7 .f32 0x00000000#32))
    (broadcast S2000x7 (Scalar.ofBits (F := Ideal) .f32 0x40E00000#32))

/-- The block of shifted exponentials. -/
def exB (L : FVec Ideal S2000x7 .f32) : FVec Ideal S2000x7 .f32 :=
  exp (subf L (broadcastTo S2000x7 (shapeCast S2000x1 (maximumf (broadcast S2000 (Scalar.ofBits (F := Ideal) .f32 0xFF800000#32))
    (multiReduction .maximumf [1] S2000 L 0xFF800000#32 reduces_S2000x7_S2000 (.inl rfl) rfl)) shapeCasts_S2000_S2000x1)
    broadcasts_S2000x1_S2000x7))

theorem rowcol_apply (x : FVec Ideal S2000x64 .f32) (v : Vec Ideal S64x1 .f32) (p : Fin 2000) (u : Fin 1) :
    rowcol x v (ix2 p u) = dot64 (fun d => x (ix2 p d)) (fun d => v (ix2 d (0 : Fin 1))) := rowdot x v p u

theorem pay12_eq (v7 v9 v11 v13 : FVec Ideal S2000x64 .f32) (v20 v27 v34 : FVec Ideal S2000x1 .f32) (v35 v42 v49 v56 : Vec Ideal S64x1 .f32)
    (A : Vec Ideal S7x7 .f32) :
    k1_pay12 v7 v9 v11 v13 v20 v27 v34 v35 v42 v49 v56 A
      = exB (logitsB (gatesB v20 v27 v34 (rowcol v7 v35) (rowcol v9 v42) (rowcol v11 v49) (rowcol v13 v56)) A) := rfl

/-- The shifted exponentials of a row whose seven joined columns are the row sums `s`. -/
theorem exB_apply (c0 c1 c2 c3 c4 c5 c6 : FVec Ideal S2000x1 .f32) (A : FVec Ideal S7x7 .f32) (p : Fin 2000) (k : Fin 7)
    (s : Fin 7 → EReal) (hs : ∀ q : Fin 7, (![c0, c1, c2, c3, c4, c5, c6] q) (ix2 p (0 : Fin 1)) = s q) :
    exB (logitsB (gatesB c0 c1 c2 c3 c4 c5 c6) A) (ix2 p k) = exS s (fun q k => A (ix2 q k)) k := by
  have hL : ∀ k' : Fin 7, logitsB (gatesB c0 c1 c2 c3 c4 c5 c6) A (ix2 p k') = logitS s (fun q k => A (ix2 q k)) k' := fun k' =>
    (logits_apply _ A p k').trans (congrArg (Ideal.div · seven) (Finset.sum_congr rfl fun q _ =>
      congrArg (· * A (ix2 q k')) ((gates_apply c0 c1 c2 c3 c4 c5 c6 p q).trans (congrArg Ideal.logistic (hs q)))))
  unfold exB exS topS
  show Ideal.exp (_ - _) = _
  rw [shift_apply, hL k]
  exact congrArg (fun f => Ideal.exp (logitS s (fun q k => A (ix2 q k)) k - max negInf ((Finset.univ : Finset (Fin 7)).fold max negInf f)))
    (funext hL)

end Cert.KernelIdeal.MixValue

end
-- ==== Proof.MixKernel4.lean ====
/-
  The attention-mix kernel's stored value at entry (p, j) of a block: the softmax weights (each shifted exponential over the
  row's sum of them), each weight's column broadcast along the lanes and multiplied into its branch block, the seven products
  added left to right, the sum scaled by the word of 7.0 — the specification's mixed row.
-/
import proofs.«148375_j2465311228029_2_alg».proof.Proof.MixKernel3

noncomputable section

namespace Cert.KernelIdeal.MixValue

open Idealize.ShloMosaic ValueIdx ColumnIdx Cert.KernelIdeal Cert.KernelIdeal.Gen Cert.MixSpec

/-- The row sums of the shifted exponentials. -/
theorem pay13_apply (v7 v9 v11 v13 : FVec Ideal S2000x64 .f32) (v20 v27 v34 : FVec Ideal S2000x1 .f32) (v35 v42 v49 v56 : Vec Ideal S64x1 .f32)
    (A : Vec Ideal S7x7 .f32) (p : Fin 2000) :
    k1_pay13 v7 v9 v11 v13 v20 v27 v34 v35 v42 v49 v56 A (ix1 p)
      = ∑ k : Fin 7, k1_pay12 v7 v9 v11 v13 v20 v27 v34 v35 v42 v49 v56 A (ix2 p k) := by
  unfold k1_pay13; exact rowSum_apply _ _ _ _ p

/-- A weight column: the block of exponentials over the column of their row sums broadcast back, at (p, k). -/
theorem weights_apply (E : FVec Ideal S2000x7 .f32) (S : FVec Ideal S2000 .f32) (p : Fin 2000) (k : Fin 7) :
    divf E (broadcastTo S2000x7 (shapeCast S2000x1 S shapeCasts_S2000_S2000x1) broadcasts_S2000x1_S2000x7) (ix2 p k)
      = Ideal.div (E (ix2 p k)) (S (ix1 p)) :=
  congrArg (Ideal.div (E (ix2 p k))) ((broadcastTo_a1_ab_apply _ _ p k).trans (shapeCast_a_a1_apply _ _ p 0))

/-- Column `c` of a [2000, 7] block broadcast along 64 lanes, at (p, j): the block's entry (p, c). -/
theorem col_apply (c : ℕ) (W : FVec Ideal S2000x7 .f32) (h : S2000x7.Slices ![0, c] S2000x1) (p : Fin 2000) (j : Fin 64)
    (k : Fin 7) (hk : k.val = c) :
    broadcastTo S2000x64 (extractStridedSlice S2000x1 ![0, c] W h) broadcasts_S2000x1_S2000x64 (ix2 p j) = W (ix2 p k) :=
  (broadcastTo_a1_ab_apply _ _ p j).trans (slice2_axis1_apply c W h p (0 : Fin 1) k (by rw [hk]; rfl))

/-- The body's last value at (p, j), from the branch blocks, the block of exponentials `E` and their row sums `S`. -/
theorem pay1_apply (v1 v3 v5 v7 v9 v11 v13 : FVec Ideal S2000x64 .f32) (E : FVec Ideal S2000x7 .f32) (S : FVec Ideal S2000 .f32)
    (p : Fin 2000) (j : Fin 64) :
    k1_pay1 v1 v3 v5 v7 v9 v11 v13 E S (ix2 p j)
      = seven * ((((((Ideal.div (E (ix2 p 0)) (S (ix1 p)) * v1 (ix2 p j) + Ideal.div (E (ix2 p 1)) (S (ix1 p)) * v3 (ix2 p j))
          + Ideal.div (E (ix2 p 2)) (S (ix1 p)) * v5 (ix2 p j)) + Ideal.div (E (ix2 p 3)) (S (ix1 p)) * v7 (ix2 p j))
          + Ideal.div (E (ix2 p 4)) (S (ix1 p)) * v9 (ix2 p j)) + Ideal.div (E (ix2 p 5)) (S (ix1 p)) * v11 (ix2 p j))
          + Ideal.div (E (ix2 p 6)) (S (ix1 p)) * v13 (ix2 p j)) := by
  unfold k1_pay1
  simp only [mulf_apply, addf_apply, broadcast_apply]
  rw [col_apply 0 _ _ p j 0 rfl, col_apply 1 _ _ p j 1 rfl, col_apply 2 _ _ p j 2 rfl, col_apply 3 _ _ p j 3 rfl,
    col_apply 4 _ _ p j 4 rfl, col_apply 5 _ _ p j 5 rfl, col_apply 6 _ _ p j 6 rfl]
  simp only [weights_apply]
  rfl

end Cert.KernelIdeal.MixValue

end
-- ==== Proof.MixKernel5.lean ====
/-
  What the attention-mix body leaves in its output block: at entry (p, j) the specification's mixed row of row p of the
  seven input blocks. The body stores once, through the whole block, and loads each operand whole; its row sums are the inner
  products of the blocks' rows with the attention vectors.
-/
import proofs.«148375_j2465311228029_2_alg».proof.Proof.MixKernel4

noncomputable section

namespace Cert.KernelIdeal.MixValue

open Idealize.ShloMosaic ValueIdx ColumnIdx Cert.KernelIdeal Cert.KernelIdeal.Gen Cert.MixSpec

theorem zero_offsets : (![0, 0] : Fin 2 → Nat) = fun _ => 0 := funext fun a => by fin_cases a <;> rfl

theorem out_apply (x0 x1 x2 x3 x4 x5 x6 : Vec Ideal S2000x64 .f32) (a0 a1 a2 a3 a4 a5 a6 : Vec Ideal S64x1 .f32)
    (A : Vec Ideal S7x7 .f32) (p : Fin 2000) (j : Fin 64) :
    out1_15 x0 x1 x2 x3 x4 x5 x6 a0 a1 a2 a3 a4 a5 a6 A (ix2 p j)
      = mixRow (fun q d => (![x0, x1, x2, x3, x4, x5, x6] q) (ix2 p d))
          (fun q d => (![a0, a1, a2, a3, a4, a5, a6] q) (ix2 d (0 : Fin 1))) (fun q k => A (ix2 q k)) j := by
  unfold out1_15
  rw [View.canon_unit_zero zero_offsets]
  simp only [View.ld_unit_zero (S := S2000x64) zero_offsets, View.ld_unit_zero (S := S64x1) zero_offsets,
    View.ld_unit_zero (S := S7x7) zero_offsets]
  simp only [pay2_eq, pay3_eq, pay4_eq, pay5_eq, pay6_eq, pay7_eq, pay8_eq]
  rw [pay1_apply, pay13_apply]
  simp only [pay12_eq]
  have hs : ∀ q : Fin 7, (![k1_pay9 x0 a0, k1_pay10 x1 a1, k1_pay11 x2 a2, rowcol x3 a3, rowcol x4 a4, rowcol x5 a5, rowcol x6 a6] q)
      (ix2 p (0 : Fin 1))
      = dot64 ((fun q d => (![x0, x1, x2, x3, x4, x5, x6] q) (ix2 p d)) q)
          ((fun q d => (![a0, a1, a2, a3, a4, a5, a6] q) (ix2 d (0 : Fin 1))) q) := by
    intro q
    match q with
    | ⟨0, _⟩ => exact pay9_apply x0 a0 p 0
    | ⟨1, _⟩ => exact pay10_apply x1 a1 p 0
    | ⟨2, _⟩ => exact pay11_apply x2 a2 p 0
    | ⟨3, _⟩ => exact rowcol_apply x3 a3 p 0
    | ⟨4, _⟩ => exact rowcol_apply x4 a4 p 0
    | ⟨5, _⟩ => exact rowcol_apply x5 a5 p 0
    | ⟨6, _⟩ => exact rowcol_apply x6 a6 p 0
  simp only [exB_apply _ _ _ _ _ _ _ A p _ _ hs]
  rfl

end Cert.KernelIdeal.MixValue

end
-- ==== Proof.MixArray.lean ====
/-
  From blocks to the whole array: the attention mix of the second region.

  The region runs over 50 grid points. Point `t` reads rows 2000·t … 2000·t + 1999 of the seven branch arrays (all
  64 columns), the seven attention vectors and the 7×7 matrix whole, and writes the same rows of the result. Entry
  (p, j) of what it writes is the mixed row of row p of its seven blocks, that is of row 2000·t + p of the seven
  arrays; so each write-back is the block of ONE function of the whole arrays, `Cert.MixSpec.mixArr`. Row r of the
  result is covered by point r / 2000, so after the run the result is that function everywhere.
-/
import proofs.«148375_j2465311228029_2_alg».proof.Proof.MixKernel5

noncomputable section

namespace Cert.KernelIdeal.MixValue

open Cert.KernelIdeal Cert.KernelIdeal.Gen Idealize.ShloMosaic Idealize.ShloMosaic.TcCoe Idealize.SL.Sem ValueIdx Cert.MixSpec
open Idealize.ShloMosaic.Pipeline (Dat)

variable (V : (c : Dev nD) → (b : Ref sig .tc) → Buf (Elt Ideal) ((c : Thread nD τ).loc b))

/-! ## Where each window's block sits

  Decided over the 50 grid points: the block of each branch array and of the result at point `t` is block `t` along
  the rows and block 0 along the columns; the block of an attention vector or of the 7×7 matrix is always block (0, 0). -/

theorem block_index_0 : ∀ t : Fin cfg1.N, win1_0.index t (0 : Fin 2) = t.val ∧ win1_0.index t (1 : Fin 2) = 0 :=
  (by decide +kernel : ∀ t : Fin grid1.N, _)
theorem block_index_1 : ∀ t : Fin cfg1.N, win1_1.index t (0 : Fin 2) = t.val ∧ win1_1.index t (1 : Fin 2) = 0 :=
  (by decide +kernel : ∀ t : Fin grid1.N, _)
theorem block_index_2 : ∀ t : Fin cfg1.N, win1_2.index t (0 : Fin 2) = t.val ∧ win1_2.index t (1 : Fin 2) = 0 :=
  (by decide +kernel : ∀ t : Fin grid1.N, _)
theorem block_index_3 : ∀ t : Fin cfg1.N, win1_3.index t (0 : Fin 2) = t.val ∧ win1_3.index t (1 : Fin 2) = 0 :=
  (by decide +kernel : ∀ t : Fin grid1.N, _)
theorem block_index_4 : ∀ t : Fin cfg1.N, win1_4.index t (0 : Fin 2) = t.val ∧ win1_4.index t (1 : Fin 2) = 0 :=
  (by decide +kernel : ∀ t : Fin grid1.N, _)
theorem block_index_5 : ∀ t : Fin cfg1.N, win1_5.index t (0 : Fin 2) = t.val ∧ win1_5.index t (1 : Fin 2) = 0 :=
  (by decide +kernel : ∀ t : Fin grid1.N, _)
theorem block_index_6 : ∀ t : Fin cfg1.N, win1_6.index t (0 : Fin 2) = t.val ∧ win1_6.index t (1 : Fin 2) = 0 :=
  (by decide +kernel : ∀ t : Fin grid1.N, _)
theorem block_index_15 : ∀ t : Fin cfg1.N, win1_15.index t (0 : Fin 2) = t.val ∧ win1_15.index t (1 : Fin 2) = 0 :=
  (by decide +kernel : ∀ t : Fin grid1.N, _)
theorem block_index_7 : ∀ t : Fin cfg1.N, win1_7.index t (0 : Fin 2) = 0 ∧ win1_7.index t (1 : Fin 2) = 0 :=
  (by decide +kernel : ∀ t : Fin grid1.N, _)
theorem block_index_8 : ∀ t : Fin cfg1.N, win1_8.index t (0 : Fin 2) = 0 ∧ win1_8.index t (1 : Fin 2) = 0 :=
  (by decide +kernel : ∀ t : Fin grid1.N, _)
theorem block_index_9 : ∀ t : Fin cfg1.N, win1_9.index t (0 : Fin 2) = 0 ∧ win1_9.index t (1 : Fin 2) = 0 :=
  (by decide +kernel : ∀ t : Fin grid1.N, _)
theorem block_index_10 : ∀ t : Fin cfg1.N, win1_10.index t (0 : Fin 2) = 0 ∧ win1_10.index t (1 : Fin 2) = 0 :=
  (by decide +kernel : ∀ t : Fin grid1.N, _)
theorem block_index_11 : ∀ t : Fin cfg1.N, win1_11.index t (0 : Fin 2) = 0 ∧ win1_11.index t (1 : Fin 2) = 0 :=
  (by decide +kernel : ∀ t : Fin grid1.N, _)
theorem block_index_12 : ∀ t : Fin cfg1.N, win1_12.index t (0 : Fin 2) = 0 ∧ win1_12.index t (1 : Fin 2) = 0 :=
  (by decide +kernel : ∀ t : Fin grid1.N, _)
theorem block_index_13 : ∀ t : Fin cfg1.N, win1_13.index t (0 : Fin 2) = 0 ∧ win1_13.index t (1 : Fin 2) = 0 :=
  (by decide +kernel : ∀ t : Fin grid1.N, _)
theorem block_index_14 : ∀ t : Fin cfg1.N, win1_14.index t (0 : Fin 2) = 0 ∧ win1_14.index t (1 : Fin 2) = 0 :=
  (by decide +kernel : ∀ t : Fin grid1.N, _)

/-! ## The input blocks, entry by entry -/

/-- Entry (p, d) of the block of the first branch array at point `t` is entry (2000·t + p, d) of the array. -/
theorem branch0_block_apply (c : Dev nD) (t : Fin cfg1.N) (p : Fin 2000) (d : Fin 64) (r : Fin 100000)
    (hr : r.val = 2000 * t.val + p.val) :
    (iblk1 V c 0 t : Vec Ideal S2000x64 .f32) (ix2 p d) = (V c main_v82 : S100000x64.Idx → EReal) (ix2 r d) := by
  obtain ⟨e0, e1⟩ := block_index_0 t
  unfold iblk1
  rw [View.read_apply]
  show V c main_v82 _ = V c main_v82 _
  congr 1
  funext a
  apply Fin.ext
  match a with
  | ⟨0, _⟩ => show win1_0.index t (0 : Fin 2) * 2000 + 1 * p.val = r.val; rw [e0, hr]; omega
  | ⟨1, _⟩ => show win1_0.index t (1 : Fin 2) * 64 + 1 * d.val = d.val; rw [e1]; omega

/-- Entry (p, d) of the block of the second branch array at point `t` is entry (2000·t + p, d) of the array. -/
theorem branch1_block_apply (c : Dev nD) (t : Fin cfg1.N) (p : Fin 2000) (d : Fin 64) (r : Fin 100000)
    (hr : r.val = 2000 * t.val + p.val) :
    (iblk1 V c 1 t : Vec Ideal S2000x64 .f32) (ix2 p d) = (V c main_v109 : S100000x64.Idx → EReal) (ix2 r d) := by
  obtain ⟨e0, e1⟩ := block_index_1 t
  unfold iblk1
  rw [View.read_apply]
  show V c main_v109 _ = V c main_v109 _
  congr 1
  funext a
  apply Fin.ext
  match a with
  | ⟨0, _⟩ => show win1_1.index t (0 : Fin 2) * 2000 + 1 * p.val = r.val; rw [e0, hr]; omega
  | ⟨1, _⟩ => show win1_1.index t (1 : Fin 2) * 64 + 1 * d.val = d.val; rw [e1]; omega

/-- Entry (p, d) of the block of the third branch array at point `t` is entry (2000·t + p, d) of the array. -/
theorem branch2_block_apply (c : Dev nD) (t : Fin cfg1.N) (p : Fin 2000) (d : Fin 64) (r : Fin 100000)
    (hr : r.val = 2000 * t.val + p.val) :
    (iblk1 V c 2 t : Vec Ideal S2000x64 .f32) (ix2 p d) = (V c main_v73 : S100000x64.Idx → EReal) (ix2 r d) := by
  obtain ⟨e0, e1⟩ := block_index_2 t
  unfold iblk1
  rw [View.read_apply]
  show V c main_v73 _ = V c main_v73 _
  congr 1
  funext a
  apply Fin.ext
  match a with
  | ⟨0, _⟩ => show win1_2.index t (0 : Fin 2) * 2000 + 1 * p.val = r.val; rw [e0, hr]; omega
  | ⟨1, _⟩ => show win1_2.index t (1 : Fin 2) * 64 + 1 * d.val = d.val; rw [e1]; omega

/-- Entry (p, d) of the block of the fourth branch array at point `t` is entry (2000·t + p, d) of the array. -/
theorem branch3_block_apply (c : Dev nD) (t : Fin cfg1.N) (p : Fin 2000) (d : Fin 64) (r : Fin 100000)
    (hr : r.val = 2000 * t.val + p.val) :
    (iblk1 V c 3 t : Vec Ideal S2000x64 .f32) (ix2 p d) = (V c main_v100 : S100000x64.Idx → EReal) (ix2 r d) := by
  obtain ⟨e0, e1⟩ := block_index_3 t
  unfold iblk1
  rw [View.read_apply]
  show V c main_v100 _ = V c main_v100 _
  congr 1
  funext a
  apply Fin.ext
  match a with
  | ⟨0, _⟩ => show win1_3.index t (0 : Fin 2) * 2000 + 1 * p.val = r.val; rw [e0, hr]; omega
  | ⟨1, _⟩ => show win1_3.index t (1 : Fin 2) * 64 + 1 * d.val = d.val; rw [e1]; omega

/-- Entry (p, d) of the block of the fifth branch array at point `t` is entry (2000·t + p, d) of the array. -/
theorem branch4_block_apply (c : Dev nD) (t : Fin cfg1.N) (p : Fin 2000) (d : Fin 64) (r : Fin 100000)
    (hr : r.val = 2000 * t.val + p.val) :
    (iblk1 V c 4 t : Vec Ideal S2000x64 .f32) (ix2 p d) = (V c main_v91 : S100000x64.Idx → EReal) (ix2 r d) := by
  obtain ⟨e0, e1⟩ := block_index_4 t
  unfold iblk1
  rw [View.read_apply]
  show V c main_v91 _ = V c main_v91 _
  congr 1
  funext a
  apply Fin.ext
  match a with
  | ⟨0, _⟩ => show win1_4.index t (0 : Fin 2) * 2000 + 1 * p.val = r.val; rw [e0, hr]; omega
  | ⟨1, _⟩ => show win1_4.index t (1 : Fin 2) * 64 + 1 * d.val = d.val; rw [e1]; omega

/-- Entry (p, d) of the block of the sixth branch array at point `t` is entry (2000·t + p, d) of the array. -/
theorem branch5_block_apply (c : Dev nD) (t : Fin cfg1.N) (p : Fin 2000) (d : Fin 64) (r : Fin 100000)
    (hr : r.val = 2000 * t.val + p.val) :
    (iblk1 V c 5 t : Vec Ideal S2000x64 .f32) (ix2 p d) = (V c main_v118 : S100000x64.Idx → EReal) (ix2 r d) := by
  obtain ⟨e0, e1⟩ := block_index_5 t
  unfold iblk1
  rw [View.read_apply]
  show V c main_v118 _ = V c main_v118 _
  congr 1
  funext a
  apply Fin.ext
  match a with
  | ⟨0, _⟩ => show win1_5.index t (0 : Fin 2) * 2000 + 1 * p.val = r.val; rw [e0, hr]; omega
  | ⟨1, _⟩ => show win1_5.index t (1 : Fin 2) * 64 + 1 * d.val = d.val; rw [e1]; omega

/-- Entry (p, d) of the block of the seventh branch array at point `t` is entry (2000·t + p, d) of the array. -/
theorem branch6_block_apply (c : Dev nD) (t : Fin cfg1.N) (p : Fin 2000) (d : Fin 64) (r : Fin 100000)
    (hr : r.val = 2000 * t.val + p.val) :
    (iblk1 V c 6 t : Vec Ideal S2000x64 .f32) (ix2 p d) = (V c main_v0_2 : S100000x64.Idx → EReal) (ix2 r d) := by
  obtain ⟨e0, e1⟩ := block_index_6 t
  unfold iblk1
  rw [View.read_apply]
  show V c main_v0_2 _ = V c main_v0_2 _
  congr 1
  funext a
  apply Fin.ext
  match a with
  | ⟨0, _⟩ => show win1_6.index t (0 : Fin 2) * 2000 + 1 * p.val = r.val; rw [e0, hr]; omega
  | ⟨1, _⟩ => show win1_6.index t (1 : Fin 2) * 64 + 1 * d.val = d.val; rw [e1]; omega

/-- The block of the first attention vector is the vector, at every point. -/
theorem vector7_block_apply (c : Dev nD) (t : Fin cfg1.N) (d : Fin 64) (e : Fin 1) :
    (iblk1 V c 7 t : Vec Ideal S64x1 .f32) (ix2 d e) = (V c main_arg6 : S64x1.Idx → EReal) (ix2 d e) := by
  obtain ⟨e0, e1⟩ := block_index_7 t
  unfold iblk1
  rw [View.read_apply]
  show V c main_arg6 _ = V c main_arg6 _
  congr 1
  funext a
  apply Fin.ext
  match a with
  | ⟨0, _⟩ => show win1_7.index t (0 : Fin 2) * 64 + 1 * d.val = d.val; rw [e0]; omega
  | ⟨1, _⟩ => show win1_7.index t (1 : Fin 2) * 1 + 1 * e.val = e.val; rw [e1]; omega

/-- The block of the second attention vector is the vector, at every point. -/
theorem vector8_block_apply (c : Dev nD) (t : Fin cfg1.N) (d : Fin 64) (e : Fin 1) :
    (iblk1 V c 8 t : Vec Ideal S64x1 .f32) (ix2 d e) = (V c main_arg7 : S64x1.Idx → EReal) (ix2 d e) := by
  obtain ⟨e0, e1⟩ := block_index_8 t
  unfold iblk1
  rw [View.read_apply]
  show V c main_arg7 _ = V c main_arg7 _
  congr 1
  funext a
  apply Fin.ext
  match a with
  | ⟨0, _⟩ => show win1_8.index t (0 : Fin 2) * 64 + 1 * d.val = d.val; rw [e0]; omega
  | ⟨1, _⟩ => show win1_8.index t (1 : Fin 2) * 1 + 1 * e.val = e.val; rw [e1]; omega

/-- The block of the third attention vector is the vector, at every point. -/
theorem vector9_block_apply (c : Dev nD) (t : Fin cfg1.N) (d : Fin 64) (e : Fin 1) :
    (iblk1 V c 9 t : Vec Ideal S64x1 .f32) (ix2 d e) = (V c main_arg8 : S64x1.Idx → EReal) (ix2 d e) := by
  obtain ⟨e0, e1⟩ := block_index_9 t
  unfold iblk1
  rw [View.read_apply]
  show V c main_arg8 _ = V c main_arg8 _
  congr 1
  funext a
  apply Fin.ext
  match a with
  | ⟨0, _⟩ => show win1_9.index t (0 : Fin 2) * 64 + 1 * d.val = d.val; rw [e0]; omega
  | ⟨1, _⟩ => show win1_9.index t (1 : Fin 2) * 1 + 1 * e.val = e.val; rw [e1]; omega

/-- The block of the fourth attention vector is the vector, at every point. -/
theorem vector10_block_apply (c : Dev nD) (t : Fin cfg1.N) (d : Fin 64) (e : Fin 1) :
    (iblk1 V c 10 t : Vec Ideal S64x1 .f32) (ix2 d e) = (V c main_arg9 : S64x1.Idx → EReal) (ix2 d e) := by
  obtain ⟨e0, e1⟩ := block_index_10 t
  unfold iblk1
  rw [View.read_apply]
  show V c main_arg9 _ = V c main_arg9 _
  congr 1
  funext a
  apply Fin.ext
  match a with
  | ⟨0, _⟩ => show win1_10.index t (0 : Fin 2) * 64 + 1 * d.val = d.val; rw [e0]; omega
  | ⟨1, _⟩ => show win1_10.index t (1 : Fin 2) * 1 + 1 * e.val = e.val; rw [e1]; omega

/-- The block of the fifth attention vector is the vector, at every point. -/
theorem vector11_block_apply (c : Dev nD) (t : Fin cfg1.N) (d : Fin 64) (e : Fin 1) :
    (iblk1 V c 11 t : Vec Ideal S64x1 .f32) (ix2 d e) = (V c main_arg10 : S64x1.Idx → EReal) (ix2 d e) := by
  obtain ⟨e0, e1⟩ := block_index_11 t
  unfold iblk1
  rw [View.read_apply]
  show V c main_arg10 _ = V c main_arg10 _
  congr 1
  funext a
  apply Fin.ext
  match a with
  | ⟨0, _⟩ => show win1_11.index t (0 : Fin 2) * 64 + 1 * d.val = d.val; rw [e0]; omega
  | ⟨1, _⟩ => show win1_11.index t (1 : Fin 2) * 1 + 1 * e.val = e.val; rw [e1]; omega

/-- The block of the sixth attention vector is the vector, at every point. -/
theorem vector12_block_apply (c : Dev nD) (t : Fin cfg1.N) (d : Fin 64) (e : Fin 1) :
    (iblk1 V c 12 t : Vec Ideal S64x1 .f32) (ix2 d e) = (V c main_arg11 : S64x1.Idx → EReal) (ix2 d e) := by
  obtain ⟨e0, e1⟩ := block_index_12 t
  unfold iblk1
  rw [View.read_apply]
  show V c main_arg11 _ = V c main_arg11 _
  congr 1
  funext a
  apply Fin.ext
  match a with
  | ⟨0, _⟩ => show win1_12.index t (0 : Fin 2) * 64 + 1 * d.val = d.val; rw [e0]; omega
  | ⟨1, _⟩ => show win1_12.index t (1 : Fin 2) * 1 + 1 * e.val = e.val; rw [e1]; omega

/-- The block of the seventh attention vector is the vector, at every point. -/
theorem vector13_block_apply (c : Dev nD) (t : Fin cfg1.N) (d : Fin 64) (e : Fin 1) :
    (iblk1 V c 13 t : Vec Ideal S64x1 .f32) (ix2 d e) = (V c main_arg12 : S64x1.Idx → EReal) (ix2 d e) := by
  obtain ⟨e0, e1⟩ := block_index_13 t
  unfold iblk1
  rw [View.read_apply]
  show V c main_arg12 _ = V c main_arg12 _
  congr 1
  funext a
  apply Fin.ext
  match a with
  | ⟨0, _⟩ => show win1_13.index t (0 : Fin 2) * 64 + 1 * d.val = d.val; rw [e0]; omega
  | ⟨1, _⟩ => show win1_13.index t (1 : Fin 2) * 1 + 1 * e.val = e.val; rw [e1]; omega

/-- The block of the 7×7 matrix is the matrix, at every point. -/
theorem matrix_block_apply (c : Dev nD) (t : Fin cfg1.N) (q k : Fin 7) :
    (iblk1 V c 14 t : Vec Ideal S7x7 .f32) (ix2 q k) = (V c main_arg13 : S7x7.Idx → EReal) (ix2 q k) := by
  obtain ⟨e0, e1⟩ := block_index_14 t
  unfold iblk1
  rw [View.read_apply]
  show V c main_arg13 _ = V c main_arg13 _
  congr 1
  funext a
  apply Fin.ext
  match a with
  | ⟨0, _⟩ => show win1_14.index t (0 : Fin 2) * 7 + 1 * q.val = q.val; rw [e0]; omega
  | ⟨1, _⟩ => show win1_14.index t (1 : Fin 2) * 7 + 1 * k.val = k.val; rw [e1]; omega

/-! ## The specification at an index given by its coordinates -/

/-- The attention mix at the index with row `r` and column `j`. -/
theorem mixArr_at (n0 n1 n2 n3 n4 n5 n6 : Big.Idx → EReal) (a0 a1 a2 a3 a4 a5 a6 : Col.Idx → EReal) (A : M7.Idx → EReal)
    (i : Big.Idx) (r : Fin 100000) (j : Fin 64) (h0 : (i 0).val = r.val) (h1 : (i 1).val = j.val) :
    mixArr n0 n1 n2 n3 n4 n5 n6 a0 a1 a2 a3 a4 a5 a6 A i
      = mixRow (fun q d => (![n0, n1, n2, n3, n4, n5, n6] q) (ix2 r d))
          (fun q d => (![a0, a1, a2, a3, a4, a5, a6] q) (ix2 d (0 : Fin 1))) (fun q k => A (ix2 q k)) j := by
  obtain rfl : i = ix2 r j := funext fun a => Fin.ext (by
    match a with
    | ⟨0, _⟩ => exact h0
    | ⟨1, _⟩ => exact h1)
  rfl

/-! ## What each point writes back -/

/-- The row of the arrays that entry `p` of point `t`'s block is. -/
def rowOf (t : Fin cfg1.N) (p : Fin 2000) : Fin 100000 :=
  ⟨2000 * t.val + p.val, by
    have ht : t.val < cfg1.N := t.isLt
    have hN : cfg1.N = 50 := N_1
    have hp : p.val < 2000 := p.isLt
    omega⟩

/-- Point `t` writes back its block of the attention mix of the whole arrays. -/
theorem flushed15_eq (c : Dev nD) (t : Fin cfg1.N) :
    (dat1 V c).flushed 15 t
      = ((cfg1.win 15).blk t).view.read (Elt Ideal)
          (mixArr (V c main_v82) (V c main_v109) (V c main_v73) (V c main_v100) (V c main_v91) (V c main_v118) (V c main_v0_2) (V c main_arg6) (V c main_arg7) (V c main_arg8) (V c main_arg9) (V c main_arg10) (V c main_arg11) (V c main_arg12) (V c main_arg13)) := by
  show (cfg1.win 15).cut (grid1.coords t) ((dat1 V c).after 15 t) = _
  rw [after1_15]
  obtain ⟨e0, e1⟩ := block_index_15 t
  funext y
  obtain ⟨p, j, rfl⟩ : ∃ (p : Fin 2000) (j : Fin 64), y = ix2 p j := ⟨y 0, y 1, eq_ix2 y⟩
  rw [View.read_apply]
  show out1_15 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (ix2 p j) = _
  refine (out_apply (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) p j).trans ?_
  refine Eq.trans ?_ (mixArr_at (V c main_v82) (V c main_v109) (V c main_v73) (V c main_v100) (V c main_v91) (V c main_v118) (V c main_v0_2) (V c main_arg6) (V c main_arg7) (V c main_arg8) (V c main_arg9) (V c main_arg10) (V c main_arg11) (V c main_arg12) (V c main_arg13) _ (rowOf t p) j ?_ ?_).symm
  · congr 1
    · funext q d
      match q with
      | ⟨0, _⟩ => exact branch0_block_apply V c t p d (rowOf t p) rfl
      | ⟨1, _⟩ => exact branch1_block_apply V c t p d (rowOf t p) rfl
      | ⟨2, _⟩ => exact branch2_block_apply V c t p d (rowOf t p) rfl
      | ⟨3, _⟩ => exact branch3_block_apply V c t p d (rowOf t p) rfl
      | ⟨4, _⟩ => exact branch4_block_apply V c t p d (rowOf t p) rfl
      | ⟨5, _⟩ => exact branch5_block_apply V c t p d (rowOf t p) rfl
      | ⟨6, _⟩ => exact branch6_block_apply V c t p d (rowOf t p) rfl
    · funext q d
      match q with
      | ⟨0, _⟩ => exact vector7_block_apply V c t d 0
      | ⟨1, _⟩ => exact vector8_block_apply V c t d 0
      | ⟨2, _⟩ => exact vector9_block_apply V c t d 0
      | ⟨3, _⟩ => exact vector10_block_apply V c t d 0
      | ⟨4, _⟩ => exact vector11_block_apply V c t d 0
      | ⟨5, _⟩ => exact vector12_block_apply V c t d 0
      | ⟨6, _⟩ => exact vector13_block_apply V c t d 0
    · funext q k; exact matrix_block_apply V c t q k
  · show win1_15.index t (0 : Fin 2) * 2000 + 1 * p.val = 2000 * t.val + p.val; rw [e0]; omega
  · show win1_15.index t (1 : Fin 2) * 64 + 1 * j.val = j.val; rw [e1]; omega

/-! ## Every row is covered -/

/-- An index of the result is in point `t`'s block iff each coordinate is in the block's range on its axis. -/
theorem mem_blk15 (t : Fin cfg1.N) (i : S100000x64.Idx) :
    i ∈ ((cfg1.win 15).blk t).view.set ↔ ∀ a : Fin 2, win1_15.index t a * S2000x64.size a ≤ (i a).val
      ∧ (i a).val < win1_15.index t a * S2000x64.size a + S2000x64.size a := by
  show i ∈ ((View.whole main_v119).slice (win1_15.rect t)).set ↔ _
  rw [View.set_slice_whole, Rect.mem_set_unit]
  exact Iff.rfl

/-- Every index of the result is in the block of the point its row falls in. -/
theorem cover15 (i : S100000x64.Idx) :
    ∃ t : Fin cfg1.N, (cfg1.win 15).flush t = true ∧ i ∈ ((cfg1.win 15).blk t).view.set := by
  have hi0 : (i 0).val < 100000 := (i 0).isLt
  have hi1 : (i 1).val < 64 := (i 1).isLt
  have hN : cfg1.N = 50 := N_1
  refine ⟨⟨(i 0).val / 2000, by omega⟩, flush1_15 _, ?_⟩
  rw [mem_blk15]
  obtain ⟨e0, e1⟩ := block_index_15 ⟨(i 0).val / 2000, by omega⟩
  intro a
  match a with
  | ⟨0, _⟩ =>
    show win1_15.index _ (0 : Fin 2) * 2000 ≤ (i 0).val ∧ (i 0).val < win1_15.index _ (0 : Fin 2) * 2000 + 2000
    rw [e0]; show (i 0).val / 2000 * 2000 ≤ (i 0).val ∧ (i 0).val < (i 0).val / 2000 * 2000 + 2000; omega
  | ⟨1, _⟩ =>
    show win1_15.index _ (1 : Fin 2) * 64 ≤ (i 1).val ∧ (i 1).val < win1_15.index _ (1 : Fin 2) * 64 + 64
    rw [e1]; omega

/-! ## The result array after the region -/

/-- The result is the attention mix of the seven branch arrays as the region finds them. -/
theorem mix_arr15 (c : Dev nD) :
    (dat1 (F := Ideal) V c).arrAt 15 cfg1.N
      = Cert.MixSpec.mixArr (V c main_v82) (V c main_v109) (V c main_v73) (V c main_v100) (V c main_v91) (V c main_v118) (V c main_v0_2) (V c main_arg6) (V c main_arg7) (V c main_arg8) (V c main_arg9) (V c main_arg10) (V c main_arg11) (V c main_arg12) (V c main_arg13) :=
  (dat1 V c).arrAt_eq_of_cover 15 _ (fun t _ => flushed15_eq V c t) cover15

end Cert.KernelIdeal.MixValue

end
-- ==== Proof.MixRef1.lean ====
/-
  The attention mix, one row at a time: the pieces that do not depend on the program.

  Row `r` of the mix is a function of row `r` of the seven branch arrays, of the seven attention vectors and of the
  7×7 matrix.  This module names those three selections (`rows`, `vecs`, `mat`), says that the array form of the
  specification at `(r, j)` is the row form of the selections, and reads two array operations at an index:
    * seven columns [100000, 1] laid side by side into [100000, 7]: entry `(r, k)` is column `k` at `(r, 0)`;
    * the maximum along the second axis of a [100000, 7] array, taken from an initial value: at `r` it is the fold of
      `max` over the seven entries of row `r`.
-/
import proofs.«148375_j2465311228029_2_alg».proof.Proof.MixSpec
import Idealize.ShloMosaic.Lib.ValueIdx
import Idealize.ShloMosaic.Lib.Pipeline.Value
import Idealize.ShloMosaic.PureOps.Ideal.Laws
import Idealize.ShloMosaic.PureOps.Reduce

noncomputable section

namespace Cert.ReferenceIdeal.MixRef

open Idealize.ShloMosaic Idealize.ShloMosaic.ValueIdx

/-- A table of seven numbers per node, one column of it, one number per node, and a single number. -/
abbrev Wide : Shape := ⟨2, ![100000, 7]⟩
abbrev Thin : Shape := ⟨2, ![100000, 1]⟩
abbrev Line : Shape := ⟨1, ![100000]⟩
abbrev Unit0 : Shape := ⟨0, ![]⟩

/-! ## The three selections -/

/-- Row `r` of each of the seven branch arrays. -/
def rows (n0 n1 n2 n3 n4 n5 n6 : MixSpec.Big.Idx → EReal) (r : Fin 100000) : Fin 7 → Fin 64 → EReal :=
  fun q d => (![n0, n1, n2, n3, n4, n5, n6] q) (ix2 (n0 := 100000) r d)

/-- The seven attention vectors, as functions of the feature. -/
def vecs (a0 a1 a2 a3 a4 a5 a6 : MixSpec.Col.Idx → EReal) : Fin 7 → Fin 64 → EReal :=
  fun q d => (![a0, a1, a2, a3, a4, a5, a6] q) (ix2 d (0 : Fin 1))

/-- The 7×7 matrix, as a function of its two coordinates. -/
def mat (A : MixSpec.M7.Idx → EReal) : Fin 7 → Fin 7 → EReal := fun q k => A (ix2 q k)

section
variable (n0 n1 n2 n3 n4 n5 n6 : MixSpec.Big.Idx → EReal) (a0 a1 a2 a3 a4 a5 a6 : MixSpec.Col.Idx → EReal)
  (A : MixSpec.M7.Idx → EReal) (r : Fin 100000)

/-- The array form of the specification at `(r, j)` is the row form at the selections of row `r`. -/
theorem mixArr_ix2 (j : Fin 64) :
    MixSpec.mixArr n0 n1 n2 n3 n4 n5 n6 a0 a1 a2 a3 a4 a5 a6 A (ix2 r j)
      = MixSpec.mixRow (rows n0 n1 n2 n3 n4 n5 n6 r) (vecs a0 a1 a2 a3 a4 a5 a6) (mat A) j := rfl

theorem rows_0 (d : Fin 64) : rows n0 n1 n2 n3 n4 n5 n6 r 0 d = n0 (ix2 r d) := rfl
theorem rows_1 (d : Fin 64) : rows n0 n1 n2 n3 n4 n5 n6 r 1 d = n1 (ix2 r d) := rfl
theorem rows_2 (d : Fin 64) : rows n0 n1 n2 n3 n4 n5 n6 r 2 d = n2 (ix2 r d) := rfl
theorem rows_3 (d : Fin 64) : rows n0 n1 n2 n3 n4 n5 n6 r 3 d = n3 (ix2 r d) := rfl
theorem rows_4 (d : Fin 64) : rows n0 n1 n2 n3 n4 n5 n6 r 4 d = n4 (ix2 r d) := rfl
theorem rows_5 (d : Fin 64) : rows n0 n1 n2 n3 n4 n5 n6 r 5 d = n5 (ix2 r d) := rfl
theorem rows_6 (d : Fin 64) : rows n0 n1 n2 n3 n4 n5 n6 r 6 d = n6 (ix2 r d) := rfl

end

/-! ## Seven columns side by side -/

/-- Of any columns laid side by side into a [100000, 7] table, the one that starts at position `K` and is one wide
    gives the table's entry `(r, K)`, at its own `(r, 0)`. -/
theorem sideBySide_piece (xs : List ((s : Shape) × (s.Idx → EReal))) (h : Shape.Concatenates (xs.map (·.1)) Wide 1)
    (r : Fin 100000) (K : Nat) (hK : K < 7) (hlen : K < xs.length) (c : Thin.Idx → EReal) (hx : xs[K] = ⟨Thin, c⟩)
    (hpre : (((xs.take K).map (·.1)).map fun s =>
      if h : s.rank = Wide.rank then s.size ((1 : Fin Wide.rank).cast h.symm) else 0).sum = K) :
    concatenate Wide 1 xs h (ix2 r (⟨K, hK⟩ : Fin 7)) = c (ix2 r (0 : Fin 1)) :=
  concatenate_apply_piece (1 : Fin Wide.rank) xs h (ix2 r (⟨K, hK⟩ : Fin 7)) K hlen Thin c hx rfl K hpre
    (ix2 r (0 : Fin 1))
    (fun b hb => by
      match b with
      | ⟨0, _⟩ => rfl
      | ⟨1, _⟩ => exact absurd rfl hb)
    (Nat.add_zero K)

/-- Seven columns side by side: entry `(r, k)` of the table is column `k` at `(r, 0)`. -/
theorem sideBySide_apply (c0 c1 c2 c3 c4 c5 c6 : Thin.Idx → EReal)
    (h : Shape.Concatenates [Thin, Thin, Thin, Thin, Thin, Thin, Thin] Wide 1) (r : Fin 100000) (k : Fin 7) :
    concatenate Wide 1 [⟨Thin, c0⟩, ⟨Thin, c1⟩, ⟨Thin, c2⟩, ⟨Thin, c3⟩, ⟨Thin, c4⟩, ⟨Thin, c5⟩, ⟨Thin, c6⟩] h (ix2 r k)
      = (![c0, c1, c2, c3, c4, c5, c6] k) (ix2 r (0 : Fin 1)) := by
  have key := fun (K : Nat) (hK : K < 7) (hlen : K < 7) (c : Thin.Idx → EReal) =>
    sideBySide_piece [⟨Thin, c0⟩, ⟨Thin, c1⟩, ⟨Thin, c2⟩, ⟨Thin, c3⟩, ⟨Thin, c4⟩, ⟨Thin, c5⟩, ⟨Thin, c6⟩] h r K hK hlen c
  match k with
  | ⟨0, _⟩ => exact key 0 (by decide) (by decide) c0 rfl rfl
  | ⟨1, _⟩ => exact key 1 (by decide) (by decide) c1 rfl rfl
  | ⟨2, _⟩ => exact key 2 (by decide) (by decide) c2 rfl rfl
  | ⟨3, _⟩ => exact key 3 (by decide) (by decide) c3 rfl rfl
  | ⟨4, _⟩ => exact key 4 (by decide) (by decide) c4 rfl rfl
  | ⟨5, _⟩ => exact key 5 (by decide) (by decide) c5 rfl rfl
  | ⟨6, _⟩ => exact key 6 (by decide) (by decide) c6 rfl rfl

/-- If each of seven columns, at `(r, 0)`, is the inner product of row `r` of its branch with its attention vector, then
    column `k` at `(r, 0)` is the inner product of selection `k` of the rows with selection `k` of the vectors. -/
theorem cols_dot (n0 n1 n2 n3 n4 n5 n6 : MixSpec.Big.Idx → EReal) (a0 a1 a2 a3 a4 a5 a6 : MixSpec.Col.Idx → EReal)
    (c0 c1 c2 c3 c4 c5 c6 : Thin.Idx → EReal) (r : Fin 100000)
    (h0 : c0 (ix2 r (0 : Fin 1)) = MixSpec.dot64 (fun d => n0 (ix2 r d)) (fun d => a0 (ix2 d (0 : Fin 1))))
    (h1 : c1 (ix2 r (0 : Fin 1)) = MixSpec.dot64 (fun d => n1 (ix2 r d)) (fun d => a1 (ix2 d (0 : Fin 1))))
    (h2 : c2 (ix2 r (0 : Fin 1)) = MixSpec.dot64 (fun d => n2 (ix2 r d)) (fun d => a2 (ix2 d (0 : Fin 1))))
    (h3 : c3 (ix2 r (0 : Fin 1)) = MixSpec.dot64 (fun d => n3 (ix2 r d)) (fun d => a3 (ix2 d (0 : Fin 1))))
    (h4 : c4 (ix2 r (0 : Fin 1)) = MixSpec.dot64 (fun d => n4 (ix2 r d)) (fun d => a4 (ix2 d (0 : Fin 1))))
    (h5 : c5 (ix2 r (0 : Fin 1)) = MixSpec.dot64 (fun d => n5 (ix2 r d)) (fun d => a5 (ix2 d (0 : Fin 1))))
    (h6 : c6 (ix2 r (0 : Fin 1)) = MixSpec.dot64 (fun d => n6 (ix2 r d)) (fun d => a6 (ix2 d (0 : Fin 1))))
    (k : Fin 7) :
    (![c0, c1, c2, c3, c4, c5, c6] k) (ix2 r (0 : Fin 1))
      = MixSpec.dot64 (rows n0 n1 n2 n3 n4 n5 n6 r k) (vecs a0 a1 a2 a3 a4 a5 a6 k) := by
  match k with
  | ⟨0, _⟩ => exact h0
  | ⟨1, _⟩ => exact h1
  | ⟨2, _⟩ => exact h2
  | ⟨3, _⟩ => exact h3
  | ⟨4, _⟩ => exact h4
  | ⟨5, _⟩ => exact h5
  | ⟨6, _⟩ => exact h6

/-! ## The maximum along a row -/

/-- The maximum of a [100000, 7] table along its second axis, taken from an initial value: at node `r` it is the
    fold of `max` over the seven entries of row `r`. -/
theorem rowMax_apply (y : Wide.Idx → EReal) (init : Unit0.Idx → EReal) (h' : Wide.ReducesTo [1] Line)
    (hu : 0 < Unit0.numel) (r : Fin 100000) :
    Host.reduce (FloatOps.maximumf (F := Ideal) (φ := .f32)) y init h' hu (ix1 r)
      = (Finset.univ : Finset (Fin 7)).fold max (init (Shape.Idx.first hu)) (fun k => y (ix2 r k)) := by
  have h : Wide.Reduces [1] Line := by decide
  rw [Host.reduce_eq_fold_single (FloatOps.maximumf (F := Ideal) (φ := .f32)) y init h' h hu]
  have hf : (y ∘ h.lift (ix1 r)) = fun k : Fin 7 => y (ix2 r k) := funext fun k => congrArg y (by
    funext c; apply Fin.ext
    match c with
    | ⟨0, _⟩ => rfl
    | ⟨1, _⟩ => rfl)
  exact congrArg (fun f => Finset.fold max (init (Shape.Idx.first hu)) f (Finset.univ : Finset (Fin 7))) hf

end Cert.ReferenceIdeal.MixRef

end
-- ==== Proof.MixRef.lean ====
/-
  The reference's attention mix, read at an index.

  After the seven branch arrays are built, the reference computes, for every node `r`:
    the seven row sums  s q = ∑ d, (branch q) (r, d) · (vector q) (d, 0),  laid side by side into a [100000, 7] table;
    the gates  1 / (1 + exp (-s q))  (the logistic, spelt out);
    the logits  (∑ q, gate q · A (q, k)) / 7;
    their softmax along k (shifted by the row maximum, which is taken from -∞ and once more against -∞);
    and the result  7 · (att 0 · branch 0 + att 1 · branch 1 + … + att 6 · branch 6)  at (r, j), summed left to right.
  Each step below reads one of these stages at explicit coordinates and identifies it with the specification's
  row function of the same name; the last theorem says that the whole tail is the specification's array function of
  the seven branch arrays.  The branch arrays themselves are never opened: they only occur as functions read at an index.
-/
import proofs.«148375_j2465311228029_2_alg».proof.Proof.RefRead
import proofs.«148375_j2465311228029_2_alg».proof.Proof.MixSpec
import proofs.«148375_j2465311228029_2_alg».proof.Proof.MixRef1
import Idealize.ShloMosaic.Lib.ValueIdx
import Idealize.ShloMosaic.Lib.Pipeline.Value
import Idealize.ShloMosaic.PureOps.Ideal.Laws
import Idealize.ShloMosaic.Lib.IdealHost

noncomputable section

namespace Cert.ReferenceIdeal.MixRef

open Cert.ReferenceIdeal Cert.ReferenceIdeal.Gen Idealize.ShloMosaic Idealize.ShloMosaic.ValueIdx

/-- Two indices of a rank-2 shape (rank-1 shape) with the same coordinates are equal. -/
local macro "coords2" : term =>
  `(funext fun a => Fin.ext (by match a with | ⟨0, _⟩ => rfl | ⟨1, _⟩ => rfl))
local macro "coords1" : term =>
  `(funext fun a => Fin.ext (by match a with | ⟨0, _⟩ => rfl))

section
variable (x0 : (⟨S100000x64, .f32⟩ : BufTy).Contents (Elt Ideal)) (x1 x2 : (⟨S1600000, .f32⟩ : BufTy).Contents (Elt Ideal))
  (x3 x4 x5 : (⟨S64x64, .f32⟩ : BufTy).Contents (Elt Ideal))
  (x6 x7 x8 x9 x10 x11 x12 : (⟨S64x1, .f32⟩ : BufTy).Contents (Elt Ideal))
  (x13 : (⟨S7x7, .f32⟩ : BufTy).Contents (Elt Ideal)) (x14 x15 : (⟨S1600000, .i32⟩ : BufTy).Contents (Elt Ideal))
  (x16 : (⟨S100000, .i32⟩ : BufTy).Contents (Elt Ideal))

/- The seven branch arrays, in the order in which the mix takes them, and the three selections of a row. -/
local notation "Br0" => ReadP.val_main_v85 (F := Ideal) x0 x1 x3 x14 x15 x16
local notation "Br1" => ReadP.val_main_v112 (F := Ideal) x0 x2 x4 x14 x15 x16
local notation "Br2" => ReadP.val_main_v76 (F := Ideal) x0 x1 x3 x14 x15 x16
local notation "Br3" => ReadP.val_main_v103 (F := Ideal) x0 x2 x4 x14 x15 x16
local notation "Br4" => ReadP.val_main_v94 (F := Ideal) x0 x1 x3 x14 x15 x16
local notation "Br5" => ReadP.val_main_v121 (F := Ideal) x0 x2 x4 x14 x15 x16
local notation "Br6" => ReadP.val_main_v31 (F := Ideal) x0 x5
local notation "RowsAt" => rows Br0 Br1 Br2 Br3 Br4 Br5 Br6
local notation "Vecs7" => vecs x6 x7 x8 x9 x10 x11 x12
local notation "Mat7" => mat x13

/-! ## The seven row sums and the table of them -/

/-- The row sum of branch 0: row `r` of the branch against its attention vector. -/
theorem rowSum0 (r : Fin 100000) :
    ReadP.val_main_v122 (F := Ideal) x0 x1 x3 x6 x14 x15 x16 (ix2 r (0 : Fin 1))
      = MixSpec.dot64 (fun d => Br0 (ix2 r d)) (fun d => x6 (ix2 d (0 : Fin 1))) := by
  rw [ReadP.val_main_v122_apply]
  unfold MixSpec.dot64
  refine Finset.sum_congr rfl fun d _ => ?_
  rw [show ReadP.lidx_main_v122 (ix2 r (0 : Fin 1)) d = ix2 r d from coords2,
    show ReadP.ridx_main_v122 (ix2 r (0 : Fin 1)) d = ix2 d (0 : Fin 1) from coords2]

/-- The row sum of branch 1: row `r` of the branch against its attention vector. -/
theorem rowSum1 (r : Fin 100000) :
    ReadP.val_main_v123 (F := Ideal) x0 x2 x4 x7 x14 x15 x16 (ix2 r (0 : Fin 1))
      = MixSpec.dot64 (fun d => Br1 (ix2 r d)) (fun d => x7 (ix2 d (0 : Fin 1))) := by
  rw [ReadP.val_main_v123_apply]
  unfold MixSpec.dot64
  refine Finset.sum_congr rfl fun d _ => ?_
  rw [show ReadP.lidx_main_v123 (ix2 r (0 : Fin 1)) d = ix2 r d from coords2,
    show ReadP.ridx_main_v123 (ix2 r (0 : Fin 1)) d = ix2 d (0 : Fin 1) from coords2]

/-- The row sum of branch 2: row `r` of the branch against its attention vector. -/
theorem rowSum2 (r : Fin 100000) :
    ReadP.val_main_v124 (F := Ideal) x0 x1 x3 x8 x14 x15 x16 (ix2 r (0 : Fin 1))
      = MixSpec.dot64 (fun d => Br2 (ix2 r d)) (fun d => x8 (ix2 d (0 : Fin 1))) := by
  rw [ReadP.val_main_v124_apply]
  unfold MixSpec.dot64
  refine Finset.sum_congr rfl fun d _ => ?_
  rw [show ReadP.lidx_main_v124 (ix2 r (0 : Fin 1)) d = ix2 r d from coords2,
    show ReadP.ridx_main_v124 (ix2 r (0 : Fin 1)) d = ix2 d (0 : Fin 1) from coords2]

/-- The row sum of branch 3: row `r` of the branch against its attention vector. -/
theorem rowSum3 (r : Fin 100000) :
    ReadP.val_main_v125 (F := Ideal) x0 x2 x4 x9 x14 x15 x16 (ix2 r (0 : Fin 1))
      = MixSpec.dot64 (fun d => Br3 (ix2 r d)) (fun d => x9 (ix2 d (0 : Fin 1))) := by
  rw [ReadP.val_main_v125_apply]
  unfold MixSpec.dot64
  refine Finset.sum_congr rfl fun d _ => ?_
  rw [show ReadP.lidx_main_v125 (ix2 r (0 : Fin 1)) d = ix2 r d from coords2,
    show ReadP.ridx_main_v125 (ix2 r (0 : Fin 1)) d = ix2 d (0 : Fin 1) from coords2]

/-- The row sum of branch 4: row `r` of the branch against its attention vector. -/
theorem rowSum4 (r : Fin 100000) :
    ReadP.val_main_v126 (F := Ideal) x0 x1 x3 x10 x14 x15 x16 (ix2 r (0 : Fin 1))
      = MixSpec.dot64 (fun d => Br4 (ix2 r d)) (fun d => x10 (ix2 d (0 : Fin 1))) := by
  rw [ReadP.val_main_v126_apply]
  unfold MixSpec.dot64
  refine Finset.sum_congr rfl fun d _ => ?_
  rw [show ReadP.lidx_main_v126 (ix2 r (0 : Fin 1)) d = ix2 r d from coords2,
    show ReadP.ridx_main_v126 (ix2 r (0 : Fin 1)) d = ix2 d (0 : Fin 1) from coords2]

/-- The row sum of branch 5: row `r` of the branch against its attention vector. -/
theorem rowSum5 (r : Fin 100000) :
    ReadP.val_main_v127 (F := Ideal) x0 x2 x4 x11 x14 x15 x16 (ix2 r (0 : Fin 1))
      = MixSpec.dot64 (fun d => Br5 (ix2 r d)) (fun d => x11 (ix2 d (0 : Fin 1))) := by
  rw [ReadP.val_main_v127_apply]
  unfold MixSpec.dot64
  refine Finset.sum_congr rfl fun d _ => ?_
  rw [show ReadP.lidx_main_v127 (ix2 r (0 : Fin 1)) d = ix2 r d from coords2,
    show ReadP.ridx_main_v127 (ix2 r (0 : Fin 1)) d = ix2 d (0 : Fin 1) from coords2]

/-- The row sum of branch 6: row `r` of the branch against its attention vector. -/
theorem rowSum6 (r : Fin 100000) :
    ReadP.val_main_v128 (F := Ideal) x0 x5 x12 (ix2 r (0 : Fin 1))
      = MixSpec.dot64 (fun d => Br6 (ix2 r d)) (fun d => x12 (ix2 d (0 : Fin 1))) := by
  rw [ReadP.val_main_v128_apply]
  unfold MixSpec.dot64
  refine Finset.sum_congr rfl fun d _ => ?_
  rw [show ReadP.lidx_main_v128 (ix2 r (0 : Fin 1)) d = ix2 r d from coords2,
    show ReadP.ridx_main_v128 (ix2 r (0 : Fin 1)) d = ix2 d (0 : Fin 1) from coords2]

/-- The table of the row sums: entry `(r, k)` is the inner product of selection `k` of row `r` with vector `k`. -/
theorem sums_apply (r : Fin 100000) (k : Fin 7) :
    ReadP.val_main_v129 (F := Ideal) x0 x1 x2 x3 x4 x5 x6 x7 x8 x9 x10 x11 x12 x14 x15 x16 (ix2 r k) = MixSpec.dot64 (RowsAt r k) (Vecs7 k) := by
  unfold ReadP.val_main_v129
  refine (sideBySide_apply _ _ _ _ _ _ _ _ r k).trans ?_
  exact cols_dot Br0 Br1 Br2 Br3 Br4 Br5 Br6 x6 x7 x8 x9 x10 x11 x12
    (ReadP.val_main_v122 (F := Ideal) x0 x1 x3 x6 x14 x15 x16) (ReadP.val_main_v123 (F := Ideal) x0 x2 x4 x7 x14 x15 x16)
    (ReadP.val_main_v124 (F := Ideal) x0 x1 x3 x8 x14 x15 x16) (ReadP.val_main_v125 (F := Ideal) x0 x2 x4 x9 x14 x15 x16)
    (ReadP.val_main_v126 (F := Ideal) x0 x1 x3 x10 x14 x15 x16) (ReadP.val_main_v127 (F := Ideal) x0 x2 x4 x11 x14 x15 x16)
    (ReadP.val_main_v128 (F := Ideal) x0 x5 x12) r
    (rowSum0 x0 x1 x3 x6 x14 x15 x16 r) (rowSum1 x0 x2 x4 x7 x14 x15 x16 r) (rowSum2 x0 x1 x3 x8 x14 x15 x16 r)
    (rowSum3 x0 x2 x4 x9 x14 x15 x16 r) (rowSum4 x0 x1 x3 x10 x14 x15 x16 r) (rowSum5 x0 x2 x4 x11 x14 x15 x16 r)
    (rowSum6 x0 x5 x12 r) k

/-! ## Gates and logits -/

/-- The gates: `1 / (1 + exp (-s))` is the logistic of the row sum (the word of 1.0 is the number one). -/
theorem gates_apply (r : Fin 100000) (k : Fin 7) :
    ReadP.val_main_v135 (F := Ideal) x0 x1 x2 x3 x4 x5 x6 x7 x8 x9 x10 x11 x12 x14 x15 x16 (ix2 r k) = MixSpec.gate (RowsAt r) Vecs7 k := by
  rw [ReadP.val_main_v135_apply, ReadP.val_main_v134_apply, ReadP.val_main_cst_30_apply, ReadP.val_main_v133_apply,
    ReadP.val_main_v132_apply, ReadP.val_main_cst_29_apply, ReadP.val_main_v131_apply, ReadP.val_main_v130_apply,
    sums_apply]
  generalize rows Br0 Br1 Br2 Br3 Br4 Br5 Br6 r = N
  simp only [Ideal.ofBits_def, Ideal.ofBits_one_f32]
  rfl

/-- The logits: the gates against column `k` of the 7×7 matrix, over the word of 7.0. -/
theorem logits_apply (r : Fin 100000) (k : Fin 7) :
    ReadP.val_main_v138 (F := Ideal) x0 x1 x2 x3 x4 x5 x6 x7 x8 x9 x10 x11 x12 x13 x14 x15 x16 (ix2 r k) = MixSpec.logit (RowsAt r) Vecs7 Mat7 k := by
  rw [ReadP.val_main_v138_apply, ReadP.val_main_v137_apply, ReadP.val_main_cst_31_apply, ReadP.val_main_v136_apply]
  simp only [Ideal.hostDivf_def, Ideal.ofBits_def]
  unfold MixSpec.logit
  refine congrArg₂ Ideal.div (Finset.sum_congr rfl fun q _ => ?_) rfl
  rw [show ReadP.lidx_main_v136 (ix2 r k) q = ix2 r q from coords2,
    show ReadP.ridx_main_v136 (ix2 r k) q = ix2 q k from coords2, gates_apply]
  generalize rows Br0 Br1 Br2 Br3 Br4 Br5 Br6 r = N
  rfl

/-! ## The softmax along the seven logits -/

/-- The shift: the row maximum of the logits from -∞, once more against -∞. -/
theorem top_apply (r : Fin 100000) :
    ReadP.val_main_v141 (F := Ideal) x0 x1 x2 x3 x4 x5 x6 x7 x8 x9 x10 x11 x12 x13 x14 x15 x16 (ix1 r) = MixSpec.top (RowsAt r) Vecs7 Mat7 := by
  rw [ReadP.val_main_v141_apply, ReadP.val_main_v140_apply, ReadP.val_main_cst_33_apply]
  unfold ReadP.val_main_v139
  rw [rowMax_apply, ReadP.val_main_cst_32_apply]
  simp only [logits_apply, Ideal.maximumf_def, Ideal.ofBits_def]
  generalize rows Br0 Br1 Br2 Br3 Br4 Br5 Br6 r = N
  rfl

/-- The shifted exponentials. -/
theorem ex_apply (r : Fin 100000) (k : Fin 7) :
    ReadP.val_main_v145 (F := Ideal) x0 x1 x2 x3 x4 x5 x6 x7 x8 x9 x10 x11 x12 x13 x14 x15 x16 (ix2 r k) = MixSpec.ex (RowsAt r) Vecs7 Mat7 k := by
  rw [ReadP.val_main_v145_apply, ReadP.val_main_v144_apply, ReadP.val_main_v143_apply, ReadP.val_main_v142_apply,
    show ReadP.idx_main_v142 (ReadP.idx_main_v143 (ix2 r k)) = ix1 r from coords1, top_apply, logits_apply]
  generalize rows Br0 Br1 Br2 Br3 Br4 Br5 Br6 r = N
  rfl

/-- The normalizer: the sum of the seven exponentials (from the word of 0.0, which is zero). -/
theorem norm_apply (r : Fin 100000) :
    ReadP.val_main_v146 (F := Ideal) x0 x1 x2 x3 x4 x5 x6 x7 x8 x9 x10 x11 x12 x13 x14 x15 x16 (ix1 r) = ∑ k' : Fin 7, MixSpec.ex (RowsAt r) Vecs7 Mat7 k' := by
  rw [ReadP.val_main_v146_apply, ReadP.val_main_cst_34_apply]
  simp only [Ideal.ofBits_def, Ideal.ofBits_zero_f32, zero_add]
  refine Finset.sum_congr rfl fun k' _ => ?_
  rw [show ReadP.idx_main_v146 (ix1 r) k' = ix2 r k' from coords2, ex_apply]

/-- The softmax weights. -/
theorem att_apply (r : Fin 100000) (k : Fin 7) :
    ReadP.val_main_v149 (F := Ideal) x0 x1 x2 x3 x4 x5 x6 x7 x8 x9 x10 x11 x12 x13 x14 x15 x16 (ix2 r k) = MixSpec.att (RowsAt r) Vecs7 Mat7 k := by
  rw [ReadP.val_main_v149_apply, ReadP.val_main_v148_apply, ReadP.val_main_v147_apply,
    show ReadP.idx_main_v147 (ReadP.idx_main_v148 (ix2 r k)) = ix1 r from coords1, norm_apply, ex_apply]
  generalize rows Br0 Br1 Br2 Br3 Br4 Br5 Br6 r = N
  rfl

/-! ## The weighted sum of the branches -/

/-- Entry `(r, j)` of the result: seven times the weighted sum of the seven branches at `(r, j)`, left to right. -/
theorem mix_apply (r : Fin 100000) (j : Fin 64) :
    ReadP.val_main_v178 (F := Ideal) x0 x1 x2 x3 x4 x5 x6 x7 x8 x9 x10 x11 x12 x13 x14 x15 x16 (ix2 r j) = MixSpec.mixRow (RowsAt r) Vecs7 Mat7 j := by
  rw [ReadP.val_main_v178_apply, ReadP.val_main_v177_apply, ReadP.val_main_cst_35_apply,
    ReadP.val_main_v176_apply, ReadP.val_main_v172_apply, ReadP.val_main_v168_apply, ReadP.val_main_v164_apply,
    ReadP.val_main_v160_apply, ReadP.val_main_v156_apply,
    ReadP.val_main_v152_apply, ReadP.val_main_v151_apply, ReadP.val_main_v150_apply,
    ReadP.val_main_v155_apply, ReadP.val_main_v154_apply, ReadP.val_main_v153_apply,
    ReadP.val_main_v159_apply, ReadP.val_main_v158_apply, ReadP.val_main_v157_apply,
    ReadP.val_main_v163_apply, ReadP.val_main_v162_apply, ReadP.val_main_v161_apply,
    ReadP.val_main_v167_apply, ReadP.val_main_v166_apply, ReadP.val_main_v165_apply,
    ReadP.val_main_v171_apply, ReadP.val_main_v170_apply, ReadP.val_main_v169_apply,
    ReadP.val_main_v175_apply, ReadP.val_main_v174_apply, ReadP.val_main_v173_apply,
    show ReadP.idx_main_v150 (ReadP.idx_main_v151 (ix2 r j)) = ix2 r (0 : Fin 7) from coords2,
    show ReadP.idx_main_v153 (ReadP.idx_main_v154 (ix2 r j)) = ix2 r (1 : Fin 7) from coords2,
    show ReadP.idx_main_v157 (ReadP.idx_main_v158 (ix2 r j)) = ix2 r (2 : Fin 7) from coords2,
    show ReadP.idx_main_v161 (ReadP.idx_main_v162 (ix2 r j)) = ix2 r (3 : Fin 7) from coords2,
    show ReadP.idx_main_v165 (ReadP.idx_main_v166 (ix2 r j)) = ix2 r (4 : Fin 7) from coords2,
    show ReadP.idx_main_v169 (ReadP.idx_main_v170 (ix2 r j)) = ix2 r (5 : Fin 7) from coords2,
    show ReadP.idx_main_v173 (ReadP.idx_main_v174 (ix2 r j)) = ix2 r (6 : Fin 7) from coords2]
  simp only [att_apply]
  rw [← rows_0 Br0 Br1 Br2 Br3 Br4 Br5 Br6 r j, ← rows_1 Br0 Br1 Br2 Br3 Br4 Br5 Br6 r j, ← rows_2 Br0 Br1 Br2 Br3 Br4 Br5 Br6 r j, ← rows_3 Br0 Br1 Br2 Br3 Br4 Br5 Br6 r j,
    ← rows_4 Br0 Br1 Br2 Br3 Br4 Br5 Br6 r j, ← rows_5 Br0 Br1 Br2 Br3 Br4 Br5 Br6 r j, ← rows_6 Br0 Br1 Br2 Br3 Br4 Br5 Br6 r j]
  generalize rows Br0 Br1 Br2 Br3 Br4 Br5 Br6 r = N
  rfl

/-- **The reference's tail is the specification's mix of the seven branch arrays.** -/
theorem tail_eq :
    ReadP.val_main_v178 (F := Ideal) x0 x1 x2 x3 x4 x5 x6 x7 x8 x9 x10 x11 x12 x13 x14 x15 x16
      = MixSpec.mixArr Br0 Br1 Br2 Br3 Br4 Br5 Br6 x6 x7 x8 x9 x10 x11 x12 x13 := by
  funext i
  obtain ⟨r, j, rfl⟩ : ∃ (r : Fin 100000) (j : Fin 64), i = ix2 r j := ⟨i 0, i 1, eq_ix2 i⟩
  rw [mix_apply, mixArr_ix2]

end

end Cert.ReferenceIdeal.MixRef

end
-- ==== Proof.MidCasts.lean ====
/- A table of cases: for each typed reference of the host program's outlined calls (the rectifier, the two selects), the contents of
   the value's type and the contents of the buffer are one type, and the transport between them is the identity. One pair of
   lemmas per reference, each by computation of the buffer's type (stated as a composite of two reflexivities so that a rewrite
   with it is a rewrite step and not a re-check of the whole goal by unfolding). -/
import proofs.«148375_j2465311228029_2_alg».proof.Proof.Gen.KernelIdeal.Frame
import Idealize.ShloMosaic.PureOps.Ideal

noncomputable section

namespace Cert.KernelIdeal.MidValue

open Idealize.ShloMosaic Idealize.ShloMosaic.TcCoe Idealize.ShloMosaic.StableHlo Idealize.SL.Sem Cert.KernelIdeal Cert.KernelIdeal.Gen

theorem toBuf_main_call0_cst (v : (⟨S_, .f32⟩ : BufTy).Contents (Elt Ideal)) :
    (TRef.of (sig := sig) (T := ⟨S_, .f32⟩) main_call0_cst).toBuf v = v := Eq.trans rfl rfl
theorem ofBuf_main_call0_cst (v : (⟨S_, .f32⟩ : BufTy).Contents (Elt Ideal)) :
    (TRef.of (sig := sig) (T := ⟨S_, .f32⟩) main_call0_cst).ofBuf v = v := Eq.trans rfl rfl
theorem toBuf_main_call0_v0 (v : (⟨S100000x64, .f32⟩ : BufTy).Contents (Elt Ideal)) :
    (TRef.of (sig := sig) (T := ⟨S100000x64, .f32⟩) main_call0_v0).toBuf v = v := Eq.trans rfl rfl
theorem ofBuf_main_call0_v0 (v : (⟨S100000x64, .f32⟩ : BufTy).Contents (Elt Ideal)) :
    (TRef.of (sig := sig) (T := ⟨S100000x64, .f32⟩) main_call0_v0).ofBuf v = v := Eq.trans rfl rfl
theorem toBuf_main_v13 (v : (⟨S100000x64, .f32⟩ : BufTy).Contents (Elt Ideal)) :
    (TRef.of (sig := sig) (T := ⟨S100000x64, .f32⟩) main_v13).toBuf v = v := Eq.trans rfl rfl
theorem ofBuf_main_v13 (v : (⟨S100000x64, .f32⟩ : BufTy).Contents (Elt Ideal)) :
    (TRef.of (sig := sig) (T := ⟨S100000x64, .f32⟩) main_v13).ofBuf v = v := Eq.trans rfl rfl
theorem toBuf_main_v14 (v : (⟨S100000x64, .f32⟩ : BufTy).Contents (Elt Ideal)) :
    (TRef.of (sig := sig) (T := ⟨S100000x64, .f32⟩) main_v14).toBuf v = v := Eq.trans rfl rfl
theorem ofBuf_main_v14 (v : (⟨S100000x64, .f32⟩ : BufTy).Contents (Elt Ideal)) :
    (TRef.of (sig := sig) (T := ⟨S100000x64, .f32⟩) main_v14).ofBuf v = v := Eq.trans rfl rfl
theorem toBuf_main_call1_cst (v : (⟨S_, .f32⟩ : BufTy).Contents (Elt Ideal)) :
    (TRef.of (sig := sig) (T := ⟨S_, .f32⟩) main_call1_cst).toBuf v = v := Eq.trans rfl rfl
theorem ofBuf_main_call1_cst (v : (⟨S_, .f32⟩ : BufTy).Contents (Elt Ideal)) :
    (TRef.of (sig := sig) (T := ⟨S_, .f32⟩) main_call1_cst).ofBuf v = v := Eq.trans rfl rfl
theorem toBuf_main_call1_v0 (v : (⟨S100000x64, .f32⟩ : BufTy).Contents (Elt Ideal)) :
    (TRef.of (sig := sig) (T := ⟨S100000x64, .f32⟩) main_call1_v0).toBuf v = v := Eq.trans rfl rfl
theorem ofBuf_main_call1_v0 (v : (⟨S100000x64, .f32⟩ : BufTy).Contents (Elt Ideal)) :
    (TRef.of (sig := sig) (T := ⟨S100000x64, .f32⟩) main_call1_v0).ofBuf v = v := Eq.trans rfl rfl
theorem toBuf_main_v27 (v : (⟨S100000x64, .f32⟩ : BufTy).Contents (Elt Ideal)) :
    (TRef.of (sig := sig) (T := ⟨S100000x64, .f32⟩) main_v27).toBuf v = v := Eq.trans rfl rfl
theorem ofBuf_main_v27 (v : (⟨S100000x64, .f32⟩ : BufTy).Contents (Elt Ideal)) :
    (TRef.of (sig := sig) (T := ⟨S100000x64, .f32⟩) main_v27).ofBuf v = v := Eq.trans rfl rfl
theorem toBuf_main_v28 (v : (⟨S100000x64, .f32⟩ : BufTy).Contents (Elt Ideal)) :
    (TRef.of (sig := sig) (T := ⟨S100000x64, .f32⟩) main_v28).toBuf v = v := Eq.trans rfl rfl
theorem ofBuf_main_v28 (v : (⟨S100000x64, .f32⟩ : BufTy).Contents (Elt Ideal)) :
    (TRef.of (sig := sig) (T := ⟨S100000x64, .f32⟩) main_v28).ofBuf v = v := Eq.trans rfl rfl
theorem toBuf_main_c_10 (v : (⟨S_, .i32⟩ : BufTy).Contents (Elt Ideal)) :
    (TRef.of (sig := sig) (T := ⟨S_, .i32⟩) main_c_10).toBuf v = v := Eq.trans rfl rfl
theorem ofBuf_main_c_10 (v : (⟨S_, .i32⟩ : BufTy).Contents (Elt Ideal)) :
    (TRef.of (sig := sig) (T := ⟨S_, .i32⟩) main_c_10).ofBuf v = v := Eq.trans rfl rfl
theorem toBuf_main_call2_v0 (v : (⟨S1600000, .i32⟩ : BufTy).Contents (Elt Ideal)) :
    (TRef.of (sig := sig) (T := ⟨S1600000, .i32⟩) main_call2_v0).toBuf v = v := Eq.trans rfl rfl
theorem ofBuf_main_call2_v0 (v : (⟨S1600000, .i32⟩ : BufTy).Contents (Elt Ideal)) :
    (TRef.of (sig := sig) (T := ⟨S1600000, .i32⟩) main_call2_v0).ofBuf v = v := Eq.trans rfl rfl
theorem toBuf_main_c_11 (v : (⟨S_, .i32⟩ : BufTy).Contents (Elt Ideal)) :
    (TRef.of (sig := sig) (T := ⟨S_, .i32⟩) main_c_11).toBuf v = v := Eq.trans rfl rfl
theorem ofBuf_main_c_11 (v : (⟨S_, .i32⟩ : BufTy).Contents (Elt Ideal)) :
    (TRef.of (sig := sig) (T := ⟨S_, .i32⟩) main_c_11).ofBuf v = v := Eq.trans rfl rfl
theorem toBuf_main_call2_v1 (v : (⟨S1600000, .i32⟩ : BufTy).Contents (Elt Ideal)) :
    (TRef.of (sig := sig) (T := ⟨S1600000, .i32⟩) main_call2_v1).toBuf v = v := Eq.trans rfl rfl
theorem ofBuf_main_call2_v1 (v : (⟨S1600000, .i32⟩ : BufTy).Contents (Elt Ideal)) :
    (TRef.of (sig := sig) (T := ⟨S1600000, .i32⟩) main_call2_v1).ofBuf v = v := Eq.trans rfl rfl
theorem toBuf_main_v48 (v : (⟨S1600000, .i1⟩ : BufTy).Contents (Elt Ideal)) :
    (TRef.of (sig := sig) (T := ⟨S1600000, .i1⟩) main_v48).toBuf v = v := Eq.trans rfl rfl
theorem ofBuf_main_v48 (v : (⟨S1600000, .i1⟩ : BufTy).Contents (Elt Ideal)) :
    (TRef.of (sig := sig) (T := ⟨S1600000, .i1⟩) main_v48).ofBuf v = v := Eq.trans rfl rfl
theorem toBuf_main_v49 (v : (⟨S1600000, .i32⟩ : BufTy).Contents (Elt Ideal)) :
    (TRef.of (sig := sig) (T := ⟨S1600000, .i32⟩) main_v49).toBuf v = v := Eq.trans rfl rfl
theorem ofBuf_main_v49 (v : (⟨S1600000, .i32⟩ : BufTy).Contents (Elt Ideal)) :
    (TRef.of (sig := sig) (T := ⟨S1600000, .i32⟩) main_v49).ofBuf v = v := Eq.trans rfl rfl
theorem toBuf_main_c_12 (v : (⟨S_, .i32⟩ : BufTy).Contents (Elt Ideal)) :
    (TRef.of (sig := sig) (T := ⟨S_, .i32⟩) main_c_12).toBuf v = v := Eq.trans rfl rfl
theorem ofBuf_main_c_12 (v : (⟨S_, .i32⟩ : BufTy).Contents (Elt Ideal)) :
    (TRef.of (sig := sig) (T := ⟨S_, .i32⟩) main_c_12).ofBuf v = v := Eq.trans rfl rfl
theorem toBuf_main_call3_v0 (v : (⟨S1600000, .i32⟩ : BufTy).Contents (Elt Ideal)) :
    (TRef.of (sig := sig) (T := ⟨S1600000, .i32⟩) main_call3_v0).toBuf v = v := Eq.trans rfl rfl
theorem ofBuf_main_call3_v0 (v : (⟨S1600000, .i32⟩ : BufTy).Contents (Elt Ideal)) :
    (TRef.of (sig := sig) (T := ⟨S1600000, .i32⟩) main_call3_v0).ofBuf v = v := Eq.trans rfl rfl
theorem toBuf_main_v47 (v : (⟨S1600000, .i1⟩ : BufTy).Contents (Elt Ideal)) :
    (TRef.of (sig := sig) (T := ⟨S1600000, .i1⟩) main_v47).toBuf v = v := Eq.trans rfl rfl
theorem ofBuf_main_v47 (v : (⟨S1600000, .i1⟩ : BufTy).Contents (Elt Ideal)) :
    (TRef.of (sig := sig) (T := ⟨S1600000, .i1⟩) main_v47).ofBuf v = v := Eq.trans rfl rfl
theorem toBuf_main_v50 (v : (⟨S1600000, .i32⟩ : BufTy).Contents (Elt Ideal)) :
    (TRef.of (sig := sig) (T := ⟨S1600000, .i32⟩) main_v50).toBuf v = v := Eq.trans rfl rfl
theorem ofBuf_main_v50 (v : (⟨S1600000, .i32⟩ : BufTy).Contents (Elt Ideal)) :
    (TRef.of (sig := sig) (T := ⟨S1600000, .i32⟩) main_v50).ofBuf v = v := Eq.trans rfl rfl

end Cert.KernelIdeal.MidValue

end
-- ==== Proof.MidLow.lean ====
/- A table of cases over ONE hand-written argument, instantiated for the three neighbourhood sums of the low-pass branch.
   Between the two regions the kernel program runs, on the host, the same gathers, masks and scatter-adds as the reference: from the
   projected array (as the first region leaves it) and the launch arguments to the neighbourhood sums. Read back operation by
   operation, each array the second region finds is the reference's stage of the same role — the one difference being the order of
   the two factors of the edge-weighted messages (the gathered rows times the edge values against the edge values times the gathered
   rows), which commutes entry by entry. The five steps: read the operations back; drop the identity transports of the outlined
   calls; put the launch arguments and the projected array in; commute the one product; what is left is the reference's stage, by
   unfolding its definition. -/
import proofs.«148375_j2465311228029_2_alg».proof.Proof.Gen.KernelIdeal.Frame
import proofs.«148375_j2465311228029_2_alg».proof.Proof.RefRead
import proofs.«148375_j2465311228029_2_alg».proof.Proof.MidCasts
import Idealize.ShloMosaic.PureOps.Ideal
import Idealize.ShloMosaic.Lib.StableHlo.Run

noncomputable section

namespace Cert.KernelIdeal.MidValue

open Idealize.ShloMosaic Idealize.ShloMosaic.TcCoe Idealize.ShloMosaic.StableHlo Idealize.SL.Sem Cert.KernelIdeal Cert.KernelIdeal.Gen

/-- The product of two arrays commutes, entry by entry. -/
theorem mulf_comm_arr {s : Shape} {φ : FTy} (a b : FVec Ideal s φ) : mulf a b = mulf b a := funext fun i => mul_comm (a i) (b i)

variable (m : (ℓ : Loc nD τ sig) → Buf (Elt Ideal) ℓ) (ρ : Dev nD → PrngReg) (c : Dev nD)

set_option maxHeartbeats 1000000 in
/-- The branch array `main_v82` as the second region finds it is the reference's stage `val_main_v85` of the launch arguments. -/
theorem mid82
    (hv : W1 (F := Ideal) m ρ c (Proc.devRef .tc main_v0_0) = Cert.ReferenceIdeal.ReadP.val_main_v0 (F := Ideal) (m ((c.tc : Thread nD τ).loc main_arg0)) (m ((c.tc : Thread nD τ).loc main_arg3)))
    (hval : W1 (F := Ideal) m ρ c (Proc.devRef .tc main_arg1) = (m ((c.tc : Thread nD τ).loc main_arg1)))
    (h14 : W1 (F := Ideal) m ρ c (Proc.devRef .tc main_arg14) = (m ((c.tc : Thread nD τ).loc main_arg14)))
    (h15 : W1 (F := Ideal) m ρ c (Proc.devRef .tc main_arg15) = (m ((c.tc : Thread nD τ).loc main_arg15)))
    (h16 : W1 (F := Ideal) m ρ c (Proc.devRef .tc main_arg16) = (m ((c.tc : Thread nD τ).loc main_arg16))) :
    W10 (F := Ideal) m ρ c (Proc.devRef .tc main_v82)
      = Cert.ReferenceIdeal.ReadP.val_main_v85 (F := Ideal) (m ((c.tc : Thread nD τ).loc main_arg0)) (m ((c.tc : Thread nD τ).loc main_arg1)) (m ((c.tc : Thread nD τ).loc main_arg3)) (m ((c.tc : Thread nD τ).loc main_arg14)) (m ((c.tc : Thread nD τ).loc main_arg15)) (m ((c.tc : Thread nD τ).loc main_arg16)) := by
  after_results_simp
  simp only [toBuf_main_call0_cst, ofBuf_main_call0_cst, toBuf_main_call0_v0, ofBuf_main_call0_v0, toBuf_main_v13, ofBuf_main_v13, toBuf_main_v14, ofBuf_main_v14, toBuf_main_call1_cst, ofBuf_main_call1_cst, toBuf_main_call1_v0, ofBuf_main_call1_v0, toBuf_main_v27, ofBuf_main_v27, toBuf_main_v28, ofBuf_main_v28, toBuf_main_c_10, ofBuf_main_c_10, toBuf_main_call2_v0, ofBuf_main_call2_v0, toBuf_main_c_11, ofBuf_main_c_11, toBuf_main_call2_v1, ofBuf_main_call2_v1, toBuf_main_v48, ofBuf_main_v48, toBuf_main_v49, ofBuf_main_v49, toBuf_main_c_12, ofBuf_main_c_12, toBuf_main_call3_v0, ofBuf_main_call3_v0, toBuf_main_v47, ofBuf_main_v47, toBuf_main_v50, ofBuf_main_v50]
  rw [hv, hval, h14, h15, h16]
  rw [mulf_comm_arr _ (broadcastInDim S1600000x64 ![0, 1] bcast_S1600000x1_S1600000x64_0_1
    (broadcastInDim S1600000x1 ![0] bcast_S1600000_S1600000x1_0 (m ((c.tc : Thread nD τ).loc main_arg1))))]
  rfl

set_option maxHeartbeats 1000000 in
/-- The branch array `main_v73` as the second region finds it is the reference's stage `val_main_v76` of the launch arguments. -/
theorem mid73
    (hv : W1 (F := Ideal) m ρ c (Proc.devRef .tc main_v0_0) = Cert.ReferenceIdeal.ReadP.val_main_v0 (F := Ideal) (m ((c.tc : Thread nD τ).loc main_arg0)) (m ((c.tc : Thread nD τ).loc main_arg3)))
    (hval : W1 (F := Ideal) m ρ c (Proc.devRef .tc main_arg1) = (m ((c.tc : Thread nD τ).loc main_arg1)))
    (h14 : W1 (F := Ideal) m ρ c (Proc.devRef .tc main_arg14) = (m ((c.tc : Thread nD τ).loc main_arg14)))
    (h15 : W1 (F := Ideal) m ρ c (Proc.devRef .tc main_arg15) = (m ((c.tc : Thread nD τ).loc main_arg15)))
    (h16 : W1 (F := Ideal) m ρ c (Proc.devRef .tc main_arg16) = (m ((c.tc : Thread nD τ).loc main_arg16))) :
    W10 (F := Ideal) m ρ c (Proc.devRef .tc main_v73)
      = Cert.ReferenceIdeal.ReadP.val_main_v76 (F := Ideal) (m ((c.tc : Thread nD τ).loc main_arg0)) (m ((c.tc : Thread nD τ).loc main_arg1)) (m ((c.tc : Thread nD τ).loc main_arg3)) (m ((c.tc : Thread nD τ).loc main_arg14)) (m ((c.tc : Thread nD τ).loc main_arg15)) (m ((c.tc : Thread nD τ).loc main_arg16)) := by
  after_results_simp
  simp only [toBuf_main_call0_cst, ofBuf_main_call0_cst, toBuf_main_call0_v0, ofBuf_main_call0_v0, toBuf_main_v13, ofBuf_main_v13, toBuf_main_v14, ofBuf_main_v14, toBuf_main_call1_cst, ofBuf_main_call1_cst, toBuf_main_call1_v0, ofBuf_main_call1_v0, toBuf_main_v27, ofBuf_main_v27, toBuf_main_v28, ofBuf_main_v28, toBuf_main_c_10, ofBuf_main_c_10, toBuf_main_call2_v0, ofBuf_main_call2_v0, toBuf_main_c_11, ofBuf_main_c_11, toBuf_main_call2_v1, ofBuf_main_call2_v1, toBuf_main_v48, ofBuf_main_v48, toBuf_main_v49, ofBuf_main_v49, toBuf_main_c_12, ofBuf_main_c_12, toBuf_main_call3_v0, ofBuf_main_call3_v0, toBuf_main_v47, ofBuf_main_v47, toBuf_main_v50, ofBuf_main_v50]
  rw [hv, hval, h14, h15, h16]
  rw [mulf_comm_arr _ (broadcastInDim S1600000x64 ![0, 1] bcast_S1600000x1_S1600000x64_0_1
    (broadcastInDim S1600000x1 ![0] bcast_S1600000_S1600000x1_0 (m ((c.tc : Thread nD τ).loc main_arg1))))]
  rfl

set_option maxHeartbeats 1000000 in
/-- The branch array `main_v91` as the second region finds it is the reference's stage `val_main_v94` of the launch arguments. -/
theorem mid91
    (hv : W1 (F := Ideal) m ρ c (Proc.devRef .tc main_v0_0) = Cert.ReferenceIdeal.ReadP.val_main_v0 (F := Ideal) (m ((c.tc : Thread nD τ).loc main_arg0)) (m ((c.tc : Thread nD τ).loc main_arg3)))
    (hval : W1 (F := Ideal) m ρ c (Proc.devRef .tc main_arg1) = (m ((c.tc : Thread nD τ).loc main_arg1)))
    (h14 : W1 (F := Ideal) m ρ c (Proc.devRef .tc main_arg14) = (m ((c.tc : Thread nD τ).loc main_arg14)))
    (h15 : W1 (F := Ideal) m ρ c (Proc.devRef .tc main_arg15) = (m ((c.tc : Thread nD τ).loc main_arg15)))
    (h16 : W1 (F := Ideal) m ρ c (Proc.devRef .tc main_arg16) = (m ((c.tc : Thread nD τ).loc main_arg16))) :
    W10 (F := Ideal) m ρ c (Proc.devRef .tc main_v91)
      = Cert.ReferenceIdeal.ReadP.val_main_v94 (F := Ideal) (m ((c.tc : Thread nD τ).loc main_arg0)) (m ((c.tc : Thread nD τ).loc main_arg1)) (m ((c.tc : Thread nD τ).loc main_arg3)) (m ((c.tc : Thread nD τ).loc main_arg14)) (m ((c.tc : Thread nD τ).loc main_arg15)) (m ((c.tc : Thread nD τ).loc main_arg16)) := by
  after_results_simp
  simp only [toBuf_main_call0_cst, ofBuf_main_call0_cst, toBuf_main_call0_v0, ofBuf_main_call0_v0, toBuf_main_v13, ofBuf_main_v13, toBuf_main_v14, ofBuf_main_v14, toBuf_main_call1_cst, ofBuf_main_call1_cst, toBuf_main_call1_v0, ofBuf_main_call1_v0, toBuf_main_v27, ofBuf_main_v27, toBuf_main_v28, ofBuf_main_v28, toBuf_main_c_10, ofBuf_main_c_10, toBuf_main_call2_v0, ofBuf_main_call2_v0, toBuf_main_c_11, ofBuf_main_c_11, toBuf_main_call2_v1, ofBuf_main_call2_v1, toBuf_main_v48, ofBuf_main_v48, toBuf_main_v49, ofBuf_main_v49, toBuf_main_c_12, ofBuf_main_c_12, toBuf_main_call3_v0, ofBuf_main_call3_v0, toBuf_main_v47, ofBuf_main_v47, toBuf_main_v50, ofBuf_main_v50]
  rw [hv, hval, h14, h15, h16]
  rw [mulf_comm_arr _ (broadcastInDim S1600000x64 ![0, 1] bcast_S1600000x1_S1600000x64_0_1
    (broadcastInDim S1600000x1 ![0] bcast_S1600000_S1600000x1_0 (m ((c.tc : Thread nD τ).loc main_arg1))))]
  rfl

end Cert.KernelIdeal.MidValue

end
-- ==== Proof.MidHigh.lean ====
/- A table of cases over ONE hand-written argument, instantiated for the three neighbourhood sums of the high-pass branch.
   Between the two regions the kernel program runs, on the host, the same gathers, masks and scatter-adds as the reference: from the
   projected array (as the first region leaves it) and the launch arguments to the neighbourhood sums. Read back operation by
   operation, each array the second region finds is the reference's stage of the same role — the one difference being the order of
   the two factors of the edge-weighted messages (the gathered rows times the edge values against the edge values times the gathered
   rows), which commutes entry by entry. The five steps: read the operations back; drop the identity transports of the outlined
   calls; put the launch arguments and the projected array in; commute the one product; what is left is the reference's stage, by
   unfolding its definition. -/
import proofs.«148375_j2465311228029_2_alg».proof.Proof.MidLow

noncomputable section

namespace Cert.KernelIdeal.MidValue

open Idealize.ShloMosaic Idealize.ShloMosaic.TcCoe Idealize.ShloMosaic.StableHlo Idealize.SL.Sem Cert.KernelIdeal Cert.KernelIdeal.Gen

variable (m : (ℓ : Loc nD τ sig) → Buf (Elt Ideal) ℓ) (ρ : Dev nD → PrngReg) (c : Dev nD)

set_option maxHeartbeats 1000000 in
/-- The branch array `main_v109` as the second region finds it is the reference's stage `val_main_v112` of the launch arguments. -/
theorem mid109
    (hv : W1 (F := Ideal) m ρ c (Proc.devRef .tc main_v0_1) = Cert.ReferenceIdeal.ReadP.val_main_v15 (F := Ideal) (m ((c.tc : Thread nD τ).loc main_arg0)) (m ((c.tc : Thread nD τ).loc main_arg4)))
    (hval : W1 (F := Ideal) m ρ c (Proc.devRef .tc main_arg2) = (m ((c.tc : Thread nD τ).loc main_arg2)))
    (h14 : W1 (F := Ideal) m ρ c (Proc.devRef .tc main_arg14) = (m ((c.tc : Thread nD τ).loc main_arg14)))
    (h15 : W1 (F := Ideal) m ρ c (Proc.devRef .tc main_arg15) = (m ((c.tc : Thread nD τ).loc main_arg15)))
    (h16 : W1 (F := Ideal) m ρ c (Proc.devRef .tc main_arg16) = (m ((c.tc : Thread nD τ).loc main_arg16))) :
    W10 (F := Ideal) m ρ c (Proc.devRef .tc main_v109)
      = Cert.ReferenceIdeal.ReadP.val_main_v112 (F := Ideal) (m ((c.tc : Thread nD τ).loc main_arg0)) (m ((c.tc : Thread nD τ).loc main_arg2)) (m ((c.tc : Thread nD τ).loc main_arg4)) (m ((c.tc : Thread nD τ).loc main_arg14)) (m ((c.tc : Thread nD τ).loc main_arg15)) (m ((c.tc : Thread nD τ).loc main_arg16)) := by
  after_results_simp
  simp only [toBuf_main_call0_cst, ofBuf_main_call0_cst, toBuf_main_call0_v0, ofBuf_main_call0_v0, toBuf_main_v13, ofBuf_main_v13, toBuf_main_v14, ofBuf_main_v14, toBuf_main_call1_cst, ofBuf_main_call1_cst, toBuf_main_call1_v0, ofBuf_main_call1_v0, toBuf_main_v27, ofBuf_main_v27, toBuf_main_v28, ofBuf_main_v28, toBuf_main_c_10, ofBuf_main_c_10, toBuf_main_call2_v0, ofBuf_main_call2_v0, toBuf_main_c_11, ofBuf_main_c_11, toBuf_main_call2_v1, ofBuf_main_call2_v1, toBuf_main_v48, ofBuf_main_v48, toBuf_main_v49, ofBuf_main_v49, toBuf_main_c_12, ofBuf_main_c_12, toBuf_main_call3_v0, ofBuf_main_call3_v0, toBuf_main_v47, ofBuf_main_v47, toBuf_main_v50, ofBuf_main_v50]
  rw [hv, hval, h14, h15, h16]
  rw [mulf_comm_arr _ (broadcastInDim S1600000x64 ![0, 1] bcast_S1600000x1_S1600000x64_0_1
    (broadcastInDim S1600000x1 ![0] bcast_S1600000_S1600000x1_0 (m ((c.tc : Thread nD τ).loc main_arg2))))]
  rfl

set_option maxHeartbeats 1000000 in
/-- The branch array `main_v100` as the second region finds it is the reference's stage `val_main_v103` of the launch arguments. -/
theorem mid100
    (hv : W1 (F := Ideal) m ρ c (Proc.devRef .tc main_v0_1) = Cert.ReferenceIdeal.ReadP.val_main_v15 (F := Ideal) (m ((c.tc : Thread nD τ).loc main_arg0)) (m ((c.tc : Thread nD τ).loc main_arg4)))
    (hval : W1 (F := Ideal) m ρ c (Proc.devRef .tc main_arg2) = (m ((c.tc : Thread nD τ).loc main_arg2)))
    (h14 : W1 (F := Ideal) m ρ c (Proc.devRef .tc main_arg14) = (m ((c.tc : Thread nD τ).loc main_arg14)))
    (h15 : W1 (F := Ideal) m ρ c (Proc.devRef .tc main_arg15) = (m ((c.tc : Thread nD τ).loc main_arg15)))
    (h16 : W1 (F := Ideal) m ρ c (Proc.devRef .tc main_arg16) = (m ((c.tc : Thread nD τ).loc main_arg16))) :
    W10 (F := Ideal) m ρ c (Proc.devRef .tc main_v100)
      = Cert.ReferenceIdeal.ReadP.val_main_v103 (F := Ideal) (m ((c.tc : Thread nD τ).loc main_arg0)) (m ((c.tc : Thread nD τ).loc main_arg2)) (m ((c.tc : Thread nD τ).loc main_arg4)) (m ((c.tc : Thread nD τ).loc main_arg14)) (m ((c.tc : Thread nD τ).loc main_arg15)) (m ((c.tc : Thread nD τ).loc main_arg16)) := by
  after_results_simp
  simp only [toBuf_main_call0_cst, ofBuf_main_call0_cst, toBuf_main_call0_v0, ofBuf_main_call0_v0, toBuf_main_v13, ofBuf_main_v13, toBuf_main_v14, ofBuf_main_v14, toBuf_main_call1_cst, ofBuf_main_call1_cst, toBuf_main_call1_v0, ofBuf_main_call1_v0, toBuf_main_v27, ofBuf_main_v27, toBuf_main_v28, ofBuf_main_v28, toBuf_main_c_10, ofBuf_main_c_10, toBuf_main_call2_v0, ofBuf_main_call2_v0, toBuf_main_c_11, ofBuf_main_c_11, toBuf_main_call2_v1, ofBuf_main_call2_v1, toBuf_main_v48, ofBuf_main_v48, toBuf_main_v49, ofBuf_main_v49, toBuf_main_c_12, ofBuf_main_c_12, toBuf_main_call3_v0, ofBuf_main_call3_v0, toBuf_main_v47, ofBuf_main_v47, toBuf_main_v50, ofBuf_main_v50]
  rw [hv, hval, h14, h15, h16]
  rw [mulf_comm_arr _ (broadcastInDim S1600000x64 ![0, 1] bcast_S1600000x1_S1600000x64_0_1
    (broadcastInDim S1600000x1 ![0] bcast_S1600000_S1600000x1_0 (m ((c.tc : Thread nD τ).loc main_arg2))))]
  rfl

set_option maxHeartbeats 1000000 in
/-- The branch array `main_v118` as the second region finds it is the reference's stage `val_main_v121` of the launch arguments. -/
theorem mid118
    (hv : W1 (F := Ideal) m ρ c (Proc.devRef .tc main_v0_1) = Cert.ReferenceIdeal.ReadP.val_main_v15 (F := Ideal) (m ((c.tc : Thread nD τ).loc main_arg0)) (m ((c.tc : Thread nD τ).loc main_arg4)))
    (hval : W1 (F := Ideal) m ρ c (Proc.devRef .tc main_arg2) = (m ((c.tc : Thread nD τ).loc main_arg2)))
    (h14 : W1 (F := Ideal) m ρ c (Proc.devRef .tc main_arg14) = (m ((c.tc : Thread nD τ).loc main_arg14)))
    (h15 : W1 (F := Ideal) m ρ c (Proc.devRef .tc main_arg15) = (m ((c.tc : Thread nD τ).loc main_arg15)))
    (h16 : W1 (F := Ideal) m ρ c (Proc.devRef .tc main_arg16) = (m ((c.tc : Thread nD τ).loc main_arg16))) :
    W10 (F := Ideal) m ρ c (Proc.devRef .tc main_v118)
      = Cert.ReferenceIdeal.ReadP.val_main_v121 (F := Ideal) (m ((c.tc : Thread nD τ).loc main_arg0)) (m ((c.tc : Thread nD τ).loc main_arg2)) (m ((c.tc : Thread nD τ).loc main_arg4)) (m ((c.tc : Thread nD τ).loc main_arg14)) (m ((c.tc : Thread nD τ).loc main_arg15)) (m ((c.tc : Thread nD τ).loc main_arg16)) := by
  after_results_simp
  simp only [toBuf_main_call0_cst, ofBuf_main_call0_cst, toBuf_main_call0_v0, ofBuf_main_call0_v0, toBuf_main_v13, ofBuf_main_v13, toBuf_main_v14, ofBuf_main_v14, toBuf_main_call1_cst, ofBuf_main_call1_cst, toBuf_main_call1_v0, ofBuf_main_call1_v0, toBuf_main_v27, ofBuf_main_v27, toBuf_main_v28, ofBuf_main_v28, toBuf_main_c_10, ofBuf_main_c_10, toBuf_main_call2_v0, ofBuf_main_call2_v0, toBuf_main_c_11, ofBuf_main_c_11, toBuf_main_call2_v1, ofBuf_main_call2_v1, toBuf_main_v48, ofBuf_main_v48, toBuf_main_v49, ofBuf_main_v49, toBuf_main_c_12, ofBuf_main_c_12, toBuf_main_call3_v0, ofBuf_main_call3_v0, toBuf_main_v47, ofBuf_main_v47, toBuf_main_v50, ofBuf_main_v50]
  rw [hv, hval, h14, h15, h16]
  rw [mulf_comm_arr _ (broadcastInDim S1600000x64 ![0, 1] bcast_S1600000x1_S1600000x64_0_1
    (broadcastInDim S1600000x1 ![0] bcast_S1600000_S1600000x1_0 (m ((c.tc : Thread nD τ).loc main_arg2))))]
  rfl

end Cert.KernelIdeal.MidValue

end
-- ==== Proof.ProjKernel.lean ====
/-
  The three projections of the first region, on one block of 2000 rows, at the ideal values.

  The region's body multiplies the block of `x` (2000 rows of 64 numbers) by each of the three 64×64 weight
  matrices, accumulating into a zero splat; the third product is then rectified against the word of 0.0.
  Both operands are first narrowed to a 16-bit format, which at the ideal values is the identity. So entry
  (p, j) of each product is the inner product of row p of the block with column j of the weights:
      ∑ d, x (p, d) · w (d, j)
  which is `Cert.MixSpec.projRow` of that row and those weights.
-/
import proofs.«148375_j2465311228029_2_alg».proof.Proof.Gen.KernelIdeal.Frame
import proofs.«148375_j2465311228029_2_alg».proof.Proof.MixSpec
import Idealize.ShloMosaic.Lib.ValueIdx
import Idealize.ShloMosaic.Lib.Pipeline.Value
import Idealize.ShloMosaic.PureOps.Ideal.Laws

noncomputable section

namespace Cert.KernelIdeal.ProjValue

open Idealize.ShloMosaic ValueIdx Cert.KernelIdeal Cert.KernelIdeal.Gen

/-! ## The operand indices of the product

  The product contracts axis 1 of the left operand with axis 0 of the right one. At output index `i` and
  contraction index `q` the left operand is read at (i 0, q) and the right one at (q, i 1). -/

theorem lhs_row (i : S2000x64.Idx) (q : dot_S2000x64_S64x64_S2000x64_1_0_0_1_n_n.contr.Idx) :
    (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide),
    dif_pos (show (0 : Fin S2000x64.rank) ∈ dot_S2000x64_S64x64_S2000x64_1_0_0_1_n_n.lhsNonContracting by decide)]
  rfl

theorem lhs_col (i : S2000x64.Idx) (q : dot_S2000x64_S64x64_S2000x64_1_0_0_1_n_n.contr.Idx) :
    (dot_S2000x64_S64x64_S2000x64_1_0_0_1_n_n.lhsIdx i q 1).val = (q ⟨0, by decide⟩).val :=
  dot_S2000x64_S64x64_S2000x64_1_0_0_1_n_n.lhsIdx_val_of_single rfl i q

theorem rhs_row (i : S2000x64.Idx) (q : dot_S2000x64_S64x64_S2000x64_1_0_0_1_n_n.contr.Idx) :
    (dot_S2000x64_S64x64_S2000x64_1_0_0_1_n_n.rhsIdx i q 0).val = (q ⟨0, by decide⟩).val :=
  dot_S2000x64_S64x64_S2000x64_1_0_0_1_n_n.rhsIdx_val_of_single rfl i q

theorem rhs_col (i : S2000x64.Idx) (q : dot_S2000x64_S64x64_S2000x64_1_0_0_1_n_n.contr.Idx) :
    (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide),
    dif_pos (show (1 : Fin S64x64.rank) ∈ dot_S2000x64_S64x64_S2000x64_1_0_0_1_n_n.rhsNonContracting by decide)]
  rfl

/-! ## The product into a zero accumulator, at an entry -/

/-- Entry (p, j) of the product of a 2000×64 block by a 64×64 matrix, accumulated into zero, is the sum over the
    contracted coordinate `d` of the products of the entries (p, d) and (d, j). -/
theorem matmul_zero_apply (a : FVec Ideal S2000x64 .bf16) (b : FVec Ideal S64x64 .bf16) (p : Fin 2000) (j : Fin 64) :
    matmul dot_S2000x64_S64x64_S2000x64_1_0_0_1_n_n none a b (constant (F := Ideal) S2000x64 .f32 0x00000000#32) (ix2 p j)
      = ∑ d : Fin 64, a (ix2 p d) * b (ix2 d j) := by
  simp only [matmul]
  rw [Ideal.matmul_constant_zero_apply,
    ← Equiv.sum_comp (contrEquiv1 dot_S2000x64_S64x64_S2000x64_1_0_0_1_n_n 64 rfl rfl).symm]
  refine Finset.sum_congr rfl fun k _ => ?_
  have hk := contrEquiv1_symm_val dot_S2000x64_S64x64_S2000x64_1_0_0_1_n_n 64 rfl rfl k
  have el : dot_S2000x64_S64x64_S2000x64_1_0_0_1_n_n.lhsIdx (ix2 p j)
      ((contrEquiv1 dot_S2000x64_S64x64_S2000x64_1_0_0_1_n_n 64 rfl rfl).symm k) = ix2 p k :=
    funext fun ax => Fin.ext (by
      match ax with
      | ⟨0, _⟩ => exact lhs_row _ _
      | ⟨1, _⟩ => exact (lhs_col _ _).trans hk)
  have er : dot_S2000x64_S64x64_S2000x64_1_0_0_1_n_n.rhsIdx (ix2 p j)
      ((contrEquiv1 dot_S2000x64_S64x64_S2000x64_1_0_0_1_n_n 64 rfl rfl).symm k) = ix2 k j :=
    funext fun ax => Fin.ext (by
      match ax with
      | ⟨0, _⟩ => exact (rhs_row _ _).trans hk
      | ⟨1, _⟩ => exact rhs_col _ _)
  rw [el, er]

/-! ## The three payloads at an entry -/

variable (x0 : Vec Ideal S2000x64 .f32) (w : Vec Ideal S64x64 .f32) (p : Fin 2000) (j : Fin 64)

/-- The first product: row `p` of the block against column `j` of the weights. -/
theorem pay2_apply :
    Gen.k0_pay2 x0 w (ix2 p j)
      = Cert.MixSpec.projRow (fun d => x0 (ix2 p d)) (fun d j' => w (ix2 d j')) j := by
  unfold Gen.k0_pay2 Gen.k0_pay1
  refine (matmul_zero_apply (truncf .bf16 x0 bitsLt_bf16_f32) (truncf .bf16 w bitsLt_bf16_f32) p j).trans ?_
  unfold Cert.MixSpec.projRow
  refine Finset.sum_congr rfl fun d _ => ?_
  rw [truncf_apply, truncf_apply]

/-- The second product: the same function of its own weights. -/
theorem pay3_apply :
    Gen.k0_pay3 x0 w (ix2 p j)
      = Cert.MixSpec.projRow (fun d => x0 (ix2 p d)) (fun d j' => w (ix2 d j')) j := by
  unfold Gen.k0_pay3 Gen.k0_pay1
  refine (matmul_zero_apply (truncf .bf16 x0 bitsLt_bf16_f32) (truncf .bf16 w bitsLt_bf16_f32) p j).trans ?_
  unfold Cert.MixSpec.projRow
  refine Finset.sum_congr rfl fun d _ => ?_
  rw [truncf_apply, truncf_apply]

/-- The third product, rectified: the larger of the inner product and the word of 0.0. -/
theorem pay4_apply :
    Gen.k0_pay4 x0 w (ix2 p j)
      = max (Cert.MixSpec.projRow (fun d => x0 (ix2 p d)) (fun d j' => w (ix2 d j')) j)
          (Ideal.ofBits .f32 0x00000000#32) := by
  unfold Gen.k0_pay4 Gen.k0_pay1
  rw [maximumf_apply, broadcast_apply]
  refine congrArg (fun y => max y (Ideal.ofBits .f32 0x00000000#32)) ?_
  refine (matmul_zero_apply (truncf .bf16 x0 bitsLt_bf16_f32) (truncf .bf16 w bitsLt_bf16_f32) p j).trans ?_
  unfold Cert.MixSpec.projRow
  refine Finset.sum_congr rfl fun d _ => ?_
  rw [truncf_apply, truncf_apply]

end Cert.KernelIdeal.ProjValue

end
-- ==== Proof.ProjArray.lean ====
/-
  From blocks to whole arrays: the three projections of the first region.

  The region runs over 50 grid points. Point `t` reads rows 2000·t … 2000·t + 1999 of `x` (all 64 columns) and the
  three weight matrices whole, and writes the same rows of the three result arrays. Entry (p, j) of what it writes
  is the inner product of row p of its block of `x` with column j of the weights, that is of row 2000·t + p of
  `x`; so each write-back is the block of ONE function of the whole arrays, `Cert.MixSpec.projArr` (rectified for
  the third result). Row r of a result is covered by point r / 2000, so after the run the three arrays are that
  function everywhere.
-/
import proofs.«148375_j2465311228029_2_alg».proof.Proof.ProjKernel

noncomputable section

namespace Cert.KernelIdeal.ProjValue

open Cert.KernelIdeal Cert.KernelIdeal.Gen Idealize.ShloMosaic Idealize.ShloMosaic.TcCoe Idealize.SL.Sem ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-! ## Where each window's block sits

  Decided over the 50 grid points: the block of `x` and of each result at point `t` is block `t` along the rows
  and block 0 along the columns; the weights' block is always block (0, 0). -/

theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-! ## The input blocks, entry by entry -/

/-- Entry (p, d) of the block of `x` at point `t` is entry (2000·t + p, d) of `x`. -/
theorem x_block_apply (c : Dev nD) (t : Fin cfg0.N) (p : Fin 2000) (d : Fin 64) (r : Fin 100000)
    (hr : r.val = 2000 * t.val + p.val) :
    (iblk0 V c 0 t : Vec Ideal S2000x64 .f32) (ix2 p d) = (V c main_arg0 : S100000x64.Idx → EReal) (ix2 r d) := by
  obtain ⟨e0, e1, -⟩ := block_indices t
  unfold iblk0
  rw [View.read_apply]
  show V c main_arg0 _ = V c main_arg0 _
  congr 1
  funext a
  apply Fin.ext
  match a with
  | ⟨0, _⟩ => show win0_0.index t (0 : Fin 2) * 2000 + 1 * p.val = r.val; rw [e0, hr]; omega
  | ⟨1, _⟩ => show win0_0.index t (1 : Fin 2) * 64 + 1 * d.val = d.val; rw [e1]; omega

/-- The block of the first weight matrix is the matrix, at every point. -/
theorem w1_block_apply (c : Dev nD) (t : Fin cfg0.N) (d j : Fin 64) :
    (iblk0 V c 1 t : Vec Ideal S64x64 .f32) (ix2 d j) = (V c main_arg3 : S64x64.Idx → EReal) (ix2 d j) := by
  obtain ⟨-, -, e0, e1, -⟩ := block_indices t
  unfold iblk0
  rw [View.read_apply]
  show V c main_arg3 _ = V c main_arg3 _
  congr 1
  funext a
  apply Fin.ext
  match a with
  | ⟨0, _⟩ => show win0_1.index t (0 : Fin 2) * 64 + 1 * d.val = d.val; rw [e0]; omega
  | ⟨1, _⟩ => show win0_1.index t (1 : Fin 2) * 64 + 1 * j.val = j.val; rw [e1]; omega

/-- The block of the second weight matrix is the matrix, at every point. -/
theorem w2_block_apply (c : Dev nD) (t : Fin cfg0.N) (d j : Fin 64) :
    (iblk0 V c 2 t : Vec Ideal S64x64 .f32) (ix2 d j) = (V c main_arg4 : S64x64.Idx → EReal) (ix2 d j) := by
  obtain ⟨-, -, -, -, e0, e1, -⟩ := block_indices t
  unfold iblk0
  rw [View.read_apply]
  show V c main_arg4 _ = V c main_arg4 _
  congr 1
  funext a
  apply Fin.ext
  match a with
  | ⟨0, _⟩ => show win0_2.index t (0 : Fin 2) * 64 + 1 * d.val = d.val; rw [e0]; omega
  | ⟨1, _⟩ => show win0_2.index t (1 : Fin 2) * 64 + 1 * j.val = j.val; rw [e1]; omega

/-- The block of the third weight matrix is the matrix, at every point. -/
theorem w3_block_apply (c : Dev nD) (t : Fin cfg0.N) (d j : Fin 64) :
    (iblk0 V c 3 t : Vec Ideal S64x64 .f32) (ix2 d j) = (V c main_arg5 : S64x64.Idx → EReal) (ix2 d j) := by
  obtain ⟨-, -, -, -, -, -, e0, e1, -⟩ := block_indices t
  unfold iblk0
  rw [View.read_apply]
  show V c main_arg5 _ = V c main_arg5 _
  congr 1
  funext a
  apply Fin.ext
  match a with
  | ⟨0, _⟩ => show win0_3.index t (0 : Fin 2) * 64 + 1 * d.val = d.val; rw [e0]; omega
  | ⟨1, _⟩ => show win0_3.index t (1 : Fin 2) * 64 + 1 * j.val = j.val; rw [e1]; omega

/-! ## The specification at an index given by its coordinates -/

/-- The projection at the index with row `r` and column `j`. -/
theorem projArr_at (X : Cert.MixSpec.Big.Idx → EReal) (W : Cert.MixSpec.Sq.Idx → EReal) (i : Cert.MixSpec.Big.Idx)
    (r : Fin 100000) (j : Fin 64) (h0 : (i 0).val = r.val) (h1 : (i 1).val = j.val) :
    Cert.MixSpec.projArr X W i = Cert.MixSpec.projRow (fun d => X (ix2 r d)) (fun d j' => W (ix2 d j')) j := by
  obtain rfl : i = ix2 r j := funext fun a => Fin.ext (by
    match a with
    | ⟨0, _⟩ => exact h0
    | ⟨1, _⟩ => exact h1)
  rfl

/-! ## What each point writes back -/

/-- The row of `x` that entry `p` of point `t`'s block is. -/
def rowOf (t : Fin cfg0.N) (p : Fin 2000) : Fin 100000 :=
  ⟨2000 * t.val + p.val, by
    have ht : t.val < cfg0.N := t.isLt
    have hN : cfg0.N = 50 := N_0
    have hp : p.val < 2000 := p.isLt
    omega⟩

/-- Point `t` writes back, to the first result, its block of the projection by the first weights. -/
theorem flushed4_eq (c : Dev nD) (t : Fin cfg0.N) :
    (dat0 V c).flushed 4 t
      = ((cfg0.win 4).blk t).view.read (Elt Ideal) (Cert.MixSpec.projArr (V c main_arg0) (V c main_arg3)) := by
  show (cfg0.win 4).cut (grid0.coords t) ((dat0 V c).after 4 t) = _
  rw [after0_4]
  unfold out0_4
  rw [View.canon_unit_zero zero_offsets]
  simp only [View.ld_unit_zero (S := S2000x64) zero_offsets, View.ld_unit_zero (S := S64x64) zero_offsets]
  obtain ⟨-, -, -, -, -, -, -, -, e0, e1, -⟩ := block_indices t
  funext y
  obtain ⟨p, j, rfl⟩ : ∃ (p : Fin 2000) (j : Fin 64), y = ix2 p j := ⟨y 0, y 1, eq_ix2 y⟩
  rw [View.read_apply]
  show k0_pay2 (iblk0 V c 0 t) (iblk0 V c 1 t) (ix2 p j) = _
  refine (pay2_apply (iblk0 V c 0 t) (iblk0 V c 1 t) p j).trans ?_
  refine Eq.trans ?_ (projArr_at (V c main_arg0) (V c main_arg3) _ (rowOf t p) j ?_ ?_).symm
  · congr 1
    · funext d; exact x_block_apply V c t p d (rowOf t p) rfl
    · funext d j'; exact w1_block_apply V c t d j'
  · show win0_4.index t (0 : Fin 2) * 2000 + 1 * p.val = 2000 * t.val + p.val; rw [e0]; omega
  · show win0_4.index t (1 : Fin 2) * 64 + 1 * j.val = j.val; rw [e1]; omega

/-- Point `t` writes back, to the second result, its block of the projection by the second weights. -/
theorem flushed5_eq (c : Dev nD) (t : Fin cfg0.N) :
    (dat0 V c).flushed 5 t
      = ((cfg0.win 5).blk t).view.read (Elt Ideal) (Cert.MixSpec.projArr (V c main_arg0) (V c main_arg4)) := by
  show (cfg0.win 5).cut (grid0.coords t) ((dat0 V c).after 5 t) = _
  rw [after0_5]
  unfold out0_5
  rw [View.canon_unit_zero zero_offsets]
  simp only [View.ld_unit_zero (S := S2000x64) zero_offsets, View.ld_unit_zero (S := S64x64) zero_offsets]
  obtain ⟨-, -, -, -, -, -, -, -, -, -, e0, e1, -⟩ := block_indices t
  funext y
  obtain ⟨p, j, rfl⟩ : ∃ (p : Fin 2000) (j : Fin 64), y = ix2 p j := ⟨y 0, y 1, eq_ix2 y⟩
  rw [View.read_apply]
  show k0_pay3 (iblk0 V c 0 t) (iblk0 V c 2 t) (ix2 p j) = _
  refine (pay3_apply (iblk0 V c 0 t) (iblk0 V c 2 t) p j).trans ?_
  refine Eq.trans ?_ (projArr_at (V c main_arg0) (V c main_arg4) _ (rowOf t p) j ?_ ?_).symm
  · congr 1
    · funext d; exact x_block_apply V c t p d (rowOf t p) rfl
    · funext d j'; exact w2_block_apply V c t d j'
  · show win0_5.index t (0 : Fin 2) * 2000 + 1 * p.val = 2000 * t.val + p.val; rw [e0]; omega
  · show win0_5.index t (1 : Fin 2) * 64 + 1 * j.val = j.val; rw [e1]; omega

/-- Point `t` writes back, to the third result, its block of the rectified projection by the third weights. -/
theorem flushed6_eq (c : Dev nD) (t : Fin cfg0.N) :
    (dat0 V c).flushed 6 t
      = ((cfg0.win 6).blk t).view.read (Elt Ideal) (Cert.MixSpec.reluArr (Cert.MixSpec.projArr (V c main_arg0) (V c main_arg5))) := by
  show (cfg0.win 6).cut (grid0.coords t) ((dat0 V c).after 6 t) = _
  rw [after0_6]
  unfold out0_6
  rw [View.canon_unit_zero zero_offsets]
  simp only [View.ld_unit_zero (S := S2000x64) zero_offsets, View.ld_unit_zero (S := S64x64) zero_offsets]
  obtain ⟨-, -, -, -, -, -, -, -, -, -, -, -, e0, e1⟩ := block_indices t
  funext y
  obtain ⟨p, j, rfl⟩ : ∃ (p : Fin 2000) (j : Fin 64), y = ix2 p j := ⟨y 0, y 1, eq_ix2 y⟩
  rw [View.read_apply]
  show k0_pay4 (iblk0 V c 0 t) (iblk0 V c 3 t) (ix2 p j) = _
  refine (pay4_apply (iblk0 V c 0 t) (iblk0 V c 3 t) p j).trans ?_
  show _ = max (Cert.MixSpec.projArr (V c main_arg0) (V c main_arg5) _) (Ideal.ofBits .f32 0x00000000#32)
  refine congrArg (fun z => max z (Ideal.ofBits .f32 0x00000000#32)) ?_
  refine Eq.trans ?_ (projArr_at (V c main_arg0) (V c main_arg5) _ (rowOf t p) j ?_ ?_).symm
  · congr 1
    · funext d; exact x_block_apply V c t p d (rowOf t p) rfl
    · funext d j'; exact w3_block_apply V c t d j'
  · show win0_6.index t (0 : Fin 2) * 2000 + 1 * p.val = 2000 * t.val + p.val; rw [e0]; omega
  · show win0_6.index t (1 : Fin 2) * 64 + 1 * j.val = j.val; rw [e1]; omega

/-! ## Every row is covered -/

/-- An index of the array is in point `t`'s block iff each coordinate is in the block's range on its axis. -/
theorem mem_blk4 (t : Fin cfg0.N) (i : S100000x64.Idx) :
    i ∈ ((cfg0.win 4).blk t).view.set ↔ ∀ a : Fin 2, win0_4.index t a * S2000x64.size a ≤ (i a).val
      ∧ (i a).val < win0_4.index t a * S2000x64.size a + S2000x64.size a := by
  show i ∈ ((View.whole main_v0_0).slice (win0_4.rect t)).set ↔ _
  rw [View.set_slice_whole, Rect.mem_set_unit]
  exact Iff.rfl

/-- Every index of the array is in the block of the point its row falls in. -/
theorem cover4 (i : S100000x64.Idx) :
    ∃ t : Fin cfg0.N, (cfg0.win 4).flush t = true ∧ i ∈ ((cfg0.win 4).blk t).view.set := by
  have hi0 : (i 0).val < 100000 := (i 0).isLt
  have hi1 : (i 1).val < 64 := (i 1).isLt
  have hN : cfg0.N = 50 := N_0
  refine ⟨⟨(i 0).val / 2000, by omega⟩, flush0_4 _, ?_⟩
  rw [mem_blk4]
  obtain ⟨-, -, -, -, -, -, -, -, e0, e1, -⟩ := block_indices ⟨(i 0).val / 2000, by omega⟩
  intro a
  match a with
  | ⟨0, _⟩ =>
    show win0_4.index _ (0 : Fin 2) * 2000 ≤ (i 0).val ∧ (i 0).val < win0_4.index _ (0 : Fin 2) * 2000 + 2000
    rw [e0]; show (i 0).val / 2000 * 2000 ≤ (i 0).val ∧ (i 0).val < (i 0).val / 2000 * 2000 + 2000; omega
  | ⟨1, _⟩ =>
    show win0_4.index _ (1 : Fin 2) * 64 ≤ (i 1).val ∧ (i 1).val < win0_4.index _ (1 : Fin 2) * 64 + 64
    rw [e1]; omega

/-- An index of the array is in point `t`'s block iff each coordinate is in the block's range on its axis. -/
theorem mem_blk5 (t : Fin cfg0.N) (i : S100000x64.Idx) :
    i ∈ ((cfg0.win 5).blk t).view.set ↔ ∀ a : Fin 2, win0_5.index t a * S2000x64.size a ≤ (i a).val
      ∧ (i a).val < win0_5.index t a * S2000x64.size a + S2000x64.size a := by
  show i ∈ ((View.whole main_v0_1).slice (win0_5.rect t)).set ↔ _
  rw [View.set_slice_whole, Rect.mem_set_unit]
  exact Iff.rfl

/-- Every index of the array is in the block of the point its row falls in. -/
theorem cover5 (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 50 := N_0
  refine ⟨⟨(i 0).val / 2000, by omega⟩, flush0_5 _, ?_⟩
  rw [mem_blk5]
  obtain ⟨-, -, -, -, -, -, -, -, -, -, e0, e1, -⟩ := block_indices ⟨(i 0).val / 2000, by omega⟩
  intro a
  match a with
  | ⟨0, _⟩ =>
    show win0_5.index _ (0 : Fin 2) * 2000 ≤ (i 0).val ∧ (i 0).val < win0_5.index _ (0 : Fin 2) * 2000 + 2000
    rw [e0]; show (i 0).val / 2000 * 2000 ≤ (i 0).val ∧ (i 0).val < (i 0).val / 2000 * 2000 + 2000; omega
  | ⟨1, _⟩ =>
    show win0_5.index _ (1 : Fin 2) * 64 ≤ (i 1).val ∧ (i 1).val < win0_5.index _ (1 : Fin 2) * 64 + 64
    rw [e1]; omega

/-- An index of the array is in point `t`'s block iff each coordinate is in the block's range on its axis. -/
theorem mem_blk6 (t : Fin cfg0.N) (i : S100000x64.Idx) :
    i ∈ ((cfg0.win 6).blk t).view.set ↔ ∀ a : Fin 2, win0_6.index t a * S2000x64.size a ≤ (i a).val
      ∧ (i a).val < win0_6.index t a * S2000x64.size a + S2000x64.size a := by
  show i ∈ ((View.whole main_v0_2).slice (win0_6.rect t)).set ↔ _
  rw [View.set_slice_whole, Rect.mem_set_unit]
  exact Iff.rfl

/-- Every index of the array is in the block of the point its row falls in. -/
theorem cover6 (i : S100000x64.Idx) :
    ∃ t : Fin cfg0.N, (cfg0.win 6).flush t = true ∧ i ∈ ((cfg0.win 6).blk t).view.set := by
  have hi0 : (i 0).val < 100000 := (i 0).isLt
  have hi1 : (i 1).val < 64 := (i 1).isLt
  have hN : cfg0.N = 50 := N_0
  refine ⟨⟨(i 0).val / 2000, by omega⟩, flush0_6 _, ?_⟩
  rw [mem_blk6]
  obtain ⟨-, -, -, -, -, -, -, -, -, -, -, -, e0, e1⟩ := block_indices ⟨(i 0).val / 2000, by omega⟩
  intro a
  match a with
  | ⟨0, _⟩ =>
    show win0_6.index _ (0 : Fin 2) * 2000 ≤ (i 0).val ∧ (i 0).val < win0_6.index _ (0 : Fin 2) * 2000 + 2000
    rw [e0]; show (i 0).val / 2000 * 2000 ≤ (i 0).val ∧ (i 0).val < (i 0).val / 2000 * 2000 + 2000; omega
  | ⟨1, _⟩ =>
    show win0_6.index _ (1 : Fin 2) * 64 ≤ (i 1).val ∧ (i 1).val < win0_6.index _ (1 : Fin 2) * 64 + 64
    rw [e1]; omega

/-! ## The three result arrays after the region -/

/-- The first result is the projection of `x` by the first weights. -/
theorem proj_arr4 (c : Dev nD) :
    (dat0 (F := Ideal) V c).arrAt 4 cfg0.N = Cert.MixSpec.projArr (V c main_arg0) (V c main_arg3) :=
  (dat0 V c).arrAt_eq_of_cover 4 _ (fun t _ => flushed4_eq V c t) cover4

/-- The second result is the projection of `x` by the second weights. -/
theorem proj_arr5 (c : Dev nD) :
    (dat0 (F := Ideal) V c).arrAt 5 cfg0.N = Cert.MixSpec.projArr (V c main_arg0) (V c main_arg4) :=
  (dat0 V c).arrAt_eq_of_cover 5 _ (fun t _ => flushed5_eq V c t) cover5

/-- The third result is the rectified projection of `x` by the third weights. -/
theorem proj_arr6 (c : Dev nD) :
    (dat0 (F := Ideal) V c).arrAt 6 cfg0.N
      = Cert.MixSpec.reluArr (Cert.MixSpec.projArr (V c main_arg0) (V c main_arg5)) :=
  (dat0 V c).arrAt_eq_of_cover 6 _ (fun t _ => flushed6_eq V c t) cover6

end Cert.KernelIdeal.ProjValue

end
-- ==== Proof.ProjRef.lean ====
/-
  The reference's three projections are the specification's.

  The reference computes `x · W` for the three weight matrices as a contraction of axis 1 of `x` with axis 0 of
  the weights: entry `i` of the result is the sum over `k` of `x (i 0, k) · W (k, i 1)`, which is the
  specification's projected row `i 0` at column `i 1`. The third product is then rectified against a splat of the
  word of 0.0, entry by entry.
-/
import proofs.«148375_j2465311228029_2_alg».proof.Proof.RefRead
import proofs.«148375_j2465311228029_2_alg».proof.Proof.MixSpec

noncomputable section

namespace Cert.ReferenceIdeal.ProjRef

open Idealize.ShloMosaic ValueIdx Cert.ReferenceIdeal Cert.ReferenceIdeal.ReadP

/-! ## The operand indices, in coordinates

  The three products have the same dimension numbers, so the same operand indices: the left operand is read at
  (i 0, k), the right one at (k, i 1). -/

theorem lidx_v0 (i : S100000x64.Idx) (k : Fin 64) : lidx_main_v0 i k = ix2 (n0 := 100000) (i 0) k :=
  funext fun a => Fin.ext (by match a with | ⟨0, _⟩ => rfl | ⟨1, _⟩ => rfl)
theorem ridx_v0 (i : S100000x64.Idx) (k : Fin 64) : ridx_main_v0 i k = ix2 (n1 := 64) k (i 1) :=
  funext fun a => Fin.ext (by match a with | ⟨0, _⟩ => rfl | ⟨1, _⟩ => rfl)
theorem lidx_v15 (i : S100000x64.Idx) (k : Fin 64) : lidx_main_v15 i k = ix2 (n0 := 100000) (i 0) k :=
  funext fun a => Fin.ext (by match a with | ⟨0, _⟩ => rfl | ⟨1, _⟩ => rfl)
theorem ridx_v15 (i : S100000x64.Idx) (k : Fin 64) : ridx_main_v15 i k = ix2 (n1 := 64) k (i 1) :=
  funext fun a => Fin.ext (by match a with | ⟨0, _⟩ => rfl | ⟨1, _⟩ => rfl)
theorem lidx_v30 (i : S100000x64.Idx) (k : Fin 64) : lidx_main_v30 i k = ix2 (n0 := 100000) (i 0) k :=
  funext fun a => Fin.ext (by match a with | ⟨0, _⟩ => rfl | ⟨1, _⟩ => rfl)
theorem ridx_v30 (i : S100000x64.Idx) (k : Fin 64) : ridx_main_v30 i k = ix2 (n1 := 64) k (i 1) :=
  funext fun a => Fin.ext (by match a with | ⟨0, _⟩ => rfl | ⟨1, _⟩ => rfl)

/-! ## The three stages -/

variable (x0 : (⟨S100000x64, .f32⟩ : BufTy).Contents (Elt Ideal)) (w : (⟨S64x64, .f32⟩ : BufTy).Contents (Elt Ideal))

/-- The specification's projection, entry by entry, as the plain sum. -/
theorem projArr_apply (i : S100000x64.Idx) :
    Cert.MixSpec.projArr x0 w i = ∑ k : Fin 64, x0 (ix2 (n0 := 100000) (i 0) k) * w (ix2 (n1 := 64) k (i 1)) := rfl

/-- `x · weight_low`. -/
theorem ref_v0 : val_main_v0 (F := Ideal) x0 w = Cert.MixSpec.projArr x0 w := by
  funext i
  rw [val_main_v0_apply, projArr_apply]
  refine Finset.sum_congr rfl fun k _ => ?_
  rw [lidx_v0, ridx_v0]

/-- `x · weight_high`. -/
theorem ref_v15 : val_main_v15 (F := Ideal) x0 w = Cert.MixSpec.projArr x0 w := by
  funext i
  rw [val_main_v15_apply, projArr_apply]
  refine Finset.sum_congr rfl fun k _ => ?_
  rw [lidx_v15, ridx_v15]

/-- `x · weight_mlp`, before the rectifier. -/
theorem ref_v30 : val_main_v30 (F := Ideal) x0 w = Cert.MixSpec.projArr x0 w := by
  funext i
  rw [val_main_v30_apply, projArr_apply]
  refine Finset.sum_congr rfl fun k _ => ?_
  rw [lidx_v30, ridx_v30]

/-- The rectified `x · weight_mlp`: the larger of each entry and the word of 0.0. -/
theorem ref_v31 : val_main_v31 (F := Ideal) x0 w = Cert.MixSpec.reluArr (Cert.MixSpec.projArr x0 w) := by
  funext i
  rw [val_main_v31_apply, val_main_call2_v0_apply, val_main_call2_cst_apply, ref_v30, Ideal.maximumf_def,
    Ideal.ofBits_def]
  rfl

end Cert.ReferenceIdeal.ProjRef

end
-- ==== Proof.MidArgs.lean ====
/-
  What the buffers hold between the two regions.

  Between the launch and the first region nothing runs, so the first region finds every argument as launched. The
  first region writes only its three results; they end as the three projections of `x`, which are the reference's
  three products. Between the two regions run nine stretches of host operations; each writes only buffers of its
  own, so an argument, or a result of the first region, that none of them writes is found by the second region as
  the first region left it.
-/
import proofs.«148375_j2465311228029_2_alg».proof.Proof.Gen.KernelIdeal.Frame
import proofs.«148375_j2465311228029_2_alg».proof.Proof.MixSpec
import proofs.«148375_j2465311228029_2_alg».proof.Proof.ProjArray
import proofs.«148375_j2465311228029_2_alg».proof.Proof.ProjRef

noncomputable section

namespace Cert.KernelIdeal.MidValue

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

/-! ## A buffer no host operation between the regions writes -/

/-- Closes "no operation of the stretch writes the buffer": the stretch's list is opened, each operation's written
    buffers are listed, and each is another buffer than the one asked about, by comparing the references. -/
local macro "no_write " ops:ident : tactic =>
  `(tactic| (refine List.forall_iff_forall_mem.mp ?_
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

/-- A buffer that none of the nine stretches writes holds, when the second region is entered, what the first region
    left in it. -/
theorem entry1_eq_exit0 (b : Ref sig .tc)
    (h0 : ∀ op ∈ (hostOps1 (F := Ideal)), Proc.devRef (τ := τ) .tc b ∉ op.writes)
    (h1 : ∀ op ∈ (hostOps1_1 (F := Ideal)), Proc.devRef (τ := τ) .tc b ∉ op.writes)
    (h2 : ∀ op ∈ (hostOps1_2 (F := Ideal)), Proc.devRef (τ := τ) .tc b ∉ op.writes)
    (h3 : ∀ op ∈ (hostOps1_3 (F := Ideal)), Proc.devRef (τ := τ) .tc b ∉ op.writes)
    (h4 : ∀ op ∈ (hostOps1_4 (F := Ideal)), Proc.devRef (τ := τ) .tc b ∉ op.writes)
    (h5 : ∀ op ∈ (hostOps1_5 (F := Ideal)), Proc.devRef (τ := τ) .tc b ∉ op.writes)
    (h6 : ∀ op ∈ (hostOps1_6 (F := Ideal)), Proc.devRef (τ := τ) .tc b ∉ op.writes)
    (h7 : ∀ op ∈ (hostOps1_7 (F := Ideal)), Proc.devRef (τ := τ) .tc b ∉ op.writes)
    (h8 : ∀ op ∈ (hostOps1_8 (F := Ideal)), Proc.devRef (τ := τ) .tc b ∉ op.writes) :
    W10 m ρ c (Proc.devRef .tc b) = W1 m ρ c (Proc.devRef .tc b) :=
  calc W10 m ρ c (Proc.devRef .tc b)
    _ = W9 m ρ c (Proc.devRef .tc b) := StableHlo.after_of_forall_not_mem (b := Proc.devRef .tc b) _ _ h8
    _ = W8 m ρ c (Proc.devRef .tc b) := StableHlo.after_of_forall_not_mem (b := Proc.devRef .tc b) _ _ h7
    _ = W7 m ρ c (Proc.devRef .tc b) := StableHlo.after_of_forall_not_mem (b := Proc.devRef .tc b) _ _ h6
    _ = W6 m ρ c (Proc.devRef .tc b) := StableHlo.after_of_forall_not_mem (b := Proc.devRef .tc b) _ _ h5
    _ = W5 m ρ c (Proc.devRef .tc b) := StableHlo.after_of_forall_not_mem (b := Proc.devRef .tc b) _ _ h4
    _ = W4 m ρ c (Proc.devRef .tc b) := StableHlo.after_of_forall_not_mem (b := Proc.devRef .tc b) _ _ h3
    _ = W3 m ρ c (Proc.devRef .tc b) := StableHlo.after_of_forall_not_mem (b := Proc.devRef .tc b) _ _ h2
    _ = W2 m ρ c (Proc.devRef .tc b) := StableHlo.after_of_forall_not_mem (b := Proc.devRef .tc b) _ _ h1
    _ = W1 m ρ c (Proc.devRef .tc b) := StableHlo.after_of_forall_not_mem (b := Proc.devRef .tc b) _ _ h0

/-! ## The arguments the second region reads whole

  The seven attention vectors and the 7×7 matrix: no stretch writes them, the first region does not touch them, and
  nothing runs before the first region; the second region finds them as launched. -/

theorem w10_arg6 : W10 (F := Ideal) m ρ c (Proc.devRef .tc main_arg6) = m ((c.tc : Thread nD τ).loc main_arg6) :=
  (entry1_eq_exit0 m ρ c main_arg6 (by no_write hostOps1) (by no_write hostOps1_1) (by no_write hostOps1_2)
    (by no_write hostOps1_3) (by no_write hostOps1_4) (by no_write hostOps1_5) (by no_write hostOps1_6)
    (by no_write hostOps1_7) (by no_write hostOps1_8)).trans ((W1_of_ne m ρ c main_arg6 (by decide)).trans rfl)

theorem w10_arg7 : W10 (F := Ideal) m ρ c (Proc.devRef .tc main_arg7) = m ((c.tc : Thread nD τ).loc main_arg7) :=
  (entry1_eq_exit0 m ρ c main_arg7 (by no_write hostOps1) (by no_write hostOps1_1) (by no_write hostOps1_2)
    (by no_write hostOps1_3) (by no_write hostOps1_4) (by no_write hostOps1_5) (by no_write hostOps1_6)
    (by no_write hostOps1_7) (by no_write hostOps1_8)).trans ((W1_of_ne m ρ c main_arg7 (by decide)).trans rfl)

theorem w10_arg8 : W10 (F := Ideal) m ρ c (Proc.devRef .tc main_arg8) = m ((c.tc : Thread nD τ).loc main_arg8) :=
  (entry1_eq_exit0 m ρ c main_arg8 (by no_write hostOps1) (by no_write hostOps1_1) (by no_write hostOps1_2)
    (by no_write hostOps1_3) (by no_write hostOps1_4) (by no_write hostOps1_5) (by no_write hostOps1_6)
    (by no_write hostOps1_7) (by no_write hostOps1_8)).trans ((W1_of_ne m ρ c main_arg8 (by decide)).trans rfl)

theorem w10_arg9 : W10 (F := Ideal) m ρ c (Proc.devRef .tc main_arg9) = m ((c.tc : Thread nD τ).loc main_arg9) :=
  (entry1_eq_exit0 m ρ c main_arg9 (by no_write hostOps1) (by no_write hostOps1_1) (by no_write hostOps1_2)
    (by no_write hostOps1_3) (by no_write hostOps1_4) (by no_write hostOps1_5) (by no_write hostOps1_6)
    (by no_write hostOps1_7) (by no_write hostOps1_8)).trans ((W1_of_ne m ρ c main_arg9 (by decide)).trans rfl)

theorem w10_arg10 : W10 (F := Ideal) m ρ c (Proc.devRef .tc main_arg10) = m ((c.tc : Thread nD τ).loc main_arg10) :=
  (entry1_eq_exit0 m ρ c main_arg10 (by no_write hostOps1) (by no_write hostOps1_1) (by no_write hostOps1_2)
    (by no_write hostOps1_3) (by no_write hostOps1_4) (by no_write hostOps1_5) (by no_write hostOps1_6)
    (by no_write hostOps1_7) (by no_write hostOps1_8)).trans ((W1_of_ne m ρ c main_arg10 (by decide)).trans rfl)

theorem w10_arg11 : W10 (F := Ideal) m ρ c (Proc.devRef .tc main_arg11) = m ((c.tc : Thread nD τ).loc main_arg11) :=
  (entry1_eq_exit0 m ρ c main_arg11 (by no_write hostOps1) (by no_write hostOps1_1) (by no_write hostOps1_2)
    (by no_write hostOps1_3) (by no_write hostOps1_4) (by no_write hostOps1_5) (by no_write hostOps1_6)
    (by no_write hostOps1_7) (by no_write hostOps1_8)).trans ((W1_of_ne m ρ c main_arg11 (by decide)).trans rfl)

theorem w10_arg12 : W10 (F := Ideal) m ρ c (Proc.devRef .tc main_arg12) = m ((c.tc : Thread nD τ).loc main_arg12) :=
  (entry1_eq_exit0 m ρ c main_arg12 (by no_write hostOps1) (by no_write hostOps1_1) (by no_write hostOps1_2)
    (by no_write hostOps1_3) (by no_write hostOps1_4) (by no_write hostOps1_5) (by no_write hostOps1_6)
    (by no_write hostOps1_7) (by no_write hostOps1_8)).trans ((W1_of_ne m ρ c main_arg12 (by decide)).trans rfl)

theorem w10_arg13 : W10 (F := Ideal) m ρ c (Proc.devRef .tc main_arg13) = m ((c.tc : Thread nD τ).loc main_arg13) :=
  (entry1_eq_exit0 m ρ c main_arg13 (by no_write hostOps1) (by no_write hostOps1_1) (by no_write hostOps1_2)
    (by no_write hostOps1_3) (by no_write hostOps1_4) (by no_write hostOps1_5) (by no_write hostOps1_6)
    (by no_write hostOps1_7) (by no_write hostOps1_8)).trans ((W1_of_ne m ρ c main_arg13 (by decide)).trans rfl)

/-! ## The arguments only host operations read

  The first region does not touch them: it leaves them as launched. -/

theorem w1_arg1 : W1 (F := Ideal) m ρ c (Proc.devRef .tc main_arg1) = m ((c.tc : Thread nD τ).loc main_arg1) :=
  (W1_of_ne m ρ c main_arg1 (by decide)).trans rfl

theorem w1_arg2 : W1 (F := Ideal) m ρ c (Proc.devRef .tc main_arg2) = m ((c.tc : Thread nD τ).loc main_arg2) :=
  (W1_of_ne m ρ c main_arg2 (by decide)).trans rfl

theorem w1_arg14 : W1 (F := Ideal) m ρ c (Proc.devRef .tc main_arg14) = m ((c.tc : Thread nD τ).loc main_arg14) :=
  (W1_of_ne m ρ c main_arg14 (by decide)).trans rfl

theorem w1_arg15 : W1 (F := Ideal) m ρ c (Proc.devRef .tc main_arg15) = m ((c.tc : Thread nD τ).loc main_arg15) :=
  (W1_of_ne m ρ c main_arg15 (by decide)).trans rfl

theorem w1_arg16 : W1 (F := Ideal) m ρ c (Proc.devRef .tc main_arg16) = m ((c.tc : Thread nD τ).loc main_arg16) :=
  (W1_of_ne m ρ c main_arg16 (by decide)).trans rfl

/-! ## The first region's results

  Each ends as the specification's projection of `x` as launched by the weights as launched, which is the
  reference's product. -/

/-- The first result is the reference's `x · weight_low`. -/
theorem w1_v0_0 : W1 (F := Ideal) m ρ c (Proc.devRef .tc main_v0_0)
    = Cert.ReferenceIdeal.ReadP.val_main_v0 (F := Ideal) (m ((c.tc : Thread nD τ).loc main_arg0))
        (m ((c.tc : Thread nD τ).loc main_arg3)) :=
  (W1_arr m ρ c 4).trans ((ProjValue.proj_arr4 (V0 m ρ) c).trans (Cert.ReferenceIdeal.ProjRef.ref_v0 _ _).symm)

/-- The second result is the reference's `x · weight_high`. -/
theorem w1_v0_1 : W1 (F := Ideal) m ρ c (Proc.devRef .tc main_v0_1)
    = Cert.ReferenceIdeal.ReadP.val_main_v15 (F := Ideal) (m ((c.tc : Thread nD τ).loc main_arg0))
        (m ((c.tc : Thread nD τ).loc main_arg4)) :=
  (W1_arr m ρ c 5).trans ((ProjValue.proj_arr5 (V0 m ρ) c).trans (Cert.ReferenceIdeal.ProjRef.ref_v15 _ _).symm)

/-- The third result is the reference's rectified `x · weight_mlp`. -/
theorem w1_v0_2 : W1 (F := Ideal) m ρ c (Proc.devRef .tc main_v0_2)
    = Cert.ReferenceIdeal.ReadP.val_main_v31 (F := Ideal) (m ((c.tc : Thread nD τ).loc main_arg0))
        (m ((c.tc : Thread nD τ).loc main_arg5)) :=
  (W1_arr m ρ c 6).trans ((ProjValue.proj_arr6 (V0 m ρ) c).trans (Cert.ReferenceIdeal.ProjRef.ref_v31 _ _).symm)

/-- No stretch writes the third result, so the second region finds it as the first region left it. -/
theorem w10_v0_2 : W10 (F := Ideal) m ρ c (Proc.devRef .tc main_v0_2)
    = Cert.ReferenceIdeal.ReadP.val_main_v31 (F := Ideal) (m ((c.tc : Thread nD τ).loc main_arg0))
        (m ((c.tc : Thread nD τ).loc main_arg5)) :=
  (entry1_eq_exit0 m ρ c main_v0_2 (by no_write hostOps1) (by no_write hostOps1_1) (by no_write hostOps1_2)
    (by no_write hostOps1_3) (by no_write hostOps1_4) (by no_write hostOps1_5) (by no_write hostOps1_6)
    (by no_write hostOps1_7) (by no_write hostOps1_8)).trans (w1_v0_2 m ρ c)

end Cert.KernelIdeal.MidValue

end
-- ==== Proof.lean ====
/-
  The proof of `Cert.Claim`: the three frames, the (empty) idealization ledger, and the equality of the idealized kernel's
  and the idealized reference's results on the extended reals.

  The mathematics. The program is one layer of a graph network over 100000 nodes and 1600000 edges. Both programs compute
    h_low = x · W_low,  h_high = x · W_high,  mlp = relu (x · W_mlp)                      (three projections, [100000, 64])
    six neighbourhood sums of relu-ed, edge-weighted, label-masked messages gathered by edge source and scatter-added by
      edge target                                                                       (gathers and scatter-adds on the host)
    out = 7 · Σ_k att_k · branch_k, att the softmax over k of (sigmoid (branch_q · a_q))_q · A / 7   (the attention mix, row by row).
  The kernel program does the projections in its first region (a product of the blocks of x, 2000 rows at a time, by the
  weights), the neighbourhood sums on the host with the very operations of the reference, and the attention mix in its second
  region (again 2000 rows at a time); the reference does everything on the host. At the ideal values a change of float format is
  the identity, a block product into a zero accumulator is the row-by-column sum of products, a lane sum is the sum of the row,
  the kernel's logistic is the host's 1 / (1 + exp (-x)), and both programs take the softmax the same way (shift by the row's
  maximum, exponentials over their sum). So each of the kernel's regions leaves, row by row, the same function of its input
  arrays as the reference's corresponding stages (`Cert.MixSpec.projArr`, `reluArr`, `mixArr`), the host stretch between the
  regions is the reference's own stages up to the order of one product's factors, and the two results are one array.
  No law of the extended reals beyond the commutativity of that one product is used: the precondition is never opened.
-/
import proofs.«148375_j2465311228029_2_alg».proof.Defs
import proofs.«148375_j2465311228029_2_alg».proof.Proof.Gen.Kernel
import proofs.«148375_j2465311228029_2_alg».proof.Proof.Gen.Kernel.Skeleton
import proofs.«148375_j2465311228029_2_alg».proof.Proof.Gen.Kernel.Launch
import proofs.«148375_j2465311228029_2_alg».proof.Proof.Gen.Kernel.Points
import proofs.«148375_j2465311228029_2_alg».proof.Proof.Gen.Kernel.Frame
import proofs.«148375_j2465311228029_2_alg».proof.Proof.Gen.KernelIdeal
import proofs.«148375_j2465311228029_2_alg».proof.Proof.Gen.KernelIdeal.Skeleton
import proofs.«148375_j2465311228029_2_alg».proof.Proof.Gen.KernelIdeal.Launch
import proofs.«148375_j2465311228029_2_alg».proof.Proof.Gen.KernelIdeal.Points
import proofs.«148375_j2465311228029_2_alg».proof.Proof.Gen.KernelIdeal.Frame
import proofs.«148375_j2465311228029_2_alg».proof.Proof.Gen.ReferenceIdeal
import proofs.«148375_j2465311228029_2_alg».proof.Proof.Gen.Pre_finite_inputs
import proofs.«148375_j2465311228029_2_alg».proof.Proof.RefRead
import proofs.«148375_j2465311228029_2_alg».proof.Proof.RefRunFolded
import proofs.«148375_j2465311228029_2_alg».proof.Proof.KernelRun
import proofs.«148375_j2465311228029_2_alg».proof.Proof.MixArray
import proofs.«148375_j2465311228029_2_alg».proof.Proof.MixRef
import proofs.«148375_j2465311228029_2_alg».proof.Proof.MidLow
import proofs.«148375_j2465311228029_2_alg».proof.Proof.MidHigh
import proofs.«148375_j2465311228029_2_alg».proof.Proof.MidArgs
import Idealize.ShloMosaic.Adequacy
import Idealize.ShloMosaic.Init

noncomputable section

namespace Cert.Proof

open Idealize.ShloMosaic Idealize.ShloMosaic.TcCoe Idealize.SL.Sem

/-! ## The kernel's result array, from the launch arguments -/

open Cert.KernelIdeal Cert.KernelIdeal.Gen in
/-- What the second region's write-backs leave in the result buffer: the attention mix of the reference's seven branch
    stages of the launch arguments. -/
theorem kernel_result (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    W11 (F := Ideal) m ρ c (Proc.devRef .tc main_v119)
      = Cert.MixSpec.mixArr (Cert.ReferenceIdeal.ReadP.val_main_v85 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) (Cert.ReferenceIdeal.ReadP.val_main_v112 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)))
      (Cert.ReferenceIdeal.ReadP.val_main_v76 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) (Cert.ReferenceIdeal.ReadP.val_main_v103 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)))
      (Cert.ReferenceIdeal.ReadP.val_main_v94 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) (Cert.ReferenceIdeal.ReadP.val_main_v121 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)))
      (Cert.ReferenceIdeal.ReadP.val_main_v31 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg5))) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) := by
  have hv0 := MidValue.w1_v0_0 m ρ c
  have hv1 := MidValue.w1_v0_1 m ρ c
  have h1 := MidValue.w1_arg1 m ρ c
  have h2 := MidValue.w1_arg2 m ρ c
  have h14 := MidValue.w1_arg14 m ρ c
  have h15 := MidValue.w1_arg15 m ρ c
  have h16 := MidValue.w1_arg16 m ρ c
  have e82 : V10 m ρ c main_v82 = _ := MidValue.mid82 m ρ c hv0 h1 h14 h15 h16
  have e109 : V10 m ρ c main_v109 = _ := MidValue.mid109 m ρ c hv1 h2 h14 h15 h16
  have e73 : V10 m ρ c main_v73 = _ := MidValue.mid73 m ρ c hv0 h1 h14 h15 h16
  have e100 : V10 m ρ c main_v100 = _ := MidValue.mid100 m ρ c hv1 h2 h14 h15 h16
  have e91 : V10 m ρ c main_v91 = _ := MidValue.mid91 m ρ c hv0 h1 h14 h15 h16
  have e118 : V10 m ρ c main_v118 = _ := MidValue.mid118 m ρ c hv1 h2 h14 h15 h16
  have e02 : V10 m ρ c main_v0_2 = _ := MidValue.w10_v0_2 m ρ c
  have e6 : V10 m ρ c main_arg6 = _ := MidValue.w10_arg6 m ρ c
  have e7 : V10 m ρ c main_arg7 = _ := MidValue.w10_arg7 m ρ c
  have e8 : V10 m ρ c main_arg8 = _ := MidValue.w10_arg8 m ρ c
  have e9 : V10 m ρ c main_arg9 = _ := MidValue.w10_arg9 m ρ c
  have e10 : V10 m ρ c main_arg10 = _ := MidValue.w10_arg10 m ρ c
  have e11 : V10 m ρ c main_arg11 = _ := MidValue.w10_arg11 m ρ c
  have e12 : V10 m ρ c main_arg12 = _ := MidValue.w10_arg12 m ρ c
  have e13 : V10 m ρ c main_arg13 = _ := MidValue.w10_arg13 m ρ c
  refine (W11_arr m ρ c 15).trans ((MixValue.mix_arr15 (V10 m ρ) c).trans ?_)
  rw [e82, e109, e73, e100, e91, e118, e02, e6, e7, e8, e9, e10, e11, e12, e13]

/-! ## The claims -/

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run m ρ)

/-- The idealization rewrote nothing: the ledger is empty. -/
theorem preserves : Cert.preserves_Kernel_KernelIdeal := trivial

/-- Both idealized programs end with the attention mix of the same seven branch stages of arguments that agree. -/
theorem algebraic : Cert.algebraic_KernelIdeal_ReferenceIdeal := by
  intro m ρ m' ρ' _ hagree
  refine ⟨fun c => Cert.KernelIdeal.Gen.W11 (F := Ideal) m ρ c (Proc.devRef .tc Cert.KernelIdeal.main_v119),
    Cert.KernelIdeal.RunValue.run_value (F := Ideal) m ρ, ?_⟩
  refine (θ_run Cert.ReferenceIdeal.defs _ _).mono (fun _ h c => ⟨(h c).1.trans ?_, (h c).2⟩)
    (Cert.ReferenceIdeal.ValueP.run m' ρ')
  show Cert.ReferenceIdeal.ReadP.val_main_v178 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16))
    = Cert.KernelIdeal.Gen.W11 (F := Ideal) m ρ c (Proc.devRef .tc Cert.KernelIdeal.main_v119)
  obtain ⟨g0, g1, g2, g3, g4, g5, g6, g7, g8, g9, g10, g11, g12, g13, g14, g15, g16⟩ := hagree c
  rw [Cert.ReferenceIdeal.MixRef.tail_eq, kernel_result m ρ c,
    g0, g1, g2, g3, g4, g5, g6, g7, g8, g9, g10, g11, g12, g13, g14, g15, g16]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
